-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  reducesTo_S_S_d : S_.ReducesTo [] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_v32 : IVec S_ 1) (main_v33 : FVec F S1024 .f32) : IVec S_ 1 :=
  let main_cst_12 : FVec F S_ .f32 := constant S_ .f32 0x7F800000#32
  let main_v34 : FVec F S1024 .f32 := broadcastInDim S1024 ![] bcast_S_S1024 main_cst_12
  let main_v35 : IVec S1024 1 := cmpf .olt main_v33 main_v34
  let main_c_13 : IVec S_ 1 := constantI S_ 1 1#1
  let main_v36 : IVec S_ 1 := (fun x v => Host.reduce IntOp.andi x v reducesTo_S1024_S_d0 h_S_) main_v35 main_c_13
  let main_v37 : IVec S_ 1 := andi main_v32 main_v36
  main_v37

def fn_part1 {F : FTy → Type} [FloatOps F] (main_arg4 : FVec F S4x4096x4096 .f32) (main_arg5 : FVec F S4x4096 .f32) (main_arg6 : FVec F S4096x1024 .f32) (main_arg7 : FVec F S1024 .f32) (main_v12 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v12 main_v16
  let main_v18 : FVec F S4x4096x4096 .f32 := Host.absf main_arg4
  let main_cst_6 : FVec F S_ .f32 := constant S_ .f32 0x7F800000#32
  let main_v19 : FVec F S4x4096x4096 .f32 := broadcastInDim S4x4096x4096 ![] bcast_S_S4x4096x4096 main_cst_6
  let main_v20 : IVec S4x4096x4096 1 := cmpf .olt main_v18 main_v19
  let main_c_7 : IVec S_ 1 := constantI S_ 1 1#1
  let main_v21 : IVec S_ 1 := (fun x v => Host.reduce IntOp.andi x v reducesTo_S4x4096x4096_S_d0_1_2 h_S_) main_v20 main_c_7
  let main_v22 : IVec S_ 1 := andi main_v17 main_v21
  let main_v23 : FVec F S4x4096 .f32 := Host.absf main_arg5
  let main_cst_8 : FVec F S_ .f32 := constant S_ .f32 0x7F800000#32
  let main_v24 : FVec F S4x4096 .f32 := broadcastInDim S4x4096 ![] bcast_S_S4x4096 main_cst_8
  let main_v25 : IVec S4x4096 1 := cmpf .olt main_v23 main_v24
  let main_c_9 : IVec S_ 1 := constantI S_ 1 1#1
  let main_v26 : IVec S_ 1 := (fun x v => Host.reduce IntOp.andi x v reducesTo_S4x4096_S_d0_1 h_S_) main_v25 main_c_9
  let main_v27 : IVec S_ 1 := andi main_v22 main_v26
  let main_v28 : FVec F S4096x1024 .f32 := Host.absf main_arg6
  let main_cst_10 : FVec F S_ .f32 := constant S_ .f32 0x7F800000#32
  let main_v29 : FVec F S4096x1024 .f32 := broadcastInDim S4096x1024 ![] bcast_S_S4096x1024 main_cst_10
  let main_v30 : IVec S4096x1024 1 := cmpf .olt main_v28 main_v29
  let main_c_11 : IVec S_ 1 := constantI S_ 1 1#1
  let main_v31 : IVec S_ 1 := (fun x v => Host.reduce IntOp.andi x v reducesTo_S4096x1024_S_d0_1 h_S_) main_v30 main_c_11
  let main_v32 : IVec S_ 1 := andi main_v27 main_v31
  let main_v33 : FVec F S1024 .f32 := Host.absf main_arg7
  fn_part2 (F := F) main_v32 main_v33

def fn {F : FTy → Type} [FloatOps F] (main_arg0 : FVec F S4096x2048 .f32) (main_arg1 : FVec F S_ .f32) (main_arg2 : FVec F S1024x4096 .f32) (main_arg3 : FVec F S4096 .f32) (main_arg4 : FVec F S4x4096x4096 .f32) (main_arg5 : FVec F S4x4096 .f32) (main_arg6 : FVec F S4096x1024 .f32) (main_arg7 : FVec F S1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x4096 .f32 := Host.absf main_arg2
  let main_cst_2 : FVec F S_ .f32 := constant S_ .f32 0x7F800000#32
  let main_v9 : FVec F S1024x4096 .f32 := broadcastInDim S1024x4096 ![] bcast_S_S1024x4096 main_cst_2
  let main_v10 : IVec S1024x4096 1 := cmpf .olt main_v8 main_v9
  let main_c_3 : IVec S_ 1 := constantI S_ 1 1#1
  let main_v11 : IVec S_ 1 := (fun x v => Host.reduce IntOp.andi x v reducesTo_S1024x4096_S_d0_1 h_S_) main_v10 main_c_3
  let main_v12 : IVec S_ 1 := andi main_v7 main_v11
  let main_v13 : FVec F S4096 .f32 := Host.absf main_arg3
  let main_cst_4 : FVec F S_ .f32 := constant S_ .f32 0x7F800000#32
  let main_v14 : FVec F S4096 .f32 := broadcastInDim S4096 ![] bcast_S_S4096 main_cst_4
  let main_v15 : IVec S4096 1 := cmpf .olt main_v13 main_v14
  let main_c_5 : IVec S_ 1 := constantI S_ 1 1#1
  fn_part1 (F := F) main_arg4 main_arg5 main_arg6 main_arg7 main_v12 main_v15 main_c_5
-- ==== Kernel.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩
abbrev S4096x1024x2 : Shape := ⟨3, ![4096, 1024, 2]⟩
abbrev S4096x1024x1 : Shape := ⟨3, ![4096, 1024, 1]⟩
abbrev S1x4096 : Shape := ⟨2, ![1, 4096]⟩
abbrev S4096x4096 : Shape := ⟨2, ![4096, 4096]⟩
abbrev S2048x1024 : Shape := ⟨2, ![2048, 1024]⟩
abbrev S1024x1024 : Shape := ⟨2, ![1024, 1024]⟩
abbrev S1x1024 : Shape := ⟨2, ![1, 1024]⟩
abbrev S1x4096x4096 : Shape := ⟨3, ![1, 4096, 4096]⟩

abbrev nBuf : Space → Nat
  | .hbm => 49
  | .vmem => 55
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S1024x4096, .f32⟩
  | .hbm, ⟨3, _⟩ => ⟨S4096, .f32⟩
  | .hbm, ⟨4, _⟩ => ⟨S4x4096x4096, .f32⟩
  | .hbm, ⟨5, _⟩ => ⟨S4x4096, .f32⟩
  | .hbm, ⟨6, _⟩ => ⟨S4096x1024, .f32⟩
  | .hbm, ⟨7, _⟩ => ⟨S1024, .f32⟩
  | .hbm, ⟨8, _⟩ => ⟨S4096x1024x2, .f32⟩
  | .hbm, ⟨9, _⟩ => ⟨S4096x1024x1, .f32⟩
  | .hbm, ⟨10, _⟩ => ⟨S4096x1024, .f32⟩
  | .hbm, ⟨11, _⟩ => ⟨S4096x1024x1, .f32⟩
  | .hbm, ⟨12, _⟩ => ⟨S4096x1024, .f32⟩
  | .hbm, ⟨13, _⟩ => ⟨S4096x1024, .bf16⟩
  | .hbm, ⟨14, _⟩ => ⟨S1024x4096, .bf16⟩
  | .hbm, ⟨15, _⟩ => ⟨S4x4096x4096, .bf16⟩
  | .hbm, ⟨16, _⟩ => ⟨S4096x1024, .bf16⟩
  | .hbm, ⟨17, _⟩ => ⟨S1x4096, .f32⟩
  | .hbm, ⟨18, _⟩ => ⟨S4096x4096, .bf16⟩
  | .hbm, ⟨19, _⟩ => ⟨S1x4096x4096, .bf16⟩
  | .hbm, ⟨20, _⟩ => ⟨S4096x4096, .bf16⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S4096x4096, .bf16⟩
  | .hbm, ⟨25, _⟩ => ⟨S1x4096x4096, .bf16⟩
  | .hbm, ⟨26, _⟩ => ⟨S4096x4096, .bf16⟩
  | .hbm, ⟨27, _⟩ => ⟨S1x4096, .f32⟩
  | .hbm, ⟨28, _⟩ => ⟨S4096, .f32⟩
  | .hbm, ⟨29, _⟩ => ⟨S1x4096, .f32⟩
  | .hbm, ⟨30, _⟩ => ⟨S4096x4096, .bf16⟩
  | .hbm, ⟨31, _⟩ => ⟨S1x4096x4096, .bf16⟩
  | .hbm, ⟨32, _⟩ => ⟨S4096x4096, .bf16⟩
  | .hbm, ⟨33, _⟩ => ⟨S1x4096, .f32⟩
  | .hbm, ⟨34, _⟩ => ⟨S4096, .f32⟩
  | .hbm, ⟨35, _⟩ => ⟨S1x4096, .f32⟩
  | .hbm, ⟨36, _⟩ => ⟨S4096x4096, .bf16⟩
  | .hbm, ⟨37, _⟩ => ⟨S1x4096x4096, .bf16⟩
  | .hbm, ⟨38, _⟩ => ⟨S4096x4096, .bf16⟩
  | .hbm, ⟨39, _⟩ => ⟨S1x4096, .f32⟩
  | .hbm, ⟨40, _⟩ => ⟨S4096, .f32⟩
  | .hbm, ⟨41, _⟩ => ⟨S1x4096, .f32⟩
  | .hbm, ⟨42, _⟩ => ⟨S4096x4096, .bf16⟩
  | .hbm, ⟨43, _⟩ => ⟨S1x1024, .f32⟩
  | .hbm, ⟨44, _⟩ => ⟨S4096x1024, .f32⟩
  | .hbm, ⟨45, _⟩ => ⟨S4096x1024x1, .f32⟩
  | .hbm, ⟨46, _⟩ => ⟨S4096x1024x1, .f32⟩
  | .hbm, ⟨47, _⟩ => ⟨S4096x1024x2, .f32⟩
  | .hbm, ⟨48, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S2048x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S2048x1024, .bf16⟩
  | .local _ .vmem, ⟨17, _⟩ => ⟨S2048x1024, .f32⟩
  | .local _ .vmem, ⟨18, _⟩ => ⟨S2048x1024, .bf16⟩
  | .local _ .vmem, ⟨19, _⟩ => ⟨S2048x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1x1024, .f32⟩
  | .local _ .vmem, ⟨23, _⟩ => ⟨S1x1024, .f32⟩
  | .local _ .vmem, ⟨24, _⟩ => ⟨S2048x1024, .bf16⟩
  | .local _ .vmem, ⟨25, _⟩ => ⟨S2048x1024, .bf16⟩
  | .local _ .vmem, ⟨26, _⟩ => ⟨S2048x1024, .f32⟩
  | .local _ .vmem, ⟨27, _⟩ => ⟨S2048x1024, .bf16⟩
  | .local _ .vmem, ⟨28, _⟩ => ⟨S2048x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1x1024, .f32⟩
  | .local _ .vmem, ⟨32, _⟩ => ⟨S1x1024, .f32⟩
  | .local _ .vmem, ⟨33, _⟩ => ⟨S2048x1024, .bf16⟩
  | .local _ .vmem, ⟨34, _⟩ => ⟨S2048x1024, .bf16⟩
  | .local _ .vmem, ⟨35, _⟩ => ⟨S2048x1024, .f32⟩
  | .local _ .vmem, ⟨36, _⟩ => ⟨S2048x1024, .bf16⟩
  | .local _ .vmem, ⟨37, _⟩ => ⟨S2048x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1x1024, .f32⟩
  | .local _ .vmem, ⟨41, _⟩ => ⟨S1x1024, .f32⟩
  | .local _ .vmem, ⟨42, _⟩ => ⟨S2048x1024, .bf16⟩
  | .local _ .vmem, ⟨43, _⟩ => ⟨S2048x1024, .bf16⟩
  | .local _ .vmem, ⟨44, _⟩ => ⟨S2048x1024, .f32⟩
  | .local _ .vmem, ⟨45, _⟩ => ⟨S1024x1024, .bf16⟩
  | .local _ .vmem, ⟨46, _⟩ => ⟨S1024x1024, .bf16⟩
  | .local _ .vmem, ⟨47, _⟩ => ⟨S1024x1024, .bf16⟩
  | .local _ .vmem, ⟨48, _⟩ => ⟨S1024x1024, .bf16⟩
  | .local _ .vmem, ⟨49, _⟩ => ⟨S1x1024, .f32⟩
  | .local _ .vmem, ⟨50, _⟩ => ⟨S1024x1024, .f32⟩
  | .local _ .vmem, ⟨51, _⟩ => ⟨S1024x1024, .f32⟩
  | .local _ .vmem, ⟨52, _⟩ => ⟨S1024x1024, .f32⟩
  | .local _ .vmem, ⟨53, _⟩ => ⟨S1024x1024, .f32⟩
  | .local _ .vmem, ⟨54, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_stg4_1 : Ref sig .tc := ⟨.vmem, 53, rfl⟩
abbrev cc5_scratch0 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem3_1 : DmaSem sig := 46
abbrev cc5_sem4_0 : DmaSem sig := 47
abbrev cc5_sem4_1 : DmaSem sig := 48

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![2, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S2048x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 4], ![false, false, false]⟩

def k4_cond2 (i : grid4.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S2048x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![4, 1, 4], ![false, false, false]⟩

def k5_cond2 (i : grid5.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev stage5_4 : Fin 2 → Memref sig .tc .vmem S1024x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

class Facts₀ : Prop where
  shapeCasts_S4096x2048_S4096x1024x2 : S4096x2048.ShapeCasts S4096x1024x2
  slices_S4096x1024x2_S4096x1024x1_0_0_0 : S4096x1024x2.Slices ![0, 0, 0] S4096x1024x1
  shapeCasts_S4096x1024x1_S4096x1024 : S4096x1024x1.ShapeCasts S4096x1024
  slices_S4096x1024x2_S4096x1024x1_0_0_1 : S4096x1024x2.Slices ![0, 0, 1] S4096x1024x1
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  shapeCasts_S1024_S1x1024 : S1024.ShapeCasts S1x1024
  broadcasts_S1x1024_S1024x1024 : S1x1024.Broadcasts S1024x1024
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  dot_S2048x1024_S1024x1024_S2048x1024_1_0_0_1_n_n_wf : DotDims.WF S2048x1024 S1024x1024 S2048x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .bf16 = 32 ∨ (Rect.block (s := S4096x4096) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S4096x4096.size a
  hwx1_0 : ∀ i : grid1.Coords, EltTy.bits .bf16 = 32 ∨ (Rect.block (s := S4096x4096) S2048x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S4096x4096.size a
  hwx1_3 : ∀ i : grid1.Coords, EltTy.bits .bf16 = 32 ∨ (Rect.block (s := S4096x4096) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x4096.size a
  hwx2_0 : ∀ i : grid2.Coords, EltTy.bits .bf16 = 32 ∨ (Rect.block (s := S4096x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S4096x4096.size a
  hwx2_3 : ∀ i : grid2.Coords, EltTy.bits .bf16 = 32 ∨ (Rect.block (s := S4096x4096) S2048x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S4096x4096.size a
  hwx3_0 : ∀ i : grid3.Coords, EltTy.bits .bf16 = 32 ∨ (Rect.block (s := S4096x4096) S2048x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S4096x4096.size a
  hwx3_3 : ∀ i : grid3.Coords, EltTy.bits .bf16 = 32 ∨ (Rect.block (s := S4096x4096) S2048x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S4096x4096.size a
  hwx4_0 : ∀ i : grid4.Coords, EltTy.bits .bf16 = 32 ∨ (Rect.block (s := S4096x4096) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .bf16 = 32 ∨ (Rect.block (s := S4096x4096) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x1024.size a ≤ S4096x4096.size a
  hwx4_3 : ∀ i : grid4.Coords, EltTy.bits .bf16 = 32 ∨ (Rect.block (s := S4096x4096) S2048x1024.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S4096x4096.size a
  hwx5_0 : ∀ i : grid5.Coords, EltTy.bits .bf16 = 32 ∨ (Rect.block (s := S4096x4096) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x1024.size a
  hwx5_1 : ∀ i : grid5.Coords, EltTy.bits .bf16 = 32 ∨ (Rect.block (s := S4096x1024) S1024x1024.size (cc5_transform_1 i) (hinb5_1 i)).WholeWords (EltTy.packing .bf16)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x1024.size a ≤ S4096x1024.size a
  hwx5_3 : ∀ i : grid5.Coords, EltTy.bits .f32 = 32 ∨ (Rect.block (s := S4096x1024) S1024x1024.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1024x1024.size a ≤ S4096x1024.size a
  hwx5_4 : ∀ i : grid5.Coords, EltTy.bits .f32 = 32 ∨ (Rect.block (s := S4096x1024) S1024x1024.size (cc5_transform_4 i) (hinb5_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v5) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v10) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v16) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S2048x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v22) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S2048x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v28) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v34) S2048x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v34) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S1x1024.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v2) S1024x1024.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v36) S1024x1024.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S_ : Shape := ⟨0, ![]⟩
abbrev S1024x4096 : Shape := ⟨2, ![1024, 4096]⟩
abbrev S4096 : Shape := ⟨1, ![4096]⟩
abbrev S4x4096x4096 : Shape := ⟨3, ![4, 4096, 4096]⟩
abbrev S4x4096 : Shape := ⟨2, ![4, 4096]⟩
abbrev S4096x1024 : Shape := ⟨2, ![4096, 1024]⟩
abbrev S1024 : Shape := ⟨1, ![1024]⟩
abbrev S4096x1024x2 : Shape := ⟨3, ![4096, 1024, 2]⟩
abbrev S4096x1024x1 : Shape := ⟨3, ![4096, 1024, 1]⟩
abbrev S4096x4096 : Shape := ⟨2, ![4096, 4096]⟩
abbrev S1x4096 : Shape := ⟨2, ![1, 4096]⟩
abbrev S1x4096x4096 : Shape := ⟨3, ![1, 4096, 4096]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S_, .f32⟩
  | .hbm, ⟨2, _⟩ => ⟨S1024x4096, .f32⟩
  | .hbm, ⟨3, _⟩ => ⟨S4096, .f32⟩
  | .hbm, ⟨4, _⟩ => ⟨S4x4096x4096, .f32⟩
  | .hbm, ⟨5, _⟩ => ⟨S4x4096, .f32⟩
  | .hbm, ⟨6, _⟩ => ⟨S4096x1024, .f32⟩
  | .hbm, ⟨7, _⟩ => ⟨S1024, .f32⟩
  | .hbm, ⟨8, _⟩ => ⟨S4096x1024x2, .f32⟩
  | .hbm, ⟨9, _⟩ => ⟨S4096x1024x1, .f32⟩
  | .hbm, ⟨10, _⟩ => ⟨S4096x1024, .f32⟩
  | .hbm, ⟨11, _⟩ => ⟨S4096x1024x1, .f32⟩
  | .hbm, ⟨12, _⟩ => ⟨S4096x1024, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S1x4096x4096, .f32⟩
  | .hbm, ⟨21, _⟩ => ⟨S4096x4096, .f32⟩
  | .hbm, ⟨22, _⟩ => ⟨S4096x4096, .f32⟩
  | .hbm, ⟨23, _⟩ => ⟨S1x4096, .f32⟩
  | .hbm, ⟨24, _⟩ => ⟨S4096, .f32⟩
  | .hbm, ⟨25, _⟩ => ⟨S1x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S1x4096x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S1x4096x4096, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S1x4096x4096, .f32⟩
  | .hbm, ⟨54, _⟩ => ⟨S4096x4096, .f32⟩
  | .hbm, ⟨55, _⟩ => ⟨S4096x4096, .f32⟩
  | .hbm, ⟨56, _⟩ => ⟨S1x4096, .f32⟩
  | .hbm, ⟨57, _⟩ => ⟨S4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024x1, .f32⟩
  | .hbm, ⟨70, _⟩ => ⟨S4096x1024x1, .f32⟩
  | .hbm, ⟨71, _⟩ => ⟨S4096x1024x2, .f32⟩
  | .hbm, ⟨72, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_cst : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_cst : Ref sig .tc := ⟨.hbm, 28, rfl⟩
abbrev main_call1_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call2_cst : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call3_cst : Ref sig .tc := ⟨.hbm, 50, rfl⟩
abbrev main_call3_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call4_cst : Ref sig .tc := ⟨.hbm, 61, rfl⟩
abbrev main_call4_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]

class Facts₀ : Prop where
  shapeCasts_S4096x2048_S4096x1024x2 : S4096x2048.ShapeCasts S4096x1024x2
  slices_S4096x1024x2_S4096x1024x1_0_0_0 : S4096x1024x2.Slices ![0, 0, 0] S4096x1024x1
  shapeCasts_S4096x1024x1_S4096x1024 : S4096x1024x1.ShapeCasts S4096x1024
  slices_S4096x1024x2_S4096x1024x1_0_0_1 : S4096x1024x2.Slices ![0, 0, 1] S4096x1024x1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S4096x1024_S4096x1024x1_0_1 : S4096x1024.BroadcastsInDim S4096x1024x1 (![0, 1] : Fin 2 → Fin S4096x1024x1.rank)
  concatenates_S4096x1024x1_S4096x1024x1_S4096x1024x2_d2 : Shape.Concatenates [S4096x1024x1, S4096x1024x1] S4096x1024x2 2
  shapeCasts_S4096x1024x2_S4096x2048 : S4096x1024x2.ShapeCasts S4096x2048
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.R0Runs.lean ====
/-
  Region 0 (the first layer's pallas_call: grid 2 × 4 × 1, the last axis the K blocks): what its runs share.
  The K axis has a single block, so at every point (i, j, 0) the body zeroes the f32 accumulator, adds the block
  product and stores relu(acc + bias) into the output block: one control case, and the output window is live and
  written back at every point.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "this is the first K block": the body's first conditional; it holds at every point. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
/-- "this is the last K block": the body's second conditional; it holds at every point. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is live at every point. -/
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S2048x1024 .bf16 := (Memref.whole cc0_stg3_0 : Memref sig .tc .vmem S2048x1024 .bf16).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The f32 accumulator: a whole scoped buffer of the kernel's own, carried from one grid point to the next. -/
abbrev scM0_0 : Memref sig .tc .vmem S2048x1024 .f32 := Memref.whole cc0_scratch0
abbrev VS0_0 : View sig .tc .vmem S2048x1024 .f32 := scM0_0.view

/-- The other scoped buffers (the other calls' staging buffers and accumulators), which this region never opens. -/
abbrev others0 (c : Dev nD) : sProp 𝕄 :=
  Pipeline.scopedRestBut (Ix := Unit) (Name := ℕ) (U := UR sig nD τ) (Lvl := ℕ) (Val := Elt F) spec0 c [cc0_scratch0]

/-- The class invariant split at the accumulator: the accumulator owned at some contents, the other scoped buffers
    unopened, the generator register at some state. -/
theorem PhiA0_eq (c : Dev nD) :
    (Pipeline.ΦA spec0 c : sProp 𝕄)
      = iprop(iprop(iprop((∃ d, owns (c : Thread nD τ) scM0_0 fullShare d)) ∗ others0 c) ∗ (∃ r, prngReg c r)) := by
  unfold Pipeline.ΦA others0; rw [scopedRest0_split]; simp only [scM0_0, owns_whole]; try rfl

end Cert.Kernel.Fr

end
-- ==== Proof.K.R0RunA.lean ====
/-
  Region 0, its one control case (the accumulator is zeroed, the block product added, then relu(acc + bias) stored to the output block): the body's triple on any whole staging memrefs, by symbolic execution of its skeleton.
  The pieces each written buffer ends with are the witness the run finds.
-/
import proofs.«171407_j40123584479654_2_alg».proof.Proof.K.R0Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Every point: inputs at their blocks; the output's buffer and the accumulator found at anything and each left with
    its pieces written. -/
noncomputable def kernelRun0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R0Frame.lean ====
/-
  Region 0: what its one control case leaves in the output block and in the f32 accumulator at each of the grid's
  points (nothing the body computes depends on the point before: the accumulator is rebuilt from zero at every
  point), the invariant that carries the accumulator's ownership between points, the pipeline's proof data and the
  body obligation at every point.
-/
import proofs.«171407_j40123584479654_2_alg».proof.Proof.K.R0RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store into the output block covers it. -/
theorem cover0_A_3 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x1024.size (by sl_kernel_rfl) y

/-- What the body leaves in the output's staging buffer: its piece read back. -/
def out0_A_3 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) : Vec F S2048x1024 .bf16 :=
  VO0_3.read (Elt F) (VO0_3.writes (Elt F) VO0_3.junk (kernelRun0_A c i arg3 harg3 arg4 harg4 arg5 harg5 arg6 harg6 arg7 harg7 hc0 hc1 x0 x1 x2).1)

/-- The body's stores into the accumulator cover it. -/
theorem scover0_A_0 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What the body leaves in the accumulator: its pieces read back. -/
def sout0_A_0 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) : Vec F S2048x1024 .f32 :=
  VS0_0.read (Elt F) (VS0_0.writes (Elt F) VS0_0.junk (kernelRun0_A c i arg3 harg3 arg4 harg4 arg5 harg5 arg6 harg6 arg7 harg7 hc0 hc1 x0 x1 x2).2.1)

/-! ## What the output block and the accumulator hold after each point -/

/-- After the body at position n: (the output's staging buffer, the accumulator). Every point is in the one control
    case, and what it leaves is a function of the point's input blocks alone. -/
def outsAt0 (c : Dev nD) (n : ℕ) (hn : n < cfg0.N) : Vec F S2048x1024 .bf16 × Vec F S2048x1024 .f32 :=
  (out0_A_3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (hcond0_0 ⟨n, hn⟩) (hcond0_1 ⟨n, hn⟩) (iblk0 V c 0 ⟨n, hn⟩) (iblk0 V c 1 ⟨n, hn⟩) (iblk0 V c 2 ⟨n, hn⟩), sout0_A_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (hcond0_0 ⟨n, hn⟩) (hcond0_1 ⟨n, hn⟩) (iblk0 V c 0 ⟨n, hn⟩) (iblk0 V c 1 ⟨n, hn⟩) (iblk0 V c 2 ⟨n, hn⟩))

theorem outsAt0_A (c : Dev nD) (t : Fin cfg0.N) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)) := rfl

/-! ## The invariant that carries the accumulator -/

/-- Before position n: at the region's entry the class invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the invariant hands the body the accumulator (at
    anything at the region's first point, otherwise at what the point before left, which the body overwrites) and takes
    it back at this point's contents; the output's buffer is found at anything and left at this point's block; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [outsAt0_A V c t]
  unfold out0_A_3 sout0_A_0; (try dsimp only)
  by_cases hz : t.val = 0
  · rw [PhiS0_castSucc V c t, PhiS0_zero V c _ _ hz, PhiA0_eq]
    iintro ⟨⟨⟨HS0, Hoth⟩, Hg⟩, Ho, ⟨%d0, H0⟩, ⟨%d1, H1⟩, ⟨%d2, H2⟩, ⟨%d3, H3⟩⟩
    iapply ((kernelRun0_A c (grid0.coords t) _ _ _ _ _ _ _ _ _ _ (hcond0_0 t) (hcond0_1 t) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _)
  · rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((kernelRun0_A c (grid0.coords t) _ _ _ _ _ _ _ _ _ _ (hcond0_0 t) (hcond0_1 t) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexists _; iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.Kernel.Fr

end
-- ==== Proof.K.R1Runs.lean ====
/-
  Region 1 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "this is the first K block": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last K block": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last K block the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last K block it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x1024 .bf16 := (Memref.whole cc1_stg3_0 : Memref sig .tc .vmem S2048x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)
/-- The f32 accumulator: a whole scoped buffer of the kernel's own, carried from one grid point to the next. -/
abbrev scM1_0 : Memref sig .tc .vmem S2048x1024 .f32 := Memref.whole cc1_scratch0
abbrev VS1_0 : View sig .tc .vmem S2048x1024 .f32 := scM1_0.view

/-- The other scoped buffers (the other calls' staging buffers and accumulators), which this region never opens. -/
abbrev others1 (c : Dev nD) : sProp 𝕄 :=
  Pipeline.scopedRestBut (Ix := Unit) (Name := ℕ) (U := UR sig nD τ) (Lvl := ℕ) (Val := Elt F) spec1 c [cc1_scratch0]

/-- The class invariant split at the accumulator: the accumulator owned at some contents, the other scoped buffers
    unopened, the generator register at some state. -/
theorem PhiA1_eq (c : Dev nD) :
    (Pipeline.ΦA spec1 c : sProp 𝕄)
      = iprop(iprop(iprop((∃ d, owns (c : Thread nD τ) scM1_0 fullShare d)) ∗ others1 c) ∗ (∃ r, prngReg c r)) := by
  unfold Pipeline.ΦA others1; rw [scopedRest1_split]; simp only [scM1_0, owns_whole]; try rfl

end Cert.Kernel.Fr

end
-- ==== Proof.K.R1RunA.lean ====
/-
  Region 1, the first K block (the accumulator is zeroed, then the block product added; nothing stored to the output): the body's triple on any whole staging memrefs, by symbolic execution of its skeleton.
  The pieces each written buffer ends with are the witness the run finds.
-/
import proofs.«171407_j40123584479654_2_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1RunB.lean ====
/-
  Region 1, a middle K block (the block product added to the accumulator; nothing stored to the output): the body's triple on any whole staging memrefs, by symbolic execution of its skeleton.
  The pieces each written buffer ends with are the witness the run finds.
-/
import proofs.«171407_j40123584479654_2_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R1RunC.lean ====
/-
  Region 1, the last K block (the block product added, then relu(acc + bias) stored to the output block): the body's triple on any whole staging memrefs, by symbolic execution of its skeleton.
  The pieces each written buffer ends with are the witness the run finds.
-/
import proofs.«171407_j40123584479654_2_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R1Frame.lean ====
/-
  Region 1: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.K.R1RunA
import proofs.«171407_j40123584479654_2_alg».proof.Proof.K.R1RunB
import proofs.«171407_j40123584479654_2_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out1_A_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) : Vec F S2048x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back. -/
def sout1_A_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output's staging buffer (nothing is stored there: a placeholder no one reads, the window being idle and not written back at these points). -/
def out1_B_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back. -/
def sout1_B_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last K block the one store into the output block covers it. -/
theorem cover1_C_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in the output's staging buffer: its piece read back. -/
def out1_C_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back. -/
def sout1_C_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt1 (c : Dev nD) : (n : ℕ) → n < cfg1.N → Vec F S2048x1024 .bf16 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Cert.Kernel.Fr

end
-- ==== Proof.K.R2Runs.lean ====
/-
  Region 2 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- "this is the first K block": the body's first conditional. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "this is the last K block": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last K block the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last K block it is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S2048x1024 .bf16 := (Memref.whole cc2_stg3_0 : Memref sig .tc .vmem S2048x1024 .bf16).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .bf16 := win2_3.stage (cfg2.slots t 3)
abbrev hs2_3 (t : Fin cfg2.N) : (ms2_3 t).IsWhole := hstage2_3 ((cfg2.slots t 3).cast nbuf2_3)
/-- The f32 accumulator: a whole scoped buffer of the kernel's own, carried from one grid point to the next. -/
abbrev scM2_0 : Memref sig .tc .vmem S2048x1024 .f32 := Memref.whole cc2_scratch0
abbrev VS2_0 : View sig .tc .vmem S2048x1024 .f32 := scM2_0.view

/-- The other scoped buffers (the other calls' staging buffers and accumulators), which this region never opens. -/
abbrev others2 (c : Dev nD) : sProp 𝕄 :=
  Pipeline.scopedRestBut (Ix := Unit) (Name := ℕ) (U := UR sig nD τ) (Lvl := ℕ) (Val := Elt F) spec2 c [cc2_scratch0]

/-- The class invariant split at the accumulator: the accumulator owned at some contents, the other scoped buffers
    unopened, the generator register at some state. -/
theorem PhiA2_eq (c : Dev nD) :
    (Pipeline.ΦA spec2 c : sProp 𝕄)
      = iprop(iprop(iprop((∃ d, owns (c : Thread nD τ) scM2_0 fullShare d)) ∗ others2 c) ∗ (∃ r, prngReg c r)) := by
  unfold Pipeline.ΦA others2; rw [scopedRest2_split]; simp only [scM2_0, owns_whole]; try rfl

end Cert.Kernel.Fr

end
-- ==== Proof.K.R2RunA.lean ====
/-
  Region 2, the first K block (the accumulator is zeroed, then the block product added; nothing stored to the output): the body's triple on any whole staging memrefs, by symbolic execution of its skeleton.
  The pieces each written buffer ends with are the witness the run finds.
-/
import proofs.«171407_j40123584479654_2_alg».proof.Proof.K.R2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R2RunB.lean ====
/-
  Region 2, a middle K block (the block product added to the accumulator; nothing stored to the output): the body's triple on any whole staging memrefs, by symbolic execution of its skeleton.
  The pieces each written buffer ends with are the witness the run finds.
-/
import proofs.«171407_j40123584479654_2_alg».proof.Proof.K.R2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R2RunC.lean ====
/-
  Region 2, the last K block (the block product added, then relu(acc + bias) stored to the output block): the body's triple on any whole staging memrefs, by symbolic execution of its skeleton.
  The pieces each written buffer ends with are the witness the run finds.
-/
import proofs.«171407_j40123584479654_2_alg».proof.Proof.K.R2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R2Frame.lean ====
/-
  Region 2: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.K.R2RunA
import proofs.«171407_j40123584479654_2_alg».proof.Proof.K.R2RunB
import proofs.«171407_j40123584479654_2_alg».proof.Proof.K.R2RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out2_A_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .bf16 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it. -/
theorem scover2_A_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What case A leaves in the accumulator: its pieces read back. -/
def sout2_A_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case B leaves in the output's staging buffer (nothing is stored there: a placeholder no one reads, the window being idle and not written back at these points). -/
def out2_B_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) : Vec F S2048x1024 .bf16 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it. -/
theorem scover2_B_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S2048x1024.size (by sl_kernel_rfl) y

/-- What case B leaves in the accumulator: its pieces read back. -/
def sout2_B_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) : Vec F S2048x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last K block the one store into the output block covers it. -/
theorem cover2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S2048x1024.size (by sl_kernel_rfl) y

/-- What case C leaves in the output's staging buffer: its piece read back. -/
def out2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) : Vec F S2048x1024 .bf16 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it. -/
theorem scover2_C_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S2048x1024.size (by sl_kernel_rfl) y

/-- What case C leaves in the accumulator: its pieces read back. -/
def sout2_C_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) : Vec F S2048x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt2 (c : Dev nD) : (n : ℕ) → n < cfg2.N → Vec F S2048x1024 .bf16 × Vec F S2048x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 32 := lt_of_lt_of_eq t.isLt (show cfg2.N = 32 from N_2)
  by_cases h0 : t.val % 4 = 0
  · by_cases h1 : t.val % 4 = 3
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hoth⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hoth⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Cert.Kernel.Fr

end
-- ==== Proof.K.R3Runs.lean ====
/-
  Region 3 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, in closed form over the grid -/

/-- "this is the first K block": the body's first conditional. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "this is the last K block": the body's second conditional. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last K block the output window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last K block it is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S2048x1024 .bf16 := (Memref.whole cc3_stg3_0 : Memref sig .tc .vmem S2048x1024 .bf16).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x1024 .bf16 := win3_3.stage (cfg3.slots t 3)
abbrev hs3_3 (t : Fin cfg3.N) : (ms3_3 t).IsWhole := hstage3_3 ((cfg3.slots t 3).cast nbuf3_3)
/-- The f32 accumulator: a whole scoped buffer of the kernel's own, carried from one grid point to the next. -/
abbrev scM3_0 : Memref sig .tc .vmem S2048x1024 .f32 := Memref.whole cc3_scratch0
abbrev VS3_0 : View sig .tc .vmem S2048x1024 .f32 := scM3_0.view

/-- The other scoped buffers (the other calls' staging buffers and accumulators), which this region never opens. -/
abbrev others3 (c : Dev nD) : sProp 𝕄 :=
  Pipeline.scopedRestBut (Ix := Unit) (Name := ℕ) (U := UR sig nD τ) (Lvl := ℕ) (Val := Elt F) spec3 c [cc3_scratch0]

/-- The class invariant split at the accumulator: the accumulator owned at some contents, the other scoped buffers
    unopened, the generator register at some state. -/
theorem PhiA3_eq (c : Dev nD) :
    (Pipeline.ΦA spec3 c : sProp 𝕄)
      = iprop(iprop(iprop((∃ d, owns (c : Thread nD τ) scM3_0 fullShare d)) ∗ others3 c) ∗ (∃ r, prngReg c r)) := by
  unfold Pipeline.ΦA others3; rw [scopedRest3_split]; simp only [scM3_0, owns_whole]; try rfl

end Cert.Kernel.Fr

end
-- ==== Proof.K.R3RunA.lean ====
/-
  Region 3, the first K block (the accumulator is zeroed, then the block product added; nothing stored to the output): the body's triple on any whole staging memrefs, by symbolic execution of its skeleton.
  The pieces each written buffer ends with are the witness the run finds.
-/
import proofs.«171407_j40123584479654_2_alg».proof.Proof.K.R3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R3RunB.lean ====
/-
  Region 3, a middle K block (the block product added to the accumulator; nothing stored to the output): the body's triple on any whole staging memrefs, by symbolic execution of its skeleton.
  The pieces each written buffer ends with are the witness the run finds.
-/
import proofs.«171407_j40123584479654_2_alg».proof.Proof.K.R3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R3RunC.lean ====
/-
  Region 3, the last K block (the block product added, then relu(acc + bias) stored to the output block): the body's triple on any whole staging memrefs, by symbolic execution of its skeleton.
  The pieces each written buffer ends with are the witness the run finds.
-/
import proofs.«171407_j40123584479654_2_alg».proof.Proof.K.R3Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R3Frame.lean ====
/-
  Region 3: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.K.R3RunA
import proofs.«171407_j40123584479654_2_alg».proof.Proof.K.R3RunB
import proofs.«171407_j40123584479654_2_alg».proof.Proof.K.R3RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out3_A_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) : Vec F S2048x1024 .bf16 :=
  VO3_3.read (Elt F) (VO3_3.writes (Elt F) VO3_3.junk (kernelRun3_A c i arg3 harg3 arg4 harg4 arg5 harg5 arg6 harg6 arg7 harg7 hc0 hc1 x0 x1 x2).1)

/-- Case A's stores into the accumulator cover it. -/
theorem scover3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) (y : S2048x1024.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S2048x1024.size (by sl_kernel_rfl) y

/-- What case A leaves in the accumulator: its pieces read back. -/
def sout3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) : Vec F S2048x1024 .f32 :=
  VS3_0.read (Elt F) (VS3_0.writes (Elt F) VS3_0.junk (kernelRun3_A c i arg3 harg3 arg4 harg4 arg5 harg5 arg6 harg6 arg7 harg7 hc0 hc1 x0 x1 x2).2.1)

/-- What case B leaves in the output's staging buffer (nothing is stored there: a placeholder no one reads, the window being idle and not written back at these points). -/
def out3_B_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) : Vec F S2048x1024 .bf16 :=
  VO3_3.read (Elt F) (VO3_3.writes (Elt F) VO3_3.junk (kernelRun3_B c i arg3 harg3 arg4 harg4 arg5 harg5 arg6 harg6 arg7 harg7 hc0 hc1 x0 x1 x2 xs0).1)

/-- Case B's stores into the accumulator cover it. -/
theorem scover3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S2048x1024.size (by sl_kernel_rfl) y

/-- What case B leaves in the accumulator: its pieces read back. -/
def sout3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) : Vec F S2048x1024 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- At the last K block the one store into the output block covers it. -/
theorem cover3_C_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S2048x1024.size (by sl_kernel_rfl) y

/-- What case C leaves in the output's staging buffer: its piece read back. -/
def out3_C_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) : Vec F S2048x1024 .bf16 :=
  VO3_3.read (Elt F) (VO3_3.writes (Elt F) VO3_3.junk (kernelRun3_C c i arg3 harg3 arg4 harg4 arg5 harg5 arg6 harg6 arg7 harg7 hc0 hc1 x0 x1 x2 xs0).1)

/-- Case C's stores into the accumulator cover it. -/
theorem scover3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S2048x1024.size (by sl_kernel_rfl) y

/-- What case C leaves in the accumulator: its pieces read back. -/
def sout3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) : Vec F S2048x1024 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt3 (c : Dev nD) : (n : ℕ) → n < cfg3.N → Vec F S2048x1024 .bf16 × Vec F S2048x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hoth⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hoth⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

end Cert.Kernel.Fr

end
-- ==== Proof.K.R4Runs.lean ====
/-
  Region 4 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, in closed form over the grid -/

/-- "this is the first K block": the body's first conditional. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "this is the last K block": the body's second conditional. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last K block the output window is idle and is not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last K block it is live. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S2048x1024 .bf16 := (Memref.whole cc4_stg3_0 : Memref sig .tc .vmem S2048x1024 .bf16).view
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x1024 .bf16 := win4_3.stage (cfg4.slots t 3)
abbrev hs4_3 (t : Fin cfg4.N) : (ms4_3 t).IsWhole := hstage4_3 ((cfg4.slots t 3).cast nbuf4_3)
/-- The f32 accumulator: a whole scoped buffer of the kernel's own, carried from one grid point to the next. -/
abbrev scM4_0 : Memref sig .tc .vmem S2048x1024 .f32 := Memref.whole cc4_scratch0
abbrev VS4_0 : View sig .tc .vmem S2048x1024 .f32 := scM4_0.view

/-- The other scoped buffers (the other calls' staging buffers and accumulators), which this region never opens. -/
abbrev others4 (c : Dev nD) : sProp 𝕄 :=
  Pipeline.scopedRestBut (Ix := Unit) (Name := ℕ) (U := UR sig nD τ) (Lvl := ℕ) (Val := Elt F) spec4 c [cc4_scratch0]

/-- The class invariant split at the accumulator: the accumulator owned at some contents, the other scoped buffers
    unopened, the generator register at some state. -/
theorem PhiA4_eq (c : Dev nD) :
    (Pipeline.ΦA spec4 c : sProp 𝕄)
      = iprop(iprop(iprop((∃ d, owns (c : Thread nD τ) scM4_0 fullShare d)) ∗ others4 c) ∗ (∃ r, prngReg c r)) := by
  unfold Pipeline.ΦA others4; rw [scopedRest4_split]; simp only [scM4_0, owns_whole]; try rfl

end Cert.Kernel.Fr

end
-- ==== Proof.K.R4RunA.lean ====
/-
  Region 4, the first K block (the accumulator is zeroed, then the block product added; nothing stored to the output): the body's triple on any whole staging memrefs, by symbolic execution of its skeleton.
  The pieces each written buffer ends with are the witness the run finds.
-/
import proofs.«171407_j40123584479654_2_alg».proof.Proof.K.R4Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun4_A (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R4RunB.lean ====
/-
  Region 4, a middle K block (the block product added to the accumulator; nothing stored to the output): the body's triple on any whole staging memrefs, by symbolic execution of its skeleton.
  The pieces each written buffer ends with are the witness the run finds.
-/
import proofs.«171407_j40123584479654_2_alg».proof.Proof.K.R4Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun4_B (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.K.R4RunC.lean ====
/-
  Region 4, the last K block (the block product added, then relu(acc + bias) stored to the output block): the body's triple on any whole staging memrefs, by symbolic execution of its skeleton.
  The pieces each written buffer ends with are the witness the run finds.
-/
import proofs.«171407_j40123584479654_2_alg».proof.Proof.K.R4Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun4_C (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.K.R4Frame.lean ====
/-
  Region 4: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.K.R4RunA
import proofs.«171407_j40123584479654_2_alg».proof.Proof.K.R4RunB
import proofs.«171407_j40123584479654_2_alg».proof.Proof.K.R4RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out4_A_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) : Vec F S2048x1024 .bf16 :=
  VO4_3.read (Elt F) (VO4_3.writes (Elt F) VO4_3.junk (kernelRun4_A c i arg3 harg3 arg4 harg4 arg5 harg5 arg6 harg6 arg7 harg7 hc0 hc1 x0 x1 x2).1)

/-- Case A's stores into the accumulator cover it. -/
theorem scover4_A_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) (y : S2048x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S2048x1024.size (by sl_kernel_rfl) y

/-- What case A leaves in the accumulator: its pieces read back. -/
def sout4_A_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) : Vec F S2048x1024 .f32 :=
  VS4_0.read (Elt F) (VS4_0.writes (Elt F) VS4_0.junk (kernelRun4_A c i arg3 harg3 arg4 harg4 arg5 harg5 arg6 harg6 arg7 harg7 hc0 hc1 x0 x1 x2).2.1)

/-- What case B leaves in the output's staging buffer (nothing is stored there: a placeholder no one reads, the window being idle and not written back at these points). -/
def out4_B_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) : Vec F S2048x1024 .bf16 :=
  VO4_3.read (Elt F) (VO4_3.writes (Elt F) VO4_3.junk (kernelRun4_B c i arg3 harg3 arg4 harg4 arg5 harg5 arg6 harg6 arg7 harg7 hc0 hc1 x0 x1 x2 xs0).1)

/-- Case B's stores into the accumulator cover it. -/
theorem scover4_B_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S2048x1024.size (by sl_kernel_rfl) y

/-- What case B leaves in the accumulator: its pieces read back. -/
def sout4_B_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) : Vec F S2048x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- At the last K block the one store into the output block covers it. -/
theorem cover4_C_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S2048x1024.size (by sl_kernel_rfl) y

/-- What case C leaves in the output's staging buffer: its piece read back. -/
def out4_C_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) : Vec F S2048x1024 .bf16 :=
  VO4_3.read (Elt F) (VO4_3.writes (Elt F) VO4_3.junk (kernelRun4_C c i arg3 harg3 arg4 harg4 arg5 harg5 arg6 harg6 arg7 harg7 hc0 hc1 x0 x1 x2 xs0).1)

/-- Case C's stores into the accumulator cover it. -/
theorem scover4_C_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S2048x1024.size (by sl_kernel_rfl) y

/-- What case C leaves in the accumulator: its pieces read back. -/
def sout4_C_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) : Vec F S2048x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt4 (c : Dev nD) : (n : ℕ) → n < cfg4.N → Vec F S2048x1024 .bf16 × Vec F S2048x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ others4 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h0 : t.val % 4 = 0
  · by_cases h1 : t.val % 4 = 3
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hoth⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover4_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, Hoth⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover4_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hoth⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hoth⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 32 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hoth⟩, Hg⟩
  isplitl [HS0 Hoth]
  · isplitl [HS0]
    · iexists _; iexact HS0
    iexact Hoth
  iexact Hg

end Cert.Kernel.Fr

end
-- ==== Proof.K.R5Runs.lean ====
/-
  Region 5 (the last layer's pallas_call, with the residual: grid 4 × 1 × 4, the last axis the K blocks): what its
  runs share. A point t of the grid is (i, 0, k) with k = t mod 4. The body zeroes the f32 accumulator when k = 0,
  adds the block product at every point, and stores acc + bias + residual into the output block when k = 3; so the
  body has three control cases (first / middle / last K block) and the output window is idle except at the last K
  block. The residual operand is an input window like the others.
-/
import proofs.«171407_j40123584479654_2_alg».proof.Proof.Gen.Kernel.Launch
import proofs.«171407_j40123584479654_2_alg».proof.Proof.Gen.Kernel.Skeleton
import proofs.«171407_j40123584479654_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions, in closed form over the grid -/

/-- "this is the first K block": the body's first conditional. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
/-- "this is the last K block": the body's second conditional. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Away from the last K block the output window is idle and is not written back. -/
theorem idleAt5_4_A : ∀ t : Fin cfg5.N, cond5_0 (grid5.coords t) → ¬cond5_1 (grid5.coords t) → cfg5.idle 4 (grid5.coords t) = true := by decide +kernel
theorem noFlush5_4_A : ∀ t : Fin cfg5.N, cond5_0 (grid5.coords t) → ¬cond5_1 (grid5.coords t) → (cfg5.win 4).flush t = false := by decide +kernel
theorem idleAt5_4_B : ∀ t : Fin cfg5.N, ¬cond5_0 (grid5.coords t) → ¬cond5_1 (grid5.coords t) → cfg5.idle 4 (grid5.coords t) = true := by decide +kernel
theorem noFlush5_4_B : ∀ t : Fin cfg5.N, ¬cond5_0 (grid5.coords t) → ¬cond5_1 (grid5.coords t) → (cfg5.win 4).flush t = false := by decide +kernel
/-- At the last K block it is live. -/
theorem liveAt5_4_C : ∀ t : Fin cfg5.N, ¬cond5_0 (grid5.coords t) → cond5_1 (grid5.coords t) → cfg5.idle 4 (grid5.coords t) = false := by decide +kernel

/-! ## The memrefs the body is called with -/

/-- One staging buffer of the output window, through which its contents are stated. -/
abbrev VO5_4 : View sig .tc .vmem S1024x1024 .f32 := (Memref.whole cc5_stg4_0 : Memref sig .tc .vmem S1024x1024 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x1024 .f32 := win5_4.stage (cfg5.slots t 4)
abbrev hs5_4 (t : Fin cfg5.N) : (ms5_4 t).IsWhole := hstage5_4 ((cfg5.slots t 4).cast nbuf5_4)
/-- The f32 accumulator: a whole scoped buffer of the kernel's own, carried from one grid point to the next. -/
abbrev scM5_0 : Memref sig .tc .vmem S1024x1024 .f32 := Memref.whole cc5_scratch0
abbrev VS5_0 : View sig .tc .vmem S1024x1024 .f32 := scM5_0.view

/-- The other scoped buffers (the other calls' staging buffers and accumulators), which this region never opens. -/
abbrev others5 (c : Dev nD) : sProp 𝕄 :=
  Pipeline.scopedRestBut (Ix := Unit) (Name := ℕ) (U := UR sig nD τ) (Lvl := ℕ) (Val := Elt F) spec5 c [cc5_scratch0]

/-- The class invariant split at the accumulator: the accumulator owned at some contents, the other scoped buffers
    unopened, the generator register at some state. -/
theorem PhiA5_eq (c : Dev nD) :
    (Pipeline.ΦA spec5 c : sProp 𝕄)
      = iprop(iprop(iprop((∃ d, owns (c : Thread nD τ) scM5_0 fullShare d)) ∗ others5 c) ∗ (∃ r, prngReg c r)) := by
  unfold Pipeline.ΦA others5; rw [scopedRest5_split]; simp only [scM5_0, owns_whole]; try rfl

end Cert.Kernel.Fr

end
-- ==== Proof.K.R5RunA.lean ====
/-
  Region 5, the first K block (the accumulator is zeroed, then the block product added; nothing stored to the output): the body's triple on any whole staging memrefs, by symbolic execution of its skeleton.
  The pieces each written buffer ends with are the witness the run finds.
-/
import proofs.«171407_j40123584479654_2_alg».proof.Proof.K.R5Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨[], ?_, fun xi4 E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.R5RunB.lean ====
/-
  Region 5, a middle K block (the block product added to the accumulator; nothing stored to the output): the body's triple on any whole staging memrefs, by symbolic execution of its skeleton.
  The pieces each written buffer ends with are the witness the run finds.
-/
import proofs.«171407_j40123584479654_2_alg».proof.Proof.K.R5Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨[], ?_, fun xi4 E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Fr

end
-- ==== Proof.K.R5RunC.lean ====
/-
  Region 5, the last K block (the block product added, then acc + bias + residual stored to the output block): the body's triple on any whole staging memrefs, by symbolic execution of its skeleton.
  The pieces each written buffer ends with are the witness the run finds.
-/
import proofs.«171407_j40123584479654_2_alg».proof.Proof.K.R5Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨?_, ?_, fun E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Fr

end
-- ==== Proof.K.R5Frame.lean ====
/-
  Region 5: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.K.R5RunA
import proofs.«171407_j40123584479654_2_alg».proof.Proof.K.R5RunB
import proofs.«171407_j40123584479654_2_alg».proof.Proof.K.R5RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out5_A_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) : Vec F S1024x1024 .f32 :=
  VO5_4.read (Elt F) (VO5_4.writes (Elt F) VO5_4.junk (kernelRun5_A c i arg3 harg3 arg4 harg4 arg5 harg5 arg6 harg6 arg7 harg7 arg8 harg8 hc0 hc1 x0 x1 x2 x3).1)

/-- Case A's stores into the accumulator cover it. -/
theorem scover5_A_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) (y : S1024x1024.Idx) :
    ∃ pc ∈ (kernelRun5_A c i arg3 harg3 arg4 harg4 arg5 harg5 arg6 harg6 arg7 harg7 arg8 harg8 hc0 hc1 x0 x1 x2 x3).2.1, y ∈ pc.1.set :=
  View.cover_of_tiledL (kernelRun5_A c i arg3 harg3 arg4 harg4 arg5 harg5 arg6 harg6 arg7 harg7 arg8 harg8 hc0 hc1 x0 x1 x2 x3).2.1 S1024x1024.size (by sl_kernel_rfl) y

/-- What case A leaves in the accumulator: its pieces read back. -/
def sout5_A_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) : Vec F S1024x1024 .f32 :=
  VS5_0.read (Elt F) (VS5_0.writes (Elt F) VS5_0.junk (kernelRun5_A c i arg3 harg3 arg4 harg4 arg5 harg5 arg6 harg6 arg7 harg7 arg8 harg8 hc0 hc1 x0 x1 x2 x3).2.1)

/-- What case B leaves in the output's staging buffer (nothing is stored there: a placeholder no one reads, the window being idle and not written back at these points). -/
def out5_B_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VO5_4.read (Elt F) (VO5_4.writes (Elt F) VO5_4.junk (kernelRun5_B c i arg3 harg3 arg4 harg4 arg5 harg5 arg6 harg6 arg7 harg7 arg8 harg8 hc0 hc1 x0 x1 x2 x3 xs0).1)

/-- Case B's stores into the accumulator cover it. -/
theorem scover5_B_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_B c i arg3 harg3 arg4 harg4 arg5 harg5 arg6 harg6 arg7 harg7 arg8 harg8 hc0 hc1 x0 x1 x2 x3 xs0).2.1, y ∈ pc.1.set :=
  View.cover_of_tiledL (kernelRun5_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back. -/
def sout5_B_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VS5_0.read (Elt F) (VS5_0.writes (Elt F) VS5_0.junk (kernelRun5_B c i arg3 harg3 arg4 harg4 arg5 harg5 arg6 harg6 arg7 harg7 arg8 harg8 hc0 hc1 x0 x1 x2 x3 xs0).2.1)

/-- At the last K block the one store into the output block covers it. -/
theorem cover5_C_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_C c i arg3 harg3 arg4 harg4 arg5 harg5 arg6 harg6 arg7 harg7 arg8 harg8 hc0 hc1 x0 x1 x2 x3 xs0).1, y ∈ pc.1.set :=
  View.cover_of_tiledL (kernelRun5_C c i arg3 harg3 arg4 harg4 arg5 harg5 arg6 harg6 arg7 harg7 arg8 harg8 hc0 hc1 x0 x1 x2 x3 xs0).1 S1024x1024.size (by sl_kernel_rfl) y

/-- What case C leaves in the output's staging buffer: its piece read back. -/
def out5_C_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VO5_4.read (Elt F) (VO5_4.writes (Elt F) VO5_4.junk (kernelRun5_C c i arg3 harg3 arg4 harg4 arg5 harg5 arg6 harg6 arg7 harg7 arg8 harg8 hc0 hc1 x0 x1 x2 x3 xs0).1)

/-- Case C's stores into the accumulator cover it. -/
theorem scover5_C_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_C c i arg3 harg3 arg4 harg4 arg5 harg5 arg6 harg6 arg7 harg7 arg8 harg8 hc0 hc1 x0 x1 x2 x3 xs0).2.1, y ∈ pc.1.set :=
  View.cover_of_tiledL (kernelRun5_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back. -/
def sout5_C_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VS5_0.read (Elt F) (VS5_0.writes (Elt F) VS5_0.junk (kernelRun5_C c i arg3 harg3 arg4 harg4 arg5 harg5 arg6 harg6 arg7 harg7 arg8 harg8 hc0 hc1 x0 x1 x2 x3 xs0).2.1)

/-! ## What the output block and the accumulator hold after each point -/

/-- After the body at position n: (the output's staging buffer, the accumulator). The case is decided by n mod 4;
    a middle or last K block runs over the accumulator the point before left. -/
def outsAt5 (c : Dev nD) : (n : ℕ) → n < cfg5.N → Vec F S1024x1024 .f32 × Vec F S1024x1024 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h0 : (n + 1) % 4 = 0 then
      if h1 : (n + 1) % 4 = 3 then
        False.elim (by omega)
      else
        (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩))
    else
      if h1 : (n + 1) % 4 = 3 then
        (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)
      else
        (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

theorem outsAt5_A (c : Dev nD) (t : Fin cfg5.N) (h0 : t.val % 4 = 0) (h1 : ¬t.val % 4 = 3) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ others5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ others5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ others5 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 16 := lt_of_lt_of_eq t.isLt (show cfg5.N = 16 from N_5)
  by_cases h0 : t.val % 4 = 0
  · by_cases h1 : t.val % 4 = 3
    · exfalso; omega
    · rw [Dat.leavesExact_idle (dat5 V c) 4 t (idleAt5_4_A t ((hcond5_0 t).mpr h0) (fun h => h1 ((hcond5_1 t).mp h))) (noFlush5_4_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS5_castSucc V c t, PhiS5_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat5 V c).leavesExact 4 t = owns (c : Thread nD τ) (ms5_4 t) fullShare ((dat5 V c).after 4 t) from by
        unfold Dat.leavesExact; rw [liveAt5_4_C t (fun h => h0 ((hcond5_0 t).mp h)) ((hcond5_1 t).mpr h1)], after5_4]
      rw [outsAt5_C V c t h0 h1]
      unfold out5_C_4 sout5_C_0; (try dsimp only)
      rw [PhiS5_castSucc V c t, PhiS5_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover5_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_C_4 c _ _ _ _ _ _ _ _ _ _ _ _ _ _ _ _ _ _ _ _)
    · rw [Dat.leavesExact_idle (dat5 V c) 4 t (idleAt5_4_B t (fun h => h0 ((hcond5_0 t).mp h)) (fun h => h1 ((hcond5_1 t).mp h))) (noFlush5_4_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover5_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: the accumulator's contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 16 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hoth⟩, Hg⟩
  isplitl [HS0 Hoth]
  · isplitl [HS0]
    · iexists _; iexact HS0
    iexact Hoth
  iexact Hg

end Cert.Kernel.Fr

end
-- ==== Proof.K.Chain.lean ====
/-
  The whole run of @main: seven stretches of host operations and six pallas_calls, chained. Between two items every
  unscoped buffer of a core is held at a named valuation W0 … W13: W0 the launch memory, an odd step applies a host
  stretch's operations, an even step replaces a region's arrays by what its pipeline leaves (its inputs unchanged, its
  output the fold of the blocks written back). The run's post gives every unscoped buffer at W13, from which both the
  frame (no item writes an argument) and the result's value are read.
-/
import proofs.«171407_j40123584479654_2_alg».proof.Proof.K.R0Frame
import proofs.«171407_j40123584479654_2_alg».proof.Proof.K.R1Frame
import proofs.«171407_j40123584479654_2_alg».proof.Proof.K.R2Frame
import proofs.«171407_j40123584479654_2_alg».proof.Proof.K.R3Frame
import proofs.«171407_j40123584479654_2_alg».proof.Proof.K.R4Frame
import proofs.«171407_j40123584479654_2_alg».proof.Proof.K.R5Frame
import proofs.«171407_j40123584479654_2_alg».proof.Proof.Gen.Kernel.Regions
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Adequacy
import Idealize.ShloMosaic.Init

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After host stretch 0: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: an input window's array ends as it was entered. -/
theorem W2_keep (c : Dev nD) (r : Ref sig .tc) (hr : r ≠ Pipeline.arrRef spec0 3) :
    W2 m ρ c (Proc.devRef .tc r) = W1 m ρ c (Proc.devRef .tc r) := by
  by_cases h0 : Pipeline.arrRef spec0 0 = r
  · subst h0; exact (W2_arr m ρ c 0).trans (((dat0 (V1 m ρ) c).arrAt_in 0 rfl _).trans (A_eq0 (V1 m ρ) c 0))
  by_cases h1 : Pipeline.arrRef spec0 1 = r
  · subst h1; exact (W2_arr m ρ c 1).trans (((dat0 (V1 m ρ) c).arrAt_in 1 rfl _).trans (A_eq0 (V1 m ρ) c 1))
  by_cases h2 : Pipeline.arrRef spec0 2 = r
  · subst h2; exact (W2_arr m ρ c 2).trans (((dat0 (V1 m ρ) c).arrAt_in 2 rfl _).trans (A_eq0 (V1 m ρ) c 2))
  have hne : ∀ w : Fin 4, Pipeline.arrRef spec0 w ≠ r := fun w => by
    rcases w with ⟨w, hw⟩
    rcases w with _ | _ | _ | _ | n
    · exact h0
    · exact h1
    · exact h2
    · exact fun e => hr e.symm
    · exact absurd hw (by omega)
  exact W2_of_ne m ρ c r hne

/-- After host stretch 1: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: an input window's array ends as it was entered. -/
theorem W4_keep (c : Dev nD) (r : Ref sig .tc) (hr : r ≠ Pipeline.arrRef spec1 3) :
    W4 m ρ c (Proc.devRef .tc r) = W3 m ρ c (Proc.devRef .tc r) := by
  by_cases h0 : Pipeline.arrRef spec1 0 = r
  · subst h0; exact (W4_arr m ρ c 0).trans (((dat1 (V3 m ρ) c).arrAt_in 0 rfl _).trans (A_eq1 (V3 m ρ) c 0))
  by_cases h1 : Pipeline.arrRef spec1 1 = r
  · subst h1; exact (W4_arr m ρ c 1).trans (((dat1 (V3 m ρ) c).arrAt_in 1 rfl _).trans (A_eq1 (V3 m ρ) c 1))
  by_cases h2 : Pipeline.arrRef spec1 2 = r
  · subst h2; exact (W4_arr m ρ c 2).trans (((dat1 (V3 m ρ) c).arrAt_in 2 rfl _).trans (A_eq1 (V3 m ρ) c 2))
  have hne : ∀ w : Fin 4, Pipeline.arrRef spec1 w ≠ r := fun w => by
    rcases w with ⟨w, hw⟩
    rcases w with _ | _ | _ | _ | n
    · exact h0
    · exact h1
    · exact h2
    · exact fun e => hr e.symm
    · exact absurd hw (by omega)
  exact W4_of_ne m ρ c r hne

/-- After host stretch 2: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: an input window's array ends as it was entered. -/
theorem W6_keep (c : Dev nD) (r : Ref sig .tc) (hr : r ≠ Pipeline.arrRef spec2 3) :
    W6 m ρ c (Proc.devRef .tc r) = W5 m ρ c (Proc.devRef .tc r) := by
  by_cases h0 : Pipeline.arrRef spec2 0 = r
  · subst h0; exact (W6_arr m ρ c 0).trans (((dat2 (V5 m ρ) c).arrAt_in 0 rfl _).trans (A_eq2 (V5 m ρ) c 0))
  by_cases h1 : Pipeline.arrRef spec2 1 = r
  · subst h1; exact (W6_arr m ρ c 1).trans (((dat2 (V5 m ρ) c).arrAt_in 1 rfl _).trans (A_eq2 (V5 m ρ) c 1))
  by_cases h2 : Pipeline.arrRef spec2 2 = r
  · subst h2; exact (W6_arr m ρ c 2).trans (((dat2 (V5 m ρ) c).arrAt_in 2 rfl _).trans (A_eq2 (V5 m ρ) c 2))
  have hne : ∀ w : Fin 4, Pipeline.arrRef spec2 w ≠ r := fun w => by
    rcases w with ⟨w, hw⟩
    rcases w with _ | _ | _ | _ | n
    · exact h0
    · exact h1
    · exact h2
    · exact fun e => hr e.symm
    · exact absurd hw (by omega)
  exact W6_of_ne m ρ c r hne

/-- After host stretch 3: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 changes only its output array: an input window's array ends as it was entered. -/
theorem W8_keep (c : Dev nD) (r : Ref sig .tc) (hr : r ≠ Pipeline.arrRef spec3 3) :
    W8 m ρ c (Proc.devRef .tc r) = W7 m ρ c (Proc.devRef .tc r) := by
  by_cases h0 : Pipeline.arrRef spec3 0 = r
  · subst h0; exact (W8_arr m ρ c 0).trans (((dat3 (V7 m ρ) c).arrAt_in 0 rfl _).trans (A_eq3 (V7 m ρ) c 0))
  by_cases h1 : Pipeline.arrRef spec3 1 = r
  · subst h1; exact (W8_arr m ρ c 1).trans (((dat3 (V7 m ρ) c).arrAt_in 1 rfl _).trans (A_eq3 (V7 m ρ) c 1))
  by_cases h2 : Pipeline.arrRef spec3 2 = r
  · subst h2; exact (W8_arr m ρ c 2).trans (((dat3 (V7 m ρ) c).arrAt_in 2 rfl _).trans (A_eq3 (V7 m ρ) c 2))
  have hne : ∀ w : Fin 4, Pipeline.arrRef spec3 w ≠ r := fun w => by
    rcases w with ⟨w, hw⟩
    rcases w with _ | _ | _ | _ | n
    · exact h0
    · exact h1
    · exact h2
    · exact fun e => hr e.symm
    · exact absurd hw (by omega)
  exact W8_of_ne m ρ c r hne

/-- After host stretch 4: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 changes only its output array: an input window's array ends as it was entered. -/
theorem W10_keep (c : Dev nD) (r : Ref sig .tc) (hr : r ≠ Pipeline.arrRef spec4 3) :
    W10 m ρ c (Proc.devRef .tc r) = W9 m ρ c (Proc.devRef .tc r) := by
  by_cases h0 : Pipeline.arrRef spec4 0 = r
  · subst h0; exact (W10_arr m ρ c 0).trans (((dat4 (V9 m ρ) c).arrAt_in 0 rfl _).trans (A_eq4 (V9 m ρ) c 0))
  by_cases h1 : Pipeline.arrRef spec4 1 = r
  · subst h1; exact (W10_arr m ρ c 1).trans (((dat4 (V9 m ρ) c).arrAt_in 1 rfl _).trans (A_eq4 (V9 m ρ) c 1))
  by_cases h2 : Pipeline.arrRef spec4 2 = r
  · subst h2; exact (W10_arr m ρ c 2).trans (((dat4 (V9 m ρ) c).arrAt_in 2 rfl _).trans (A_eq4 (V9 m ρ) c 2))
  have hne : ∀ w : Fin 4, Pipeline.arrRef spec4 w ≠ r := fun w => by
    rcases w with ⟨w, hw⟩
    rcases w with _ | _ | _ | _ | n
    · exact h0
    · exact h1
    · exact h2
    · exact fun e => hr e.symm
    · exact absurd hw (by omega)
  exact W10_of_ne m ρ c r hne

/-- After host stretch 5: what region 5 is entered from. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5 changes only its output array: an input window's array ends as it was entered. -/
theorem W12_keep (c : Dev nD) (r : Ref sig .tc) (hr : r ≠ Pipeline.arrRef spec5 4) :
    W12 m ρ c (Proc.devRef .tc r) = W11 m ρ c (Proc.devRef .tc r) := by
  by_cases h0 : Pipeline.arrRef spec5 0 = r
  · subst h0; exact (W12_arr m ρ c 0).trans (((dat5 (V11 m ρ) c).arrAt_in 0 rfl _).trans (A_eq5 (V11 m ρ) c 0))
  by_cases h1 : Pipeline.arrRef spec5 1 = r
  · subst h1; exact (W12_arr m ρ c 1).trans (((dat5 (V11 m ρ) c).arrAt_in 1 rfl _).trans (A_eq5 (V11 m ρ) c 1))
  by_cases h2 : Pipeline.arrRef spec5 2 = r
  · subst h2; exact (W12_arr m ρ c 2).trans (((dat5 (V11 m ρ) c).arrAt_in 2 rfl _).trans (A_eq5 (V11 m ρ) c 2))
  by_cases h3 : Pipeline.arrRef spec5 3 = r
  · subst h3; exact (W12_arr m ρ c 3).trans (((dat5 (V11 m ρ) c).arrAt_in 3 rfl _).trans (A_eq5 (V11 m ρ) c 3))
  have hne : ∀ w : Fin 5, Pipeline.arrRef spec5 w ≠ r := fun w => by
    rcases w with ⟨w, hw⟩
    rcases w with _ | _ | _ | _ | _ | n
    · exact h0
    · exact h1
    · exact h2
    · exact h3
    · exact fun e => hr e.symm
    · exact absurd hw (by omega)
  exact W12_of_ne m ρ c r hne

/-- After the last host stretch: what @main returns from. -/
abbrev W13 : Dev nD → Valuation τ sig (Elt F) := fun c => StableHlo.after hostOps6 (W12 m ρ c)

/-! ## A buffer no item writes ends as launched -/

theorem W13_kept (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W) (h6 : r ∉ hostOps6_W)
    (g0 : ∀ w, Pipeline.arrRef spec0 w ≠ r) (g1 : ∀ w, Pipeline.arrRef spec1 w ≠ r) (g2 : ∀ w, Pipeline.arrRef spec2 w ≠ r) (g3 : ∀ w, Pipeline.arrRef spec3 w ≠ r) (g4 : ∀ w, Pipeline.arrRef spec4 w ≠ r) (g5 : ∀ w, Pipeline.arrRef spec5 w ≠ r) :
    W13 m ρ c (Proc.devRef .tc r) = m ((c : Thread nD τ).loc r) :=
  (StableHlo.after_of_writes_sub hostOps6 _ hostOps6_writes h6).trans <|
  (W12_of_ne m ρ c r g5).trans <| (StableHlo.after_of_writes_sub hostOps5 _ hostOps5_writes h5).trans <|
  (W10_of_ne m ρ c r g4).trans <| (StableHlo.after_of_writes_sub hostOps4 _ hostOps4_writes h4).trans <|
  (W8_of_ne m ρ c r g3).trans <| (StableHlo.after_of_writes_sub hostOps3 _ hostOps3_writes h3).trans <|
  (W6_of_ne m ρ c r g2).trans <| (StableHlo.after_of_writes_sub hostOps2 _ hostOps2_writes h2).trans <|
  (W4_of_ne m ρ c r g1).trans <| (StableHlo.after_of_writes_sub hostOps1 _ hostOps1_writes h1).trans <|
  (W2_of_ne m ρ c r g0).trans <| (StableHlo.after_of_writes_sub hostOps0 _ hostOps0_writes h0).trans <|
  rfl

theorem W13_main_arg0 (c : Dev nD) : W13 m ρ c (Proc.devRef .tc main_arg0) = m ((c : Thread nD τ).loc main_arg0) :=
  W13_kept m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_kept m ρ c main_arg1 (by decide) (by decide) (by decide) (by decide) (by decide) (by decide) (by decide) (by decide) (by decide) (by decide) (by decide) (by decide) (by decide)
theorem W13_main_arg2 (c : Dev nD) : W13 m ρ c (Proc.devRef .tc main_arg2) = m ((c : Thread nD τ).loc main_arg2) :=
  W13_kept m ρ c main_arg2 (by decide) (by decide) (by decide) (by decide) (by decide) (by decide) (by decide) (by decide) (by decide) (by decide) (by decide) (by decide) (by decide)
theorem W13_main_arg3 (c : Dev nD) : W13 m ρ c (Proc.devRef .tc main_arg3) = m ((c : Thread nD τ).loc main_arg3) :=
  W13_kept m ρ c main_arg3 (by decide) (by decide) (by decide) (by decide) (by decide) (by decide) (by decide) (by decide) (by decide) (by decide) (by decide) (by decide) (by decide)
theorem W13_main_arg4 (c : Dev nD) : W13 m ρ c (Proc.devRef .tc main_arg4) = m ((c : Thread nD τ).loc main_arg4) :=
  W13_kept m ρ c main_arg4 (by decide) (by decide) (by decide) (by decide) (by decide) (by decide) (by decide) (by decide) (by decide) (by decide) (by decide) (by decide) (by decide)
theorem W13_main_arg5 (c : Dev nD) : W13 m ρ c (Proc.devRef .tc main_arg5) = m ((c : Thread nD τ).loc main_arg5) :=
  W13_kept m ρ c main_arg5 (by decide) (by decide) (by decide) (by decide) (by decide) (by decide) (by decide) (by decide) (by decide) (by decide) (by decide) (by decide) (by decide)
theorem W13_main_arg6 (c : Dev nD) : W13 m ρ c (Proc.devRef .tc main_arg6) = m ((c : Thread nD τ).loc main_arg6) :=
  W13_kept m ρ c main_arg6 (by decide) (by decide) (by decide) (by decide) (by decide) (by decide) (by decide) (by decide) (by decide) (by decide) (by decide) (by decide) (by decide)
theorem W13_main_arg7 (c : Dev nD) : W13 m ρ c (Proc.devRef .tc main_arg7) = m ((c : Thread nD τ).loc main_arg7) :=
  W13_kept m ρ c main_arg7 (by decide) (by decide) (by decide) (by decide) (by decide) (by decide) (by decide) (by decide) (by decide) (by decide) (by decide) (by decide) (by decide)

/-! ## The proof data family and the thread state -/

abbrev adm : (p : Fin 6) → (pcfgs (F := F) p).Adm := fun p => (cfgs p).toPCfg_adm
/-- Every pipeline's proof data, each at its region's entry contents: a literal match on the pipeline's index. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at W1, left at W2. Its arrays are split out of the unscoped
    buffers and put back at the exit contents; the generator register and the scoped buffers go into the invariant and come
    back (the accumulator's contents forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec0 c) ?_ (hin0 (V1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec0 c) (hout0 (V1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4. Its arrays are split out of the unscoped
    buffers and put back at the exit contents; the generator register and the scoped buffers go into the invariant and come
    back (the accumulator's contents forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec1 c) ?_ (hin1 (V3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec1 c) (hout1 (V3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6. Its arrays are split out of the unscoped
    buffers and put back at the exit contents; the generator register and the scoped buffers go into the invariant and come
    back (the accumulator's contents forgotten); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec2 c) ?_ (hin2 (V5 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec2 c) (hout2 (V5 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8. Its arrays are split out of the unscoped
    buffers and put back at the exit contents; the generator register and the scoped buffers go into the invariant and come
    back (the accumulator's contents forgotten); nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec3 c) ?_ (hin3 (V7 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec3 c) (hout3 (V7 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W9, left at W10. Its arrays are split out of the unscoped
    buffers and put back at the exit contents; the generator register and the scoped buffers go into the invariant and come
    back (the accumulator's contents forgotten); nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec4 c) ?_ (hin4 (V9 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec4 c) (hout4 (V9 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W11, left at W12. Its arrays are split out of the unscoped
    buffers and put back at the exit contents; the generator register and the scoped buffers go into the invariant and come
    back (the accumulator's contents forgotten); nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec5 c) ?_ (hin5 (V11 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec5 c) (hout5 (V11 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and every final
    state holds every unscoped buffer of every core at W13. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c)⟩) (run_all m ρ)

end Cert.Kernel.Fr

end
-- ==== Proof.KI.R0Runs.lean ====
/-
  Region 0 (the first layer's pallas_call: grid 2 × 4 × 1, the last axis the K blocks): what its runs share.
  The K axis has a single block, so at every point (i, j, 0) the body zeroes the f32 accumulator, adds the block
  product and stores relu(acc + bias) into the output block: one control case, and the output window is live and
  written back at every point.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- "this is the first K block": the body's first conditional; it holds at every point. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) :=
  (by decide +kernel : ∀ t : Fin grid0.N, cond0_0 (grid0.coords t))
/-- "this is the last K block": the body's second conditional; it holds at every point. -/
abbrev cond0_1 (i : grid0.Coords) : Prop := k0_cond2 i = 1#1
theorem hcond0_1 : ∀ t : Fin cfg0.N, cond0_1 (grid0.coords t) :=
  (by decide +kernel : ∀ t : Fin grid0.N, cond0_1 (grid0.coords t))

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is live at every point. -/
theorem liveAt0_3 : ∀ t : Fin cfg0.N, cfg0.idle 3 (grid0.coords t) = false := by decide +kernel

/-! ## The memrefs the body is called with -/

/-- One staging buffer of the output window, through which its contents are stated. -/
abbrev VO0_3 : View sig .tc .vmem S2048x1024 .bf16 := (Memref.whole cc0_stg3_0 : Memref sig .tc .vmem S2048x1024 .bf16).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The f32 accumulator: a whole scoped buffer of the kernel's own, carried from one grid point to the next. -/
abbrev scM0_0 : Memref sig .tc .vmem S2048x1024 .f32 := Memref.whole cc0_scratch0
abbrev VS0_0 : View sig .tc .vmem S2048x1024 .f32 := scM0_0.view

/-- The other scoped buffers (the other calls' staging buffers and accumulators), which this region never opens. -/
abbrev others0 (c : Dev nD) : sProp 𝕄 :=
  Pipeline.scopedRestBut (Ix := Unit) (Name := ℕ) (U := UR sig nD τ) (Lvl := ℕ) (Val := Elt F) spec0 c [cc0_scratch0]

/-- The class invariant split at the accumulator: the accumulator owned at some contents, the other scoped buffers
    unopened, the generator register at some state. -/
theorem PhiA0_eq (c : Dev nD) :
    (Pipeline.ΦA spec0 c : sProp 𝕄)
      = iprop(iprop(iprop((∃ d, owns (c : Thread nD τ) scM0_0 fullShare d)) ∗ others0 c) ∗ (∃ r, prngReg c r)) := by
  unfold Pipeline.ΦA others0; rw [scopedRest0_split]; simp only [scM0_0, owns_whole]; try rfl

end Cert.KernelIdeal.Fr

end
-- ==== Proof.KI.R0RunA.lean ====
/-
  Region 0, its one control case (the accumulator is zeroed, the block product added, then relu(acc + bias) stored to the output block): the body's triple on any whole staging memrefs, by symbolic execution of its skeleton.
  The pieces each written buffer ends with are the witness the run finds.
-/
import proofs.«171407_j40123584479654_2_alg».proof.Proof.KI.R0Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Every point: inputs at their blocks; the output's buffer and the accumulator found at anything and each left with
    its pieces written. -/
noncomputable def kernelRun0_A (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__linear_kernel i arg3 harg3 arg4 harg4 arg5 harg5 arg6 harg6 arg7 harg7) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R0Frame.lean ====
/-
  Region 0: what its one control case leaves in the output block and in the f32 accumulator at each of the grid's
  points (nothing the body computes depends on the point before: the accumulator is rebuilt from zero at every
  point), the invariant that carries the accumulator's ownership between points, the pipeline's proof data and the
  body obligation at every point.
-/
import proofs.«171407_j40123584479654_2_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The one store into the output block covers it. -/
theorem cover0_A_3 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).1, y ∈ pc.1.set :=
  View.cover_of_tiledL (kernelRun0_A c i arg3 harg3 arg4 harg4 arg5 harg5 arg6 harg6 arg7 harg7 hc0 hc1 x0 x1 x2).1 S2048x1024.size (by sl_kernel_rfl) y

/-- What the body leaves in the output's staging buffer: its piece read back. -/
def out0_A_3 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) : Vec F S2048x1024 .bf16 :=
  VO0_3.read (Elt F) (VO0_3.writes (Elt F) VO0_3.junk (kernelRun0_A c i arg3 harg3 arg4 harg4 arg5 harg5 arg6 harg6 arg7 harg7 hc0 hc1 x0 x1 x2).1)

/-- The body's stores into the accumulator cover it. -/
theorem scover0_A_0 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What the body leaves in the accumulator: its pieces read back. -/
def sout0_A_0 (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) : Vec F S2048x1024 .f32 :=
  VS0_0.read (Elt F) (VS0_0.writes (Elt F) VS0_0.junk (kernelRun0_A c i arg3 harg3 arg4 harg4 arg5 harg5 arg6 harg6 arg7 harg7 hc0 hc1 x0 x1 x2).2.1)

/-! ## What the output block and the accumulator hold after each point -/

/-- After the body at position n: (the output's staging buffer, the accumulator). Every point is in the one control
    case, and what it leaves is a function of the point's input blocks alone. -/
def outsAt0 (c : Dev nD) (n : ℕ) (hn : n < cfg0.N) : Vec F S2048x1024 .bf16 × Vec F S2048x1024 .f32 :=
  (out0_A_3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (hcond0_0 ⟨n, hn⟩) (hcond0_1 ⟨n, hn⟩) (iblk0 V c 0 ⟨n, hn⟩) (iblk0 V c 1 ⟨n, hn⟩) (iblk0 V c 2 ⟨n, hn⟩), sout0_A_0 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _) (hcond0_0 ⟨n, hn⟩) (hcond0_1 ⟨n, hn⟩) (iblk0 V c 0 ⟨n, hn⟩) (iblk0 V c 1 ⟨n, hn⟩) (iblk0 V c 2 ⟨n, hn⟩))

theorem outsAt0_A (c : Dev nD) (t : Fin cfg0.N) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)) := rfl

/-! ## The invariant that carries the accumulator -/

/-- Before position n: at the region's entry the class invariant (the accumulator at anything); afterwards the
    accumulator at what the point before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the invariant hands the body the accumulator (at
    anything at the region's first point, otherwise at what the point before left, which the body overwrites) and takes
    it back at this point's contents; the output's buffer is found at anything and left at this point's block; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [outsAt0_A V c t]
  unfold out0_A_3 sout0_A_0; (try dsimp only)
  by_cases hz : t.val = 0
  · rw [PhiS0_castSucc V c t, PhiS0_zero V c _ _ hz, PhiA0_eq]
    iintro ⟨⟨⟨HS0, Hoth⟩, Hg⟩, Ho, ⟨%d0, H0⟩, ⟨%d1, H1⟩, ⟨%d2, H2⟩, ⟨%d3, H3⟩⟩
    iapply ((kernelRun0_A c (grid0.coords t) _ _ _ _ _ _ _ _ _ _ (hcond0_0 t) (hcond0_1 t) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _)
  · rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((kernelRun0_A c (grid0.coords t) _ _ _ _ _ _ _ _ _ _ (hcond0_0 t) (hcond0_1 t) (iblk0 V c 0 t) (iblk0 V c 1 t) (iblk0 V c 2 t)).2.2 Set.univ _)
    isplitl [H0]; · iexact H0
    isplitl [H1]; · iexact H1
    isplitl [H2]; · iexact H2
    isplitl [H3]; · iexists _; iexact H3
    isplitl [HS0]; · iexists _; iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_A_0 c _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 8 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R1Runs.lean ====
/-
  Region 1 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "this is the first K block": the body's first conditional. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "this is the last K block": the body's second conditional. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last K block the output window is idle and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last K block it is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S2048x1024 .bf16 := (Memref.whole cc1_stg3_0 : Memref sig .tc .vmem S2048x1024 .bf16).view
abbrev ms1_0 (t : Fin cfg1.N) : Memref sig .tc .vmem S2048x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .bf16 := win1_3.stage (cfg1.slots t 3)
abbrev hs1_3 (t : Fin cfg1.N) : (ms1_3 t).IsWhole := hstage1_3 ((cfg1.slots t 3).cast nbuf1_3)
/-- The f32 accumulator: a whole scoped buffer of the kernel's own, carried from one grid point to the next. -/
abbrev scM1_0 : Memref sig .tc .vmem S2048x1024 .f32 := Memref.whole cc1_scratch0
abbrev VS1_0 : View sig .tc .vmem S2048x1024 .f32 := scM1_0.view

/-- The other scoped buffers (the other calls' staging buffers and accumulators), which this region never opens. -/
abbrev others1 (c : Dev nD) : sProp 𝕄 :=
  Pipeline.scopedRestBut (Ix := Unit) (Name := ℕ) (U := UR sig nD τ) (Lvl := ℕ) (Val := Elt F) spec1 c [cc1_scratch0]

/-- The class invariant split at the accumulator: the accumulator owned at some contents, the other scoped buffers
    unopened, the generator register at some state. -/
theorem PhiA1_eq (c : Dev nD) :
    (Pipeline.ΦA spec1 c : sProp 𝕄)
      = iprop(iprop(iprop((∃ d, owns (c : Thread nD τ) scM1_0 fullShare d)) ∗ others1 c) ∗ (∃ r, prngReg c r)) := by
  unfold Pipeline.ΦA others1; rw [scopedRest1_split]; simp only [scM1_0, owns_whole]; try rfl

end Cert.KernelIdeal.Fr

end
-- ==== Proof.KI.R1RunA.lean ====
/-
  Region 1, the first K block (the accumulator is zeroed, then the block product added; nothing stored to the output): the body's triple on any whole staging memrefs, by symbolic execution of its skeleton.
  The pieces each written buffer ends with are the witness the run finds.
-/
import proofs.«171407_j40123584479654_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun1_A (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunB.lean ====
/-
  Region 1, a middle K block (the block product added to the accumulator; nothing stored to the output): the body's triple on any whole staging memrefs, by symbolic execution of its skeleton.
  The pieces each written buffer ends with are the witness the run finds.
-/
import proofs.«171407_j40123584479654_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun1_B (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R1RunC.lean ====
/-
  Region 1, the last K block (the block product added, then relu(acc + bias) stored to the output block): the body's triple on any whole staging memrefs, by symbolic execution of its skeleton.
  The pieces each written buffer ends with are the witness the run finds.
-/
import proofs.«171407_j40123584479654_2_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun1_C (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__linear_kernel i arg3 harg3 arg4 harg4 arg5 harg5 arg6 harg6 arg7 harg7) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R1Frame.lean ====
/-
  Region 1: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.KI.R1RunA
import proofs.«171407_j40123584479654_2_alg».proof.Proof.KI.R1RunB
import proofs.«171407_j40123584479654_2_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out1_A_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) : Vec F S2048x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y

/-- What case A leaves in the accumulator: its pieces read back. -/
def sout1_A_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) : Vec F S2048x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output's staging buffer (nothing is stored there: a placeholder no one reads, the window being idle and not written back at these points). -/
def out1_B_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y

/-- What case B leaves in the accumulator: its pieces read back. -/
def sout1_B_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last K block the one store into the output block covers it. -/
theorem cover1_C_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What case C leaves in the output's staging buffer: its piece read back. -/
def out1_C_3 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What case C leaves in the accumulator: its pieces read back. -/
def sout1_C_0 (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) : Vec F S2048x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt1 (c : Dev nD) : (n : ℕ) → n < cfg1.N → Vec F S2048x1024 .bf16 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 32 := lt_of_lt_of_eq t.isLt (show cfg1.N = 32 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R2Runs.lean ====
/-
  Region 2 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, in closed form over the grid -/

/-- "this is the first K block": the body's first conditional. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- "this is the last K block": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last K block the output window is idle and is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
/-- At the last K block it is live. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S2048x1024 .bf16 := (Memref.whole cc2_stg3_0 : Memref sig .tc .vmem S2048x1024 .bf16).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x1024 .bf16 := win2_3.stage (cfg2.slots t 3)
abbrev hs2_3 (t : Fin cfg2.N) : (ms2_3 t).IsWhole := hstage2_3 ((cfg2.slots t 3).cast nbuf2_3)
/-- The f32 accumulator: a whole scoped buffer of the kernel's own, carried from one grid point to the next. -/
abbrev scM2_0 : Memref sig .tc .vmem S2048x1024 .f32 := Memref.whole cc2_scratch0
abbrev VS2_0 : View sig .tc .vmem S2048x1024 .f32 := scM2_0.view

/-- The other scoped buffers (the other calls' staging buffers and accumulators), which this region never opens. -/
abbrev others2 (c : Dev nD) : sProp 𝕄 :=
  Pipeline.scopedRestBut (Ix := Unit) (Name := ℕ) (U := UR sig nD τ) (Lvl := ℕ) (Val := Elt F) spec2 c [cc2_scratch0]

/-- The class invariant split at the accumulator: the accumulator owned at some contents, the other scoped buffers
    unopened, the generator register at some state. -/
theorem PhiA2_eq (c : Dev nD) :
    (Pipeline.ΦA spec2 c : sProp 𝕄)
      = iprop(iprop(iprop((∃ d, owns (c : Thread nD τ) scM2_0 fullShare d)) ∗ others2 c) ∗ (∃ r, prngReg c r)) := by
  unfold Pipeline.ΦA others2; rw [scopedRest2_split]; simp only [scM2_0, owns_whole]; try rfl

end Cert.KernelIdeal.Fr

end
-- ==== Proof.KI.R2RunA.lean ====
/-
  Region 2, the first K block (the accumulator is zeroed, then the block product added; nothing stored to the output): the body's triple on any whole staging memrefs, by symbolic execution of its skeleton.
  The pieces each written buffer ends with are the witness the run finds.
-/
import proofs.«171407_j40123584479654_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R2RunB.lean ====
/-
  Region 2, a middle K block (the block product added to the accumulator; nothing stored to the output): the body's triple on any whole staging memrefs, by symbolic execution of its skeleton.
  The pieces each written buffer ends with are the witness the run finds.
-/
import proofs.«171407_j40123584479654_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨[], ?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R2RunC.lean ====
/-
  Region 2, the last K block (the block product added, then relu(acc + bias) stored to the output block): the body's triple on any whole staging memrefs, by symbolic execution of its skeleton.
  The pieces each written buffer ends with are the witness the run finds.
-/
import proofs.«171407_j40123584479654_2_alg».proof.Proof.KI.R2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__linear_kernel i arg3 harg3 arg4 harg4 arg5 harg5 arg6 harg6 arg7 harg7) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R2Frame.lean ====
/-
  Region 2: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.KI.R2RunA
import proofs.«171407_j40123584479654_2_alg».proof.Proof.KI.R2RunB
import proofs.«171407_j40123584479654_2_alg».proof.Proof.KI.R2RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out2_A_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .bf16 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it. -/
theorem scover2_A_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) (y : S2048x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S2048x1024.size (by sl_kernel_rfl) y

/-- What case A leaves in the accumulator: its pieces read back. -/
def sout2_A_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) : Vec F S2048x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case B leaves in the output's staging buffer (nothing is stored there: a placeholder no one reads, the window being idle and not written back at these points). -/
def out2_B_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) : Vec F S2048x1024 .bf16 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it. -/
theorem scover2_B_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S2048x1024.size (by sl_kernel_rfl) y

/-- What case B leaves in the accumulator: its pieces read back. -/
def sout2_B_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) : Vec F S2048x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last K block the one store into the output block covers it. -/
theorem cover2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S2048x1024.size (by sl_kernel_rfl) y

/-- What case C leaves in the output's staging buffer: its piece read back. -/
def out2_C_3 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) : Vec F S2048x1024 .bf16 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it. -/
theorem scover2_C_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) (y : S2048x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S2048x1024.size (by sl_kernel_rfl) y

/-- What case C leaves in the accumulator: its pieces read back. -/
def sout2_C_0 (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) : Vec F S2048x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt2 (c : Dev nD) : (n : ℕ) → n < cfg2.N → Vec F S2048x1024 .bf16 × Vec F S2048x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ others2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ others2 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  have hN : t.val < 32 := lt_of_lt_of_eq t.isLt (show cfg2.N = 32 from N_2)
  by_cases h0 : t.val % 4 = 0
  · by_cases h1 : t.val % 4 = 3
    · exfalso; omega
    · rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hoth⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, Hoth⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover2_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    · rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hoth⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover2_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 32 := N_2; omega
  rw [show (dat2 V c).Φ (Fin.last cfg2.N) = PhiS2 V c (Fin.last cfg2.N).val (Nat.le_of_lt_succ (Fin.last cfg2.N).isLt) from rfl, PhiS2_pos V c _ _ ht, PhiA2_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R3Runs.lean ====
/-
  Region 3 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branch conditions, in closed form over the grid -/

/-- "this is the first K block": the body's first conditional. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- "this is the last K block": the body's second conditional. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last K block the output window is idle and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
/-- At the last K block it is live. -/
theorem liveAt3_3_C : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S2048x1024 .bf16 := (Memref.whole cc3_stg3_0 : Memref sig .tc .vmem S2048x1024 .bf16).view
abbrev ms3_0 (t : Fin cfg3.N) : Memref sig .tc .vmem S2048x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2048x1024 .bf16 := win3_3.stage (cfg3.slots t 3)
abbrev hs3_3 (t : Fin cfg3.N) : (ms3_3 t).IsWhole := hstage3_3 ((cfg3.slots t 3).cast nbuf3_3)
/-- The f32 accumulator: a whole scoped buffer of the kernel's own, carried from one grid point to the next. -/
abbrev scM3_0 : Memref sig .tc .vmem S2048x1024 .f32 := Memref.whole cc3_scratch0
abbrev VS3_0 : View sig .tc .vmem S2048x1024 .f32 := scM3_0.view

/-- The other scoped buffers (the other calls' staging buffers and accumulators), which this region never opens. -/
abbrev others3 (c : Dev nD) : sProp 𝕄 :=
  Pipeline.scopedRestBut (Ix := Unit) (Name := ℕ) (U := UR sig nD τ) (Lvl := ℕ) (Val := Elt F) spec3 c [cc3_scratch0]

/-- The class invariant split at the accumulator: the accumulator owned at some contents, the other scoped buffers
    unopened, the generator register at some state. -/
theorem PhiA3_eq (c : Dev nD) :
    (Pipeline.ΦA spec3 c : sProp 𝕄)
      = iprop(iprop(iprop((∃ d, owns (c : Thread nD τ) scM3_0 fullShare d)) ∗ others3 c) ∗ (∃ r, prngReg c r)) := by
  unfold Pipeline.ΦA others3; rw [scopedRest3_split]; simp only [scM3_0, owns_whole]; try rfl

end Cert.KernelIdeal.Fr

end
-- ==== Proof.KI.R3RunA.lean ====
/-
  Region 3, the first K block (the accumulator is zeroed, then the block product added; nothing stored to the output): the body's triple on any whole staging memrefs, by symbolic execution of its skeleton.
  The pieces each written buffer ends with are the witness the run finds.
-/
import proofs.«171407_j40123584479654_2_alg».proof.Proof.KI.R3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun3_A (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R3RunB.lean ====
/-
  Region 3, a middle K block (the block product added to the accumulator; nothing stored to the output): the body's triple on any whole staging memrefs, by symbolic execution of its skeleton.
  The pieces each written buffer ends with are the witness the run finds.
-/
import proofs.«171407_j40123584479654_2_alg».proof.Proof.KI.R3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun3_B (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨[], ?_, fun xi3 E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R3RunC.lean ====
/-
  Region 3, the last K block (the block product added, then relu(acc + bias) stored to the output block): the body's triple on any whole staging memrefs, by symbolic execution of its skeleton.
  The pieces each written buffer ends with are the witness the run finds.
-/
import proofs.«171407_j40123584479654_2_alg».proof.Proof.KI.R3Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun3_C (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc3__linear_kernel i arg3 harg3 arg4 harg4 arg5 harg5 arg6 harg6 arg7 harg7) K } := by
  refine ⟨?_, ?_, fun E K => ?run⟩
  case run =>
    simp only [cc3__linear_kernel_eq_skeleton]; unfold cc3__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R3Frame.lean ====
/-
  Region 3: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.KI.R3RunA
import proofs.«171407_j40123584479654_2_alg».proof.Proof.KI.R3RunB
import proofs.«171407_j40123584479654_2_alg».proof.Proof.KI.R3RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out3_A_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) : Vec F S2048x1024 .bf16 :=
  VO3_3.read (Elt F) (VO3_3.writes (Elt F) VO3_3.junk (kernelRun3_A c i arg3 harg3 arg4 harg4 arg5 harg5 arg6 harg6 arg7 harg7 hc0 hc1 x0 x1 x2).1)

/-- Case A's stores into the accumulator cover it. -/
theorem scover3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) (y : S2048x1024.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S2048x1024.size (by sl_kernel_rfl) y

/-- What case A leaves in the accumulator: its pieces read back. -/
def sout3_A_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) : Vec F S2048x1024 .f32 :=
  VS3_0.read (Elt F) (VS3_0.writes (Elt F) VS3_0.junk (kernelRun3_A c i arg3 harg3 arg4 harg4 arg5 harg5 arg6 harg6 arg7 harg7 hc0 hc1 x0 x1 x2).2.1)

/-- What case B leaves in the output's staging buffer (nothing is stored there: a placeholder no one reads, the window being idle and not written back at these points). -/
def out3_B_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) : Vec F S2048x1024 .bf16 :=
  VO3_3.read (Elt F) (VO3_3.writes (Elt F) VO3_3.junk (kernelRun3_B c i arg3 harg3 arg4 harg4 arg5 harg5 arg6 harg6 arg7 harg7 hc0 hc1 x0 x1 x2 xs0).1)

/-- Case B's stores into the accumulator cover it. -/
theorem scover3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S2048x1024.size (by sl_kernel_rfl) y

/-- What case B leaves in the accumulator: its pieces read back. -/
def sout3_B_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) : Vec F S2048x1024 .f32 :=
  VS3_0.read (Elt F) (VS3_0.writes (Elt F) VS3_0.junk (kernelRun3_B c i arg3 harg3 arg4 harg4 arg5 harg5 arg6 harg6 arg7 harg7 hc0 hc1 x0 x1 x2 xs0).2.1)

/-- At the last K block the one store into the output block covers it. -/
theorem cover3_C_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S2048x1024.size (by sl_kernel_rfl) y

/-- What case C leaves in the output's staging buffer: its piece read back. -/
def out3_C_3 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) : Vec F S2048x1024 .bf16 :=
  VO3_3.read (Elt F) (VO3_3.writes (Elt F) VO3_3.junk (kernelRun3_C c i arg3 harg3 arg4 harg4 arg5 harg5 arg6 harg6 arg7 harg7 hc0 hc1 x0 x1 x2 xs0).1)

/-- Case C's stores into the accumulator cover it. -/
theorem scover3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) (y : S2048x1024.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S2048x1024.size (by sl_kernel_rfl) y

/-- What case C leaves in the accumulator: its pieces read back. -/
def sout3_C_0 (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) : Vec F S2048x1024 .f32 :=
  VS3_0.read (Elt F) (VS3_0.writes (Elt F) VS3_0.junk (kernelRun3_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt3 (c : Dev nD) : (n : ℕ) → n < cfg3.N → Vec F S2048x1024 .bf16 × Vec F S2048x1024 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 4 = 0 then
      if h1 : (n + 1) % 4 = 3 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 4 = 3 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ others3 c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ others3 c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ others3 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 32 := lt_of_lt_of_eq t.isLt (show cfg3.N = 32 from N_3)
  by_cases h0 : t.val % 4 = 0
  · by_cases h1 : t.val % 4 = 3
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hoth⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hoth⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover3_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hoth⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class invariant back: the accumulator's contents are forgotten. -/
theorem hout3 (c : Dev nD) : (dat3 V c).Φ (Fin.last cfg3.N) ⊢ Pipeline.ΦA spec3 c := by
  have ht : (Fin.last cfg3.N).val ≠ 0 := by rw [Fin.val_last]; have : cfg3.N = 32 := N_3; omega
  rw [show (dat3 V c).Φ (Fin.last cfg3.N) = PhiS3 V c (Fin.last cfg3.N).val (Nat.le_of_lt_succ (Fin.last cfg3.N).isLt) from rfl, PhiS3_pos V c _ _ ht, PhiA3_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R4Runs.lean ====
/-
  Region 4 (a hidden layer's pallas_call: grid 2 × 4 × 4, the last axis the K blocks): what its runs share.
  A point t of the grid is (i, j, k) with k = t mod 4. The body zeroes the f32 accumulator when k = 0, adds the
  block product at every point, and stores relu(acc + bias) into the output block when k = 3; so the body has three
  control cases (first / middle / last K block) and the output window is idle except at the last K block.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, in closed form over the grid -/

/-- "this is the first K block": the body's first conditional. -/
abbrev cond4_0 (i : grid4.Coords) : Prop := (Scalar.cmpi .ne (Scalar.extui (Scalar.cmpi .eq (BitVec.ofNat 32 (i 2).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- "this is the last K block": the body's second conditional. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- Away from the last K block the output window is idle and is not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last K block it is live. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S2048x1024 .bf16 := (Memref.whole cc4_stg3_0 : Memref sig .tc .vmem S2048x1024 .bf16).view
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S2048x1024 .bf16 := win4_3.stage (cfg4.slots t 3)
abbrev hs4_3 (t : Fin cfg4.N) : (ms4_3 t).IsWhole := hstage4_3 ((cfg4.slots t 3).cast nbuf4_3)
/-- The f32 accumulator: a whole scoped buffer of the kernel's own, carried from one grid point to the next. -/
abbrev scM4_0 : Memref sig .tc .vmem S2048x1024 .f32 := Memref.whole cc4_scratch0
abbrev VS4_0 : View sig .tc .vmem S2048x1024 .f32 := scM4_0.view

/-- The other scoped buffers (the other calls' staging buffers and accumulators), which this region never opens. -/
abbrev others4 (c : Dev nD) : sProp 𝕄 :=
  Pipeline.scopedRestBut (Ix := Unit) (Name := ℕ) (U := UR sig nD τ) (Lvl := ℕ) (Val := Elt F) spec4 c [cc4_scratch0]

/-- The class invariant split at the accumulator: the accumulator owned at some contents, the other scoped buffers
    unopened, the generator register at some state. -/
theorem PhiA4_eq (c : Dev nD) :
    (Pipeline.ΦA spec4 c : sProp 𝕄)
      = iprop(iprop(iprop((∃ d, owns (c : Thread nD τ) scM4_0 fullShare d)) ∗ others4 c) ∗ (∃ r, prngReg c r)) := by
  unfold Pipeline.ΦA others4; rw [scopedRest4_split]; simp only [scM4_0, owns_whole]; try rfl

end Cert.KernelIdeal.Fr

end
-- ==== Proof.KI.R4RunA.lean ====
/-
  Region 4, the first K block (the accumulator is zeroed, then the block product added; nothing stored to the output): the body's triple on any whole staging memrefs, by symbolic execution of its skeleton.
  The pieces each written buffer ends with are the witness the run finds.
-/
import proofs.«171407_j40123584479654_2_alg».proof.Proof.KI.R4Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun4_A (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R4RunB.lean ====
/-
  Region 4, a middle K block (the block product added to the accumulator; nothing stored to the output): the body's triple on any whole staging memrefs, by symbolic execution of its skeleton.
  The pieces each written buffer ends with are the witness the run finds.
-/
import proofs.«171407_j40123584479654_2_alg».proof.Proof.KI.R4Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun4_B (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨[], ?_, fun xi3 E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.KI.R4RunC.lean ====
/-
  Region 4, the last K block (the block product added, then relu(acc + bias) stored to the output block): the body's triple on any whole staging memrefs, by symbolic execution of its skeleton.
  The pieces each written buffer ends with are the witness the run finds.
-/
import proofs.«171407_j40123584479654_2_alg».proof.Proof.KI.R4Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun4_C (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc4__linear_kernel i arg3 harg3 arg4 harg4 arg5 harg5 arg6 harg6 arg7 harg7) K } := by
  refine ⟨?_, ?_, fun E K => ?run⟩
  case run =>
    simp only [cc4__linear_kernel_eq_skeleton]; unfold cc4__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.KI.R4Frame.lean ====
/-
  Region 4: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.KI.R4RunA
import proofs.«171407_j40123584479654_2_alg».proof.Proof.KI.R4RunB
import proofs.«171407_j40123584479654_2_alg».proof.Proof.KI.R4RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out4_A_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) : Vec F S2048x1024 .bf16 :=
  VO4_3.read (Elt F) (VO4_3.writes (Elt F) VO4_3.junk (kernelRun4_A c i arg3 harg3 arg4 harg4 arg5 harg5 arg6 harg6 arg7 harg7 hc0 hc1 x0 x1 x2).1)

/-- Case A's stores into the accumulator cover it. -/
theorem scover4_A_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) (y : S2048x1024.Idx) :
    ∃ pc ∈ (kernelRun4_A c i arg3 harg3 arg4 harg4 arg5 harg5 arg6 harg6 arg7 harg7 hc0 hc1 x0 x1 x2).2.1, y ∈ pc.1.set :=
  View.cover_of_tiledL (kernelRun4_A c i arg3 harg3 arg4 harg4 arg5 harg5 arg6 harg6 arg7 harg7 hc0 hc1 x0 x1 x2).2.1 S2048x1024.size (by sl_kernel_rfl) y

/-- What case A leaves in the accumulator: its pieces read back. -/
def sout4_A_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) : Vec F S2048x1024 .f32 :=
  VS4_0.read (Elt F) (VS4_0.writes (Elt F) VS4_0.junk (kernelRun4_A c i arg3 harg3 arg4 harg4 arg5 harg5 arg6 harg6 arg7 harg7 hc0 hc1 x0 x1 x2).2.1)

/-- What case B leaves in the output's staging buffer (nothing is stored there: a placeholder no one reads, the window being idle and not written back at these points). -/
def out4_B_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) : Vec F S2048x1024 .bf16 :=
  VO4_3.read (Elt F) (VO4_3.writes (Elt F) VO4_3.junk (kernelRun4_B c i arg3 harg3 arg4 harg4 arg5 harg5 arg6 harg6 arg7 harg7 hc0 hc1 x0 x1 x2 xs0).1)

/-- Case B's stores into the accumulator cover it. -/
theorem scover4_B_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_B c i arg3 harg3 arg4 harg4 arg5 harg5 arg6 harg6 arg7 harg7 hc0 hc1 x0 x1 x2 xs0).2.1, y ∈ pc.1.set :=
  View.cover_of_tiledL (kernelRun4_B c i arg3 harg3 arg4 harg4 arg5 harg5 arg6 harg6 arg7 harg7 hc0 hc1 x0 x1 x2 xs0).2.1 S2048x1024.size (by sl_kernel_rfl) y

/-- What case B leaves in the accumulator: its pieces read back. -/
def sout4_B_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) : Vec F S2048x1024 .f32 :=
  VS4_0.read (Elt F) (VS4_0.writes (Elt F) VS4_0.junk (kernelRun4_B c i arg3 harg3 arg4 harg4 arg5 harg5 arg6 harg6 arg7 harg7 hc0 hc1 x0 x1 x2 xs0).2.1)

/-- At the last K block the one store into the output block covers it. -/
theorem cover4_C_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_C c i arg3 harg3 arg4 harg4 arg5 harg5 arg6 harg6 arg7 harg7 hc0 hc1 x0 x1 x2 xs0).1, y ∈ pc.1.set :=
  View.cover_of_tiledL (kernelRun4_C c i arg3 harg3 arg4 harg4 arg5 harg5 arg6 harg6 arg7 harg7 hc0 hc1 x0 x1 x2 xs0).1 S2048x1024.size (by sl_kernel_rfl) y

/-- What case C leaves in the output's staging buffer: its piece read back. -/
def out4_C_3 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) : Vec F S2048x1024 .bf16 :=
  VO4_3.read (Elt F) (VO4_3.writes (Elt F) VO4_3.junk (kernelRun4_C c i arg3 harg3 arg4 harg4 arg5 harg5 arg6 harg6 arg7 harg7 hc0 hc1 x0 x1 x2 xs0).1)

/-- Case C's stores into the accumulator cover it. -/
theorem scover4_C_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) (y : S2048x1024.Idx) :
    ∃ pc ∈ (kernelRun4_C c i arg3 harg3 arg4 harg4 arg5 harg5 arg6 harg6 arg7 harg7 hc0 hc1 x0 x1 x2 xs0).2.1, y ∈ pc.1.set :=
  View.cover_of_tiledL (kernelRun4_C c i arg3 harg3 arg4 harg4 arg5 harg5 arg6 harg6 arg7 harg7 hc0 hc1 x0 x1 x2 xs0).2.1 S2048x1024.size (by sl_kernel_rfl) y

/-- What case C leaves in the accumulator: its pieces read back. -/
def sout4_C_0 (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) : Vec F S2048x1024 .f32 :=
  VS4_0.read (Elt F) (VS4_0.writes (Elt F) VS4_0.junk (kernelRun4_C c i arg3 harg3 arg4 harg4 arg5 harg5 arg6 harg6 arg7 harg7 hc0 hc1 x0 x1 x2 xs0).2.1)

/-! ## What the output block and the accumulator hold after each point -/

/-- After the body at position n: (the output's staging buffer, the accumulator). The case is decided by n mod 4;
    a middle or last K block runs over the accumulator the point before left. -/
def outsAt4 (c : Dev nD) : (n : ℕ) → n < cfg4.N → Vec F S2048x1024 .bf16 × Vec F S2048x1024 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 4 = 0 then
      if h1 : (n + 1) % 4 = 3 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 4 = 3 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        (out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ others4 c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ others4 c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ others4 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  have hN : t.val < 32 := lt_of_lt_of_eq t.isLt (show cfg4.N = 32 from N_4)
  by_cases h0 : t.val % 4 = 0
  · by_cases h1 : t.val % 4 = 3
    · exfalso; omega
    · rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hoth⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover4_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS4_castSucc V c t, PhiS4_pos V c _ _ hz]
        iintro ⟨⟨⟨HS0, Hoth⟩, Hg⟩, Ho, ⟨%d0, H0⟩, ⟨%d1, H1⟩, ⟨%d2, H2⟩, ⟨%d3, H3⟩⟩
        iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover4_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 4 = 3
    · rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_3 sout4_C_0; (try dsimp only)
      rw [PhiS4_castSucc V c t, PhiS4_pos V c _ _ hz]
      iintro ⟨⟨⟨HS0, Hoth⟩, Hg⟩, Ho, ⟨%d0, H0⟩, ⟨%d1, H1⟩, ⟨%d2, H2⟩, ⟨%d3, H3⟩⟩
      iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover4_C_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover4_C_3 c _ _ _ _ _ _ _ _ _ _ _ _ _ _ _ _ _)
    · rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hoth⟩, Hg⟩, Ho, ⟨%d0, H0⟩, ⟨%d1, H1⟩, ⟨%d2, H2⟩, ⟨%d3, H3⟩⟩
      iapply ((kernelRun4_B c (grid4.coords t) _ _ _ _ _ _ _ _ _ _ (fun h => h0 ((hcond4_0 t).mp h)) (fun h => h1 ((hcond4_1 t).mp h)) (iblk4 V c 0 t) (iblk4 V c 1 t) (iblk4 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover4_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the class invariant back: the accumulator's contents are forgotten. -/
theorem hout4 (c : Dev nD) : (dat4 V c).Φ (Fin.last cfg4.N) ⊢ Pipeline.ΦA spec4 c := by
  have ht : (Fin.last cfg4.N).val ≠ 0 := by rw [Fin.val_last]; have : cfg4.N = 32 := N_4; omega
  rw [show (dat4 V c).Φ (Fin.last cfg4.N) = PhiS4 V c (Fin.last cfg4.N).val (Nat.le_of_lt_succ (Fin.last cfg4.N).isLt) from rfl, PhiS4_pos V c _ _ ht, PhiA4_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.R5Runs.lean ====
/-
  Region 5 (the last layer's pallas_call, with the residual: grid 4 × 1 × 4, the last axis the K blocks): what its
  runs share. A point t of the grid is (i, 0, k) with k = t mod 4. The body zeroes the f32 accumulator when k = 0,
  adds the block product at every point, and stores acc + bias + residual into the output block when k = 3; so the
  body has three control cases (first / middle / last K block) and the output window is idle except at the last K
  block. The residual operand is an input window like the others.
-/
import proofs.«171407_j40123584479654_2_alg».proof.Proof.Gen.KernelIdeal.Launch
import proofs.«171407_j40123584479654_2_alg».proof.Proof.Gen.KernelIdeal.Skeleton
import proofs.«171407_j40123584479654_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the region-entry contents of core c's buffers: a parameter, fixed when the regions are chained
variable (V : (c : Dev nD) → (b : Ref sig .tc) → Buf (Elt F) ((c : Thread nD τ).loc b))

/-! ## The windows' blocks -/

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's two branch conditions, in closed form over the grid -/

/-- "this is the first K block": the body's first conditional. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) ↔ t.val % 4 = 0 :=
  (by decide +kernel : ∀ t : Fin grid5.N, cond5_0 (grid5.coords t) ↔ t.val % 4 = 0)
/-- "this is the last K block": the body's second conditional. -/
abbrev cond5_1 (i : grid5.Coords) : Prop := k5_cond2 i = 1#1
theorem hcond5_1 : ∀ t : Fin cfg5.N, cond5_1 (grid5.coords t) ↔ t.val % 4 = 3 :=
  (by decide +kernel : ∀ t : Fin grid5.N, cond5_1 (grid5.coords t) ↔ t.val % 4 = 3)

/-! ## Where the windows are idle -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Away from the last K block the output window is idle and is not written back. -/
theorem idleAt5_4_A : ∀ t : Fin cfg5.N, cond5_0 (grid5.coords t) → ¬cond5_1 (grid5.coords t) → cfg5.idle 4 (grid5.coords t) = true := by decide +kernel
theorem noFlush5_4_A : ∀ t : Fin cfg5.N, cond5_0 (grid5.coords t) → ¬cond5_1 (grid5.coords t) → (cfg5.win 4).flush t = false := by decide +kernel
theorem idleAt5_4_B : ∀ t : Fin cfg5.N, ¬cond5_0 (grid5.coords t) → ¬cond5_1 (grid5.coords t) → cfg5.idle 4 (grid5.coords t) = true := by decide +kernel
theorem noFlush5_4_B : ∀ t : Fin cfg5.N, ¬cond5_0 (grid5.coords t) → ¬cond5_1 (grid5.coords t) → (cfg5.win 4).flush t = false := by decide +kernel
/-- At the last K block it is live. -/
theorem liveAt5_4_C : ∀ t : Fin cfg5.N, ¬cond5_0 (grid5.coords t) → cond5_1 (grid5.coords t) → cfg5.idle 4 (grid5.coords t) = false := by decide +kernel

/-! ## The memrefs the body is called with -/

/-- One staging buffer of the output window, through which its contents are stated. -/
abbrev VO5_4 : View sig .tc .vmem S1024x1024 .f32 := (Memref.whole cc5_stg4_0 : Memref sig .tc .vmem S1024x1024 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x1024 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1024x1024 .f32 := win5_4.stage (cfg5.slots t 4)
abbrev hs5_4 (t : Fin cfg5.N) : (ms5_4 t).IsWhole := hstage5_4 ((cfg5.slots t 4).cast nbuf5_4)
/-- The f32 accumulator: a whole scoped buffer of the kernel's own, carried from one grid point to the next. -/
abbrev scM5_0 : Memref sig .tc .vmem S1024x1024 .f32 := Memref.whole cc5_scratch0
abbrev VS5_0 : View sig .tc .vmem S1024x1024 .f32 := scM5_0.view

/-- The other scoped buffers (the other calls' staging buffers and accumulators), which this region never opens. -/
abbrev others5 (c : Dev nD) : sProp 𝕄 :=
  Pipeline.scopedRestBut (Ix := Unit) (Name := ℕ) (U := UR sig nD τ) (Lvl := ℕ) (Val := Elt F) spec5 c [cc5_scratch0]

/-- The class invariant split at the accumulator: the accumulator owned at some contents, the other scoped buffers
    unopened, the generator register at some state. -/
theorem PhiA5_eq (c : Dev nD) :
    (Pipeline.ΦA spec5 c : sProp 𝕄)
      = iprop(iprop(iprop((∃ d, owns (c : Thread nD τ) scM5_0 fullShare d)) ∗ others5 c) ∗ (∃ r, prngReg c r)) := by
  unfold Pipeline.ΦA others5; rw [scopedRest5_split]; simp only [scM5_0, owns_whole]; try rfl

end Cert.KernelIdeal.Fr

end
-- ==== Proof.KI.R5RunA.lean ====
/-
  Region 5, the first K block (the accumulator is zeroed, then the block product added; nothing stored to the output): the body's triple on any whole staging memrefs, by symbolic execution of its skeleton.
  The pieces each written buffer ends with are the witness the run finds.
-/
import proofs.«171407_j40123584479654_2_alg».proof.Proof.KI.R5Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First K block: inputs at their blocks, the idle output handed back untouched, the accumulator found at anything and
    left with its pieces written. -/
noncomputable def kernelRun5_A (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨[], ?_, fun xi4 E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R5RunB.lean ====
/-
  Region 5, a middle K block (the block product added to the accumulator; nothing stored to the output): the body's triple on any whole staging memrefs, by symbolic execution of its skeleton.
  The pieces each written buffer ends with are the witness the run finds.
-/
import proofs.«171407_j40123584479654_2_alg».proof.Proof.KI.R5Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle K block: the accumulator found at what the point before left and left with its piece written. -/
noncomputable def kernelRun5_B (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) :
    Σ' (L4 : List (View.Piece (Elt F) S1024x1024 .f32)), { LS0 : List (View.Piece (Elt F) S1024x1024 .f32) //
      ∀ (xi4 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨[], ?_, fun xi4 E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Fr

end
-- ==== Proof.KI.R5RunC.lean ====
/-
  Region 5, the last K block (the block product added, then acc + bias + residual stored to the output block): the body's triple on any whole staging memrefs, by symbolic execution of its skeleton.
  The pieces each written buffer ends with are the witness the run finds.
-/
import proofs.«171407_j40123584479654_2_alg».proof.Proof.KI.R5Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last K block: the accumulator found at what the point before left; the output's buffer found at anything and left
    with its piece written. -/
noncomputable def kernelRun5_C (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) :
    Σ' (L4 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc5__linear_residual_kernel i arg3 harg3 arg4 harg4 arg5 harg5 arg6 harg6 arg7 harg7 arg8 harg8) K } := by
  refine ⟨?_, ?_, fun E K => ?run⟩
  case run =>
    simp only [cc5__linear_residual_kernel_eq_skeleton]; unfold cc5__linear_residual_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Fr

end
-- ==== Proof.KI.R5Frame.lean ====
/-
  Region 5: what each control case leaves in the output block and in the f32 accumulator, the accumulation over
  the grid's points (the accumulator after point n is a function of the accumulator after point n - 1, except at a
  first K block where it is rebuilt from zero), the invariant that carries the accumulator between points, the
  pipeline's proof data and the body obligation at every point.
-/
import proofs.«171407_j40123584479654_2_alg».proof.Proof.KI.R5RunA
import proofs.«171407_j40123584479654_2_alg».proof.Proof.KI.R5RunB
import proofs.«171407_j40123584479654_2_alg».proof.Proof.KI.R5RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output's staging buffer (nothing is stored there: a placeholder no one reads, the window being idle and not written back at these points). -/
def out5_A_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) : Vec F S1024x1024 .f32 :=
  VO5_4.read (Elt F) (VO5_4.writes (Elt F) VO5_4.junk (kernelRun5_A c i arg3 harg3 arg4 harg4 arg5 harg5 arg6 harg6 arg7 harg7 arg8 harg8 hc0 hc1 x0 x1 x2 x3).1)

/-- Case A's stores into the accumulator cover it. -/
theorem scover5_A_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) (y : S1024x1024.Idx) :
    ∃ pc ∈ (kernelRun5_A c i arg3 harg3 arg4 harg4 arg5 harg5 arg6 harg6 arg7 harg7 arg8 harg8 hc0 hc1 x0 x1 x2 x3).2.1, y ∈ pc.1.set :=
  View.cover_of_tiledL (kernelRun5_A c i arg3 harg3 arg4 harg4 arg5 harg5 arg6 harg6 arg7 harg7 arg8 harg8 hc0 hc1 x0 x1 x2 x3).2.1 S1024x1024.size (by sl_kernel_rfl) y

/-- What case A leaves in the accumulator: its pieces read back. -/
def sout5_A_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) : Vec F S1024x1024 .f32 :=
  VS5_0.read (Elt F) (VS5_0.writes (Elt F) VS5_0.junk (kernelRun5_A c i arg3 harg3 arg4 harg4 arg5 harg5 arg6 harg6 arg7 harg7 arg8 harg8 hc0 hc1 x0 x1 x2 x3).2.1)

/-- What case B leaves in the output's staging buffer (nothing is stored there: a placeholder no one reads, the window being idle and not written back at these points). -/
def out5_B_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VO5_4.read (Elt F) (VO5_4.writes (Elt F) VO5_4.junk (kernelRun5_B c i arg3 harg3 arg4 harg4 arg5 harg5 arg6 harg6 arg7 harg7 arg8 harg8 hc0 hc1 x0 x1 x2 x3 xs0).1)

/-- Case B's stores into the accumulator cover it. -/
theorem scover5_B_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_B c i arg3 harg3 arg4 harg4 arg5 harg5 arg6 harg6 arg7 harg7 arg8 harg8 hc0 hc1 x0 x1 x2 x3 xs0).2.1, y ∈ pc.1.set :=
  View.cover_of_tiledL (kernelRun5_B c i arg3 harg3 arg4 harg4 arg5 harg5 arg6 harg6 arg7 harg7 arg8 harg8 hc0 hc1 x0 x1 x2 x3 xs0).2.1 S1024x1024.size (by sl_kernel_rfl) y

/-- What case B leaves in the accumulator: its pieces read back. -/
def sout5_B_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VS5_0.read (Elt F) (VS5_0.writes (Elt F) VS5_0.junk (kernelRun5_B c i arg3 harg3 arg4 harg4 arg5 harg5 arg6 harg6 arg7 harg7 arg8 harg8 hc0 hc1 x0 x1 x2 x3 xs0).2.1)

/-- At the last K block the one store into the output block covers it. -/
theorem cover5_C_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_C c i arg3 harg3 arg4 harg4 arg5 harg5 arg6 harg6 arg7 harg7 arg8 harg8 hc0 hc1 x0 x1 x2 x3 xs0).1, y ∈ pc.1.set :=
  View.cover_of_tiledL (kernelRun5_C c i arg3 harg3 arg4 harg4 arg5 harg5 arg6 harg6 arg7 harg7 arg8 harg8 hc0 hc1 x0 x1 x2 x3 xs0).1 S1024x1024.size (by sl_kernel_rfl) y

/-- What case C leaves in the output's staging buffer: its piece read back. -/
def out5_C_4 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VO5_4.read (Elt F) (VO5_4.writes (Elt F) VO5_4.junk (kernelRun5_C c i arg3 harg3 arg4 harg4 arg5 harg5 arg6 harg6 arg7 harg7 arg8 harg8 hc0 hc1 x0 x1 x2 x3 xs0).1)

/-- Case C's stores into the accumulator cover it. -/
theorem scover5_C_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) (y : S1024x1024.Idx) :
    ∃ pc ∈ (kernelRun5_C c i arg3 harg3 arg4 harg4 arg5 harg5 arg6 harg6 arg7 harg7 arg8 harg8 hc0 hc1 x0 x1 x2 x3 xs0).2.1, y ∈ pc.1.set :=
  View.cover_of_tiledL (kernelRun5_C c i arg3 harg3 arg4 harg4 arg5 harg5 arg6 harg6 arg7 harg7 arg8 harg8 hc0 hc1 x0 x1 x2 x3 xs0).2.1 S1024x1024.size (by sl_kernel_rfl) y

/-- What case C leaves in the accumulator: its pieces read back. -/
def sout5_C_0 (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) : Vec F S1024x1024 .f32 :=
  VS5_0.read (Elt F) (VS5_0.writes (Elt F) VS5_0.junk (kernelRun5_C c i arg3 harg3 arg4 harg4 arg5 harg5 arg6 harg6 arg7 harg7 arg8 harg8 hc0 hc1 x0 x1 x2 x3 xs0).2.1)

/-! ## What the output block and the accumulator hold after each point -/

/-- After the body at position n: (the output's staging buffer, the accumulator). The case is decided by n mod 4;
    a middle or last K block runs over the accumulator the point before left. -/
def outsAt5 (c : Dev nD) : (n : ℕ) → n < cfg5.N → Vec F S1024x1024 .f32 × Vec F S1024x1024 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h0 : (n + 1) % 4 = 0 then
      if h1 : (n + 1) % 4 = 3 then
        False.elim (by omega)
      else
        (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩))
    else
      if h1 : (n + 1) % 4 = 3 then
        (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)
      else
        (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

theorem outsAt5_A (c : Dev nD) (t : Fin cfg5.N) (h0 : t.val % 4 = 0) (h1 : ¬t.val % 4 = 3) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (dif_pos h0).trans ((dif_neg h1).trans rfl)

theorem outsAt5_B (c : Dev nD) (t : Fin cfg5.N) (h0 : ¬t.val % 4 = 0) (h1 : ¬t.val % 4 = 3) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 4 = 0) (h1 : t.val % 4 = 3) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulator -/

/-- Before position n: at the region's entry the class invariant (the accumulator at anything); afterwards the
    accumulator at what the point before left, the other scoped buffers unopened, the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ others5 c) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(owns (c : Thread nD τ) scM5_0 fullShare ((outsAt5 V c n hn).2) ∗ others5 c) ∗ (∃ r, prngReg c r)) := rfl

theorem PhiS5_pos (c : Dev nD) (n : ℕ) (h : n ≤ cfg5.N) (hz : n ≠ 0) :
    PhiS5 V c n h = iprop(iprop(owns (c : Thread nD τ) scM5_0 fullShare ((outsAt5 V c (n - 1) (by omega)).2) ∗ others5 c) ∗ (∃ r, prngReg c r)) := by
  cases n with
  | zero => exact absurd rfl hz
  | succ n => rfl

/-! ## The pipeline's proof data -/

/-- The arrays as the region finds them; after the body each input's buffer at its block and the output's at the
    accumulation's first component; the carried-accumulator invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; n mod 4 says which case the point is in; the invariant
    hands the body the accumulator (at anything at the region's first point, otherwise at what the point before left) and
    takes it back at this point's contents; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  have hN : t.val < 16 := lt_of_lt_of_eq t.isLt (show cfg5.N = 16 from N_5)
  by_cases h0 : t.val % 4 = 0
  · by_cases h1 : t.val % 4 = 3
    · exfalso; omega
    · rw [Dat.leavesExact_idle (dat5 V c) 4 t (idleAt5_4_A t ((hcond5_0 t).mpr h0) (fun h => h1 ((hcond5_1 t).mp h))) (noFlush5_4_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS5_castSucc V c t, PhiS5_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 4 = 3
    · rw [show (dat5 V c).leavesExact 4 t = owns (c : Thread nD τ) (ms5_4 t) fullShare ((dat5 V c).after 4 t) from by
        unfold Dat.leavesExact; rw [liveAt5_4_C t (fun h => h0 ((hcond5_0 t).mp h)) ((hcond5_1 t).mpr h1)], after5_4]
      rw [outsAt5_C V c t h0 h1]
      unfold out5_C_4 sout5_C_0; (try dsimp only)
      rw [PhiS5_castSucc V c t, PhiS5_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover5_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover5_C_4 c _ _ _ _ _ _ _ _ _ _ _ _ _ _ _ _ _ _ _ _)
    · rw [Dat.leavesExact_idle (dat5 V c) 4 t (idleAt5_4_B t (fun h => h0 ((hcond5_0 t).mp h)) (fun h => h1 ((hcond5_1 t).mp h))) (noFlush5_4_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover5_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class invariant back: the accumulator's contents are forgotten. -/
theorem hout5 (c : Dev nD) : (dat5 V c).Φ (Fin.last cfg5.N) ⊢ Pipeline.ΦA spec5 c := by
  have ht : (Fin.last cfg5.N).val ≠ 0 := by rw [Fin.val_last]; have : cfg5.N = 16 := N_5; omega
  rw [show (dat5 V c).Φ (Fin.last cfg5.N) = PhiS5 V c (Fin.last cfg5.N).val (Nat.le_of_lt_succ (Fin.last cfg5.N).isLt) from rfl, PhiS5_pos V c _ _ ht, PhiA5_eq]
  iintro ⟨⟨HS0, Hoth⟩, Hg⟩
  isplitl [HS0 Hoth]
  · isplitl [HS0]
    · iexists _; iexact HS0
    iexact Hoth
  iexact Hg

end Cert.KernelIdeal.Fr

end
-- ==== Proof.KI.Chain.lean ====
/-
  The whole run of @main: seven stretches of host operations and six pallas_calls, chained. Between two items every
  unscoped buffer of a core is held at a named valuation W0 … W13: W0 the launch memory, an odd step applies a host
  stretch's operations, an even step replaces a region's arrays by what its pipeline leaves (its inputs unchanged, its
  output the fold of the blocks written back). The run's post gives every unscoped buffer at W13, from which both the
  frame (no item writes an argument) and the result's value are read.
-/
import proofs.«171407_j40123584479654_2_alg».proof.Proof.KI.R0Frame
import proofs.«171407_j40123584479654_2_alg».proof.Proof.KI.R1Frame
import proofs.«171407_j40123584479654_2_alg».proof.Proof.KI.R2Frame
import proofs.«171407_j40123584479654_2_alg».proof.Proof.KI.R3Frame
import proofs.«171407_j40123584479654_2_alg».proof.Proof.KI.R4Frame
import proofs.«171407_j40123584479654_2_alg».proof.Proof.KI.R5Frame
import proofs.«171407_j40123584479654_2_alg».proof.Proof.Gen.KernelIdeal.Regions
import Idealize.ShloMosaic.Lib.Pipeline.Frame
import Idealize.ShloMosaic.Lib.Pipeline.FrameBody
import Idealize.ShloMosaic.Lib.Pipeline.RegionsLoop
import Idealize.ShloMosaic.Lib.Pipeline.FrameSuffix
import Idealize.ShloMosaic.Lib.Pipeline.Regions
import Idealize.ShloMosaic.Adequacy
import Idealize.ShloMosaic.Init

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After host stretch 0: what region 0 is entered from. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Region 0 changes only its output array: an input window's array ends as it was entered. -/
theorem W2_keep (c : Dev nD) (r : Ref sig .tc) (hr : r ≠ Pipeline.arrRef spec0 3) :
    W2 m ρ c (Proc.devRef .tc r) = W1 m ρ c (Proc.devRef .tc r) := by
  by_cases h0 : Pipeline.arrRef spec0 0 = r
  · subst h0; exact (W2_arr m ρ c 0).trans (((dat0 (V1 m ρ) c).arrAt_in 0 rfl _).trans (A_eq0 (V1 m ρ) c 0))
  by_cases h1 : Pipeline.arrRef spec0 1 = r
  · subst h1; exact (W2_arr m ρ c 1).trans (((dat0 (V1 m ρ) c).arrAt_in 1 rfl _).trans (A_eq0 (V1 m ρ) c 1))
  by_cases h2 : Pipeline.arrRef spec0 2 = r
  · subst h2; exact (W2_arr m ρ c 2).trans (((dat0 (V1 m ρ) c).arrAt_in 2 rfl _).trans (A_eq0 (V1 m ρ) c 2))
  have hne : ∀ w : Fin 4, Pipeline.arrRef spec0 w ≠ r := fun w => by
    rcases w with ⟨w, hw⟩
    rcases w with _ | _ | _ | _ | n
    · exact h0
    · exact h1
    · exact h2
    · exact fun e => hr e.symm
    · exact absurd hw (by omega)
  exact W2_of_ne m ρ c r hne

/-- After host stretch 1: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Region 1 changes only its output array: an input window's array ends as it was entered. -/
theorem W4_keep (c : Dev nD) (r : Ref sig .tc) (hr : r ≠ Pipeline.arrRef spec1 3) :
    W4 m ρ c (Proc.devRef .tc r) = W3 m ρ c (Proc.devRef .tc r) := by
  by_cases h0 : Pipeline.arrRef spec1 0 = r
  · subst h0; exact (W4_arr m ρ c 0).trans (((dat1 (V3 m ρ) c).arrAt_in 0 rfl _).trans (A_eq1 (V3 m ρ) c 0))
  by_cases h1 : Pipeline.arrRef spec1 1 = r
  · subst h1; exact (W4_arr m ρ c 1).trans (((dat1 (V3 m ρ) c).arrAt_in 1 rfl _).trans (A_eq1 (V3 m ρ) c 1))
  by_cases h2 : Pipeline.arrRef spec1 2 = r
  · subst h2; exact (W4_arr m ρ c 2).trans (((dat1 (V3 m ρ) c).arrAt_in 2 rfl _).trans (A_eq1 (V3 m ρ) c 2))
  have hne : ∀ w : Fin 4, Pipeline.arrRef spec1 w ≠ r := fun w => by
    rcases w with ⟨w, hw⟩
    rcases w with _ | _ | _ | _ | n
    · exact h0
    · exact h1
    · exact h2
    · exact fun e => hr e.symm
    · exact absurd hw (by omega)
  exact W4_of_ne m ρ c r hne

/-- After host stretch 2: what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- Region 2 changes only its output array: an input window's array ends as it was entered. -/
theorem W6_keep (c : Dev nD) (r : Ref sig .tc) (hr : r ≠ Pipeline.arrRef spec2 3) :
    W6 m ρ c (Proc.devRef .tc r) = W5 m ρ c (Proc.devRef .tc r) := by
  by_cases h0 : Pipeline.arrRef spec2 0 = r
  · subst h0; exact (W6_arr m ρ c 0).trans (((dat2 (V5 m ρ) c).arrAt_in 0 rfl _).trans (A_eq2 (V5 m ρ) c 0))
  by_cases h1 : Pipeline.arrRef spec2 1 = r
  · subst h1; exact (W6_arr m ρ c 1).trans (((dat2 (V5 m ρ) c).arrAt_in 1 rfl _).trans (A_eq2 (V5 m ρ) c 1))
  by_cases h2 : Pipeline.arrRef spec2 2 = r
  · subst h2; exact (W6_arr m ρ c 2).trans (((dat2 (V5 m ρ) c).arrAt_in 2 rfl _).trans (A_eq2 (V5 m ρ) c 2))
  have hne : ∀ w : Fin 4, Pipeline.arrRef spec2 w ≠ r := fun w => by
    rcases w with ⟨w, hw⟩
    rcases w with _ | _ | _ | _ | n
    · exact h0
    · exact h1
    · exact h2
    · exact fun e => hr e.symm
    · exact absurd hw (by omega)
  exact W6_of_ne m ρ c r hne

/-- After host stretch 3: what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- Region 3 changes only its output array: an input window's array ends as it was entered. -/
theorem W8_keep (c : Dev nD) (r : Ref sig .tc) (hr : r ≠ Pipeline.arrRef spec3 3) :
    W8 m ρ c (Proc.devRef .tc r) = W7 m ρ c (Proc.devRef .tc r) := by
  by_cases h0 : Pipeline.arrRef spec3 0 = r
  · subst h0; exact (W8_arr m ρ c 0).trans (((dat3 (V7 m ρ) c).arrAt_in 0 rfl _).trans (A_eq3 (V7 m ρ) c 0))
  by_cases h1 : Pipeline.arrRef spec3 1 = r
  · subst h1; exact (W8_arr m ρ c 1).trans (((dat3 (V7 m ρ) c).arrAt_in 1 rfl _).trans (A_eq3 (V7 m ρ) c 1))
  by_cases h2 : Pipeline.arrRef spec3 2 = r
  · subst h2; exact (W8_arr m ρ c 2).trans (((dat3 (V7 m ρ) c).arrAt_in 2 rfl _).trans (A_eq3 (V7 m ρ) c 2))
  have hne : ∀ w : Fin 4, Pipeline.arrRef spec3 w ≠ r := fun w => by
    rcases w with ⟨w, hw⟩
    rcases w with _ | _ | _ | _ | n
    · exact h0
    · exact h1
    · exact h2
    · exact fun e => hr e.symm
    · exact absurd hw (by omega)
  exact W8_of_ne m ρ c r hne

/-- After host stretch 4: what region 4 is entered from. -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- Region 4 changes only its output array: an input window's array ends as it was entered. -/
theorem W10_keep (c : Dev nD) (r : Ref sig .tc) (hr : r ≠ Pipeline.arrRef spec4 3) :
    W10 m ρ c (Proc.devRef .tc r) = W9 m ρ c (Proc.devRef .tc r) := by
  by_cases h0 : Pipeline.arrRef spec4 0 = r
  · subst h0; exact (W10_arr m ρ c 0).trans (((dat4 (V9 m ρ) c).arrAt_in 0 rfl _).trans (A_eq4 (V9 m ρ) c 0))
  by_cases h1 : Pipeline.arrRef spec4 1 = r
  · subst h1; exact (W10_arr m ρ c 1).trans (((dat4 (V9 m ρ) c).arrAt_in 1 rfl _).trans (A_eq4 (V9 m ρ) c 1))
  by_cases h2 : Pipeline.arrRef spec4 2 = r
  · subst h2; exact (W10_arr m ρ c 2).trans (((dat4 (V9 m ρ) c).arrAt_in 2 rfl _).trans (A_eq4 (V9 m ρ) c 2))
  have hne : ∀ w : Fin 4, Pipeline.arrRef spec4 w ≠ r := fun w => by
    rcases w with ⟨w, hw⟩
    rcases w with _ | _ | _ | _ | n
    · exact h0
    · exact h1
    · exact h2
    · exact fun e => hr e.symm
    · exact absurd hw (by omega)
  exact W10_of_ne m ρ c r hne

/-- After host stretch 5: what region 5 is entered from. -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- Region 5 changes only its output array: an input window's array ends as it was entered. -/
theorem W12_keep (c : Dev nD) (r : Ref sig .tc) (hr : r ≠ Pipeline.arrRef spec5 4) :
    W12 m ρ c (Proc.devRef .tc r) = W11 m ρ c (Proc.devRef .tc r) := by
  by_cases h0 : Pipeline.arrRef spec5 0 = r
  · subst h0; exact (W12_arr m ρ c 0).trans (((dat5 (V11 m ρ) c).arrAt_in 0 rfl _).trans (A_eq5 (V11 m ρ) c 0))
  by_cases h1 : Pipeline.arrRef spec5 1 = r
  · subst h1; exact (W12_arr m ρ c 1).trans (((dat5 (V11 m ρ) c).arrAt_in 1 rfl _).trans (A_eq5 (V11 m ρ) c 1))
  by_cases h2 : Pipeline.arrRef spec5 2 = r
  · subst h2; exact (W12_arr m ρ c 2).trans (((dat5 (V11 m ρ) c).arrAt_in 2 rfl _).trans (A_eq5 (V11 m ρ) c 2))
  by_cases h3 : Pipeline.arrRef spec5 3 = r
  · subst h3; exact (W12_arr m ρ c 3).trans (((dat5 (V11 m ρ) c).arrAt_in 3 rfl _).trans (A_eq5 (V11 m ρ) c 3))
  have hne : ∀ w : Fin 5, Pipeline.arrRef spec5 w ≠ r := fun w => by
    rcases w with ⟨w, hw⟩
    rcases w with _ | _ | _ | _ | _ | n
    · exact h0
    · exact h1
    · exact h2
    · exact h3
    · exact fun e => hr e.symm
    · exact absurd hw (by omega)
  exact W12_of_ne m ρ c r hne

/-- After the last host stretch: what @main returns from. -/
abbrev W13 : Dev nD → Valuation τ sig (Elt F) := fun c => StableHlo.after hostOps6 (W12 m ρ c)

/-! ## A buffer no item writes ends as launched -/

theorem W13_kept (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W) (h6 : r ∉ hostOps6_W)
    (g0 : ∀ w, Pipeline.arrRef spec0 w ≠ r) (g1 : ∀ w, Pipeline.arrRef spec1 w ≠ r) (g2 : ∀ w, Pipeline.arrRef spec2 w ≠ r) (g3 : ∀ w, Pipeline.arrRef spec3 w ≠ r) (g4 : ∀ w, Pipeline.arrRef spec4 w ≠ r) (g5 : ∀ w, Pipeline.arrRef spec5 w ≠ r) :
    W13 m ρ c (Proc.devRef .tc r) = m ((c : Thread nD τ).loc r) :=
  (StableHlo.after_of_writes_sub hostOps6 _ hostOps6_writes h6).trans <|
  (W12_of_ne m ρ c r g5).trans <| (StableHlo.after_of_writes_sub hostOps5 _ hostOps5_writes h5).trans <|
  (W10_of_ne m ρ c r g4).trans <| (StableHlo.after_of_writes_sub hostOps4 _ hostOps4_writes h4).trans <|
  (W8_of_ne m ρ c r g3).trans <| (StableHlo.after_of_writes_sub hostOps3 _ hostOps3_writes h3).trans <|
  (W6_of_ne m ρ c r g2).trans <| (StableHlo.after_of_writes_sub hostOps2 _ hostOps2_writes h2).trans <|
  (W4_of_ne m ρ c r g1).trans <| (StableHlo.after_of_writes_sub hostOps1 _ hostOps1_writes h1).trans <|
  (W2_of_ne m ρ c r g0).trans <| (StableHlo.after_of_writes_sub hostOps0 _ hostOps0_writes h0).trans <|
  rfl

theorem W13_main_arg0 (c : Dev nD) : W13 m ρ c (Proc.devRef .tc main_arg0) = m ((c : Thread nD τ).loc main_arg0) :=
  W13_kept m ρ c main_arg0 (by decide) (by decide) (by decide) (by decide) (by decide) (by decide) (by decide) (by decide) (by decide) (by decide) (by decide) (by decide) (by decide)
theorem W13_main_arg1 (c : Dev nD) : W13 m ρ c (Proc.devRef .tc main_arg1) = m ((c : Thread nD τ).loc main_arg1) :=
  W13_kept m ρ c main_arg1 (by decide) (by decide) (by decide) (by decide) (by decide) (by decide) (by decide) (by decide) (by decide) (by decide) (by decide) (by decide) (by decide)
theorem W13_main_arg2 (c : Dev nD) : W13 m ρ c (Proc.devRef .tc main_arg2) = m ((c : Thread nD τ).loc main_arg2) :=
  W13_kept m ρ c main_arg2 (by decide) (by decide) (by decide) (by decide) (by decide) (by decide) (by decide) (by decide) (by decide) (by decide) (by decide) (by decide) (by decide)
theorem W13_main_arg3 (c : Dev nD) : W13 m ρ c (Proc.devRef .tc main_arg3) = m ((c : Thread nD τ).loc main_arg3) :=
  W13_kept m ρ c main_arg3 (by decide) (by decide) (by decide) (by decide) (by decide) (by decide) (by decide) (by decide) (by decide) (by decide) (by decide) (by decide) (by decide)
theorem W13_main_arg4 (c : Dev nD) : W13 m ρ c (Proc.devRef .tc main_arg4) = m ((c : Thread nD τ).loc main_arg4) :=
  W13_kept m ρ c main_arg4 (by decide) (by decide) (by decide) (by decide) (by decide) (by decide) (by decide) (by decide) (by decide) (by decide) (by decide) (by decide) (by decide)
theorem W13_main_arg5 (c : Dev nD) : W13 m ρ c (Proc.devRef .tc main_arg5) = m ((c : Thread nD τ).loc main_arg5) :=
  W13_kept m ρ c main_arg5 (by decide) (by decide) (by decide) (by decide) (by decide) (by decide) (by decide) (by decide) (by decide) (by decide) (by decide) (by decide) (by decide)
theorem W13_main_arg6 (c : Dev nD) : W13 m ρ c (Proc.devRef .tc main_arg6) = m ((c : Thread nD τ).loc main_arg6) :=
  W13_kept m ρ c main_arg6 (by decide) (by decide) (by decide) (by decide) (by decide) (by decide) (by decide) (by decide) (by decide) (by decide) (by decide) (by decide) (by decide)
theorem W13_main_arg7 (c : Dev nD) : W13 m ρ c (Proc.devRef .tc main_arg7) = m ((c : Thread nD τ).loc main_arg7) :=
  W13_kept m ρ c main_arg7 (by decide) (by decide) (by decide) (by decide) (by decide) (by decide) (by decide) (by decide) (by decide) (by decide) (by decide) (by decide) (by decide)

/-! ## The proof data family and the thread state -/

abbrev adm : (p : Fin 6) → (pcfgs (F := F) p).Adm := fun p => (cfgs p).toPCfg_adm
/-- Every pipeline's proof data, each at its region's entry contents: a literal match on the pipeline's index. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0: entered from every unscoped buffer at W1, left at W2. Its arrays are split out of the unscoped
    buffers and put back at the exit contents; the generator register and the scoped buffers go into the invariant and come
    back (the accumulator's contents forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec0 c) ?_ (hin0 (V1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec0 c) (hout0 (V1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at W3, left at W4. Its arrays are split out of the unscoped
    buffers and put back at the exit contents; the generator register and the scoped buffers go into the invariant and come
    back (the accumulator's contents forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec1 c) ?_ (hin1 (V3 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec1 c) (hout1 (V3 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at W5, left at W6. Its arrays are split out of the unscoped
    buffers and put back at the exit contents; the generator register and the scoped buffers go into the invariant and come
    back (the accumulator's contents forgotten); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec2 c) ?_ (hin2 (V5 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec2 c) (hout2 (V5 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at W7, left at W8. Its arrays are split out of the unscoped
    buffers and put back at the exit contents; the generator register and the scoped buffers go into the invariant and come
    back (the accumulator's contents forgotten); nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec3 c) ?_ (hin3 (V7 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec3 c) (hout3 (V7 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at W9, left at W10. Its arrays are split out of the unscoped
    buffers and put back at the exit contents; the generator register and the scoped buffers go into the invariant and come
    back (the accumulator's contents forgotten); nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec4 c) ?_ (hin4 (V9 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec4 c) (hout4 (V9 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at W11, left at W12. Its arrays are split out of the unscoped
    buffers and put back at the exit contents; the generator register and the scoped buffers go into the invariant and come
    back (the accumulator's contents forgotten); nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.Entails.trans (Q := Pipeline.ΦA spec5 c) ?_ (hin5 (V11 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none]
    refine BI.Entails.trans (Q := Pipeline.ΦA spec5 c) (hout5 (V11 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]
theorem main_run (c : Dev nD) : main (F := F) c = Pipeline.Seg.run (segs m ρ) := (main_chain c).trans (by chain_rfl)

set_option backward.isDefEq.respectTransparency.types false in
/-- Every weakly fair execution of @main from memory m with zero counters terminates, nothing faulting, and every final
    state holds every unscoped buffer of every core at W13. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W13 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c)⟩) (run_all m ρ)

end Cert.KernelIdeal.Fr

end
-- ==== Proof.Spec.lean ====
/-
  The coupling layer as mathematics, index by index, over the extended reals.

  The input x : [4096, 2048] is read as [4096, 1024, 2]; x1 is its plane 0 and x2 its plane 1
  (the even and the odd columns of x). A six-layer perceptron is applied to x2:
    h0[p, n]     = max ((∑ k < 1024, x2[p, k] · W_in[k, n]) + b_in[n]) 0,
    h(l+1)[p, n] = max ((∑ k < 4096, hl[p, k] · W_h[l, k, n]) + b_h[l, n]) 0     for l = 0, 1, 2, 3,
    out[p, q]    = (∑ k < 4096, h4[p, k] · W_out[k, q]) + b_out[q],
  and the result's plane 0 is x1 + out while its plane 1 is x2 itself. Every sum is a finite sum in the
  extended reals, where + is associative and commutative without any finiteness assumption; the operands
  of each + and each · are kept in the order in which the reference writes them.
-/
import Idealize.ShloMosaic.PureOps.Ideal
import Idealize.ShloMosaic.Lib.ValueIdx

noncomputable section

namespace Cert.Spec

open Idealize.ShloMosaic Idealize.ShloMosaic.ValueIdx
open scoped BigOperators

/-! ## The shapes, as literals -/

abbrev T4096x2048 : Shape := ⟨2, ![4096, 2048]⟩
abbrev T4096x1024x2 : Shape := ⟨3, ![4096, 1024, 2]⟩
abbrev T4096x1024x1 : Shape := ⟨3, ![4096, 1024, 1]⟩
abbrev T4096x1024 : Shape := ⟨2, ![4096, 1024]⟩
abbrev T1024x4096 : Shape := ⟨2, ![1024, 4096]⟩
abbrev T4096x4096 : Shape := ⟨2, ![4096, 4096]⟩
abbrev T4096 : Shape := ⟨1, ![4096]⟩
abbrev T4x4096x4096 : Shape := ⟨3, ![4, 4096, 4096]⟩
abbrev T4x4096 : Shape := ⟨2, ![4, 4096]⟩
abbrev T1024 : Shape := ⟨1, ![1024]⟩

/-! ## The layout operations both programs share

Splitting x into its two planes, and interleaving two planes back into one array. They are only ever
carried, never opened: both programs apply these same operations to the same values. -/

theorem cast_x : T4096x2048.ShapeCasts T4096x1024x2 := by decide
theorem slice_plane0 : T4096x1024x2.Slices ![0, 0, 0] T4096x1024x1 := by decide
theorem slice_plane1 : T4096x1024x2.Slices ![0, 0, 1] T4096x1024x1 := by decide
theorem cast_plane : T4096x1024x1.ShapeCasts T4096x1024 := by decide
theorem bcast_plane : T4096x1024.BroadcastsInDim T4096x1024x1 (![0, 1] : Fin 2 → Fin T4096x1024x1.rank) := by decide
theorem concat_planes : Shape.Concatenates [T4096x1024x1, T4096x1024x1] T4096x1024x2 2 := by decide
theorem cast_y : T4096x1024x2.ShapeCasts T4096x2048 := by decide

section Layout
variable {α : Type}

/-- Plane 0 of x read as [4096, 1024, 2]: the even columns, as a [4096, 1024] array. -/
def sel0 (x : T4096x2048.Idx → α) : T4096x1024.Idx → α :=
  shapeCast T4096x1024 (extractStridedSlice T4096x1024x1 ![0, 0, 0] (shapeCast T4096x1024x2 x cast_x) slice_plane0) cast_plane

/-- Plane 1 of x read as [4096, 1024, 2]: the odd columns, as a [4096, 1024] array. -/
def sel1 (x : T4096x2048.Idx → α) : T4096x1024.Idx → α :=
  shapeCast T4096x1024 (extractStridedSlice T4096x1024x1 ![0, 0, 1] (shapeCast T4096x1024x2 x cast_x) slice_plane1) cast_plane

/-- Two [4096, 1024] arrays interleaved column by column into one [4096, 2048] array: y is plane 0 and
    x2 plane 1 of the [4096, 1024, 2] array that is then flattened. -/
def tail (y x2 : T4096x1024.Idx → α) : T4096x2048.Idx → α :=
  shapeCast T4096x2048
    (concatenate T4096x1024x2 2
      [⟨T4096x1024x1, broadcastInDim T4096x1024x1 (![0, 1] : Fin 2 → Fin T4096x1024x1.rank) bcast_plane y⟩,
       ⟨T4096x1024x1, broadcastInDim T4096x1024x1 (![0, 1] : Fin 2 → Fin T4096x1024x1.rank) bcast_plane x2⟩]
      concat_planes)
    cast_y

end Layout

/-! ## The perceptron -/

/-- The rectifier on the extended reals. -/
def relu (x : EReal) : EReal := max x 0

/-- Entry (p, n) of the first layer: x2 : [4096, 1024] against W_in : [1024, 4096], plus b_in[n], rectified. -/
def layerIn (x2 : T4096x1024.Idx → EReal) (W_in : T1024x4096.Idx → EReal) (b_in : T4096.Idx → EReal)
    (p n : Fin 4096) : EReal :=
  relu ((∑ k : Fin 1024, x2 (ix2 p k) * W_in (ix2 k n)) + b_in (ix1 n))

/-- The first layer's output array. -/
def hidden0 (x2 : T4096x1024.Idx → EReal) (W_in : T1024x4096.Idx → EReal) (b_in : T4096.Idx → EReal) :
    T4096x4096.Idx → EReal :=
  fun j => layerIn x2 W_in b_in (j 0) (j 1)

/-- Entry (p, n) of square layer l: h : [4096, 4096] against W_h[l] : [4096, 4096], plus b_h[l, n], rectified. -/
def layerH (l : Fin 4) (h : T4096x4096.Idx → EReal) (W_h : T4x4096x4096.Idx → EReal) (b_h : T4x4096.Idx → EReal)
    (p n : Fin 4096) : EReal :=
  relu ((∑ k : Fin 4096, h (ix2 p k) * W_h (ix3 l k n)) + b_h (ix2 l n))

/-- Square layer l's output array. -/
def hidden (l : Fin 4) (h : T4096x4096.Idx → EReal) (W_h : T4x4096x4096.Idx → EReal) (b_h : T4x4096.Idx → EReal) :
    T4096x4096.Idx → EReal :=
  fun j => layerH l h W_h b_h (j 0) (j 1)

/-- Entry (p, q) of the last layer: h : [4096, 4096] against W_out : [4096, 1024], plus b_out[q]; no rectifier. -/
def layerOut (h : T4096x4096.Idx → EReal) (W_out : T4096x1024.Idx → EReal) (b_out : T1024.Idx → EReal)
    (p : Fin 4096) (q : Fin 1024) : EReal :=
  (∑ k : Fin 4096, h (ix2 p k) * W_out (ix2 k q)) + b_out (ix1 q)

/-- The five rectified layers: what the last layer is applied to. -/
def mlp (x2 : T4096x1024.Idx → EReal) (W_in : T1024x4096.Idx → EReal) (b_in : T4096.Idx → EReal)
    (W_h : T4x4096x4096.Idx → EReal) (b_h : T4x4096.Idx → EReal) : T4096x4096.Idx → EReal :=
  hidden 3 (hidden 2 (hidden 1 (hidden 0 (hidden0 x2 W_in b_in) W_h b_h) W_h b_h) W_h b_h) W_h b_h

/-- Plane 0 of the result: x1 + ((h4 · W_out) + b_out), entry by entry. -/
def core (x1 x2 : T4096x1024.Idx → EReal) (W_in : T1024x4096.Idx → EReal) (b_in : T4096.Idx → EReal)
    (W_h : T4x4096x4096.Idx → EReal) (b_h : T4x4096.Idx → EReal) (W_out : T4096x1024.Idx → EReal)
    (b_out : T1024.Idx → EReal) : T4096x1024.Idx → EReal :=
  fun j => x1 j + layerOut (mlp x2 W_in b_in W_h b_h) W_out b_out (j 0) (j 1)

/-- The arrays above read at an index given by its coordinates. -/
theorem hidden0_apply (x2 : T4096x1024.Idx → EReal) (W_in : T1024x4096.Idx → EReal) (b_in : T4096.Idx → EReal)
    (p n : Fin 4096) : hidden0 x2 W_in b_in (ix2 p n) = layerIn x2 W_in b_in p n := rfl

theorem hidden_apply (l : Fin 4) (h : T4096x4096.Idx → EReal) (W_h : T4x4096x4096.Idx → EReal)
    (b_h : T4x4096.Idx → EReal) (p n : Fin 4096) : hidden l h W_h b_h (ix2 p n) = layerH l h W_h b_h p n := rfl

theorem core_apply (x1 x2 : T4096x1024.Idx → EReal) (W_in : T1024x4096.Idx → EReal) (b_in : T4096.Idx → EReal)
    (W_h : T4x4096x4096.Idx → EReal) (b_h : T4x4096.Idx → EReal) (W_out : T4096x1024.Idx → EReal)
    (b_out : T1024.Idx → EReal) (p : Fin 4096) (q : Fin 1024) :
    core x1 x2 W_in b_in W_h b_h W_out b_out (ix2 p q)
      = x1 (ix2 p q) + layerOut (mlp x2 W_in b_in W_h b_h) W_out b_out p q := rfl

end Cert.Spec

end
-- ==== Proof.HostReads.lean ====
/-
  Layout facts about the arrays a dense layer reads, entry by entry.

  A bias vector b : [N] enters a layer as the one-row array [1, N], whose entry (0, n) is b[n]. Plane l of
  the stacked square weights W_h : [4, 4096, 4096], flattened to [4096, 4096], has entry (k, n) equal to
  W_h[l, k, n]; row l of the stacked bias b_h : [4, 4096], taken as a vector and then as one row, has entry
  (0, n) equal to b_h[l, n]. All of these are re-indexings: row-major position is preserved by a reshape, and a
  slice adds its offset.
-/
import Idealize.ShloMosaic.Lib.Pipeline.Value
import proofs.«171407_j40123584479654_2_alg».proof.Proof.Spec

noncomputable section

namespace Cert.Spec

open Idealize.ShloMosaic Idealize.ShloMosaic.ValueIdx

abbrev T1x4096 : Shape := ⟨2, ![1, 4096]⟩
abbrev T1x1024 : Shape := ⟨2, ![1, 1024]⟩
abbrev T1x4096x4096 : Shape := ⟨3, ![1, 4096, 4096]⟩

variable {α : Type}

/-- A vector of 4096 entries read as the one row [1, 4096]: entry (0, n) is entry n. -/
theorem row4096_apply (x : T4096.Idx → α) (h : T4096.ShapeCasts T1x4096) (z : Fin 1) (n : Fin 4096) :
    shapeCast T1x4096 x h (ix2 z n) = x (ix1 n) :=
  shapeCast_apply x h (ix2 z n) (ix1 n) (by
    rw [Shape.rowMajor_val_one, Shape.rowMajor_val_two]
    have hz := z.isLt
    show n.val = z.val * 4096 + n.val
    omega)

/-- A vector of 1024 entries read as the one row [1, 1024]: entry (0, q) is entry q. -/
theorem row1024_apply (x : T1024.Idx → α) (h : T1024.ShapeCasts T1x1024) (z : Fin 1) (q : Fin 1024) :
    shapeCast T1x1024 x h (ix2 z q) = x (ix1 q) :=
  shapeCast_apply x h (ix2 z q) (ix1 q) (by
    rw [Shape.rowMajor_val_one, Shape.rowMajor_val_two]
    have hz := z.isLt
    show q.val = z.val * 1024 + q.val
    omega)

/-- Plane o of the stacked square weights, flattened to [4096, 4096]: entry (k, n) is the stack's (o, k, n). -/
theorem wplane_apply (o : Nat) (ho : o < 4) (x : T4x4096x4096.Idx → α)
    (hs : T4x4096x4096.Slices ![o, 0, 0] T1x4096x4096) (hc : T1x4096x4096.ShapeCasts T4096x4096) (k n : Fin 4096) :
    shapeCast T4096x4096 (extractStridedSlice T1x4096x4096 ![o, 0, 0] x hs) hc (ix2 k n)
      = x (ix3 (⟨o, ho⟩ : Fin 4) k n) := by
  refine (shapeCast_apply _ hc (ix2 k n) (ix3 (0 : Fin 1) k n) (by
    rw [Shape.rowMajor_val_three, Shape.rowMajor_val_two]
    show (0 * 4096 + k.val) * 4096 + n.val = k.val * 4096 + n.val
    omega)).trans ?_
  exact extractStridedSlice_apply ![o, 0, 0] x hs (ix3 (0 : Fin 1) k n) (ix3 (⟨o, ho⟩ : Fin 4) k n) (fun a => match a with
    | ⟨0, _⟩ => by show o = o + 0; omega
    | ⟨1, _⟩ => by show k.val = 0 + k.val; omega
    | ⟨2, _⟩ => by show n.val = 0 + n.val; omega)

/-- Row o of the stacked bias, taken as a vector: entry n is the stack's (o, n). -/
theorem bvec_apply (o : Nat) (ho : o < 4) (x : T4x4096.Idx → α) (hs : T4x4096.Slices ![o, 0] T1x4096)
    (hc : T1x4096.ShapeCasts T4096) (n : Fin 4096) :
    shapeCast T4096 (extractStridedSlice T1x4096 ![o, 0] x hs) hc (ix1 n) = x (ix2 (⟨o, ho⟩ : Fin 4) n) := by
  refine (shapeCast_apply _ hc (ix1 n) (ix2 (0 : Fin 1) n) (by
    rw [Shape.rowMajor_val_two, Shape.rowMajor_val_one]
    show 0 * 4096 + n.val = n.val
    omega)).trans ?_
  exact extractStridedSlice_apply ![o, 0] x hs (ix2 (0 : Fin 1) n) (ix2 (⟨o, ho⟩ : Fin 4) n) (fun a => match a with
    | ⟨0, _⟩ => by show o = o + 0; omega
    | ⟨1, _⟩ => by show n.val = 0 + n.val; omega)

/-- Row o of the stacked bias, taken as a vector and then as the one row [1, 4096]: entry (0, n) is the
    stack's (o, n). -/
theorem brow_apply (o : Nat) (ho : o < 4) (x : T4x4096.Idx → α) (hs : T4x4096.Slices ![o, 0] T1x4096)
    (hc : T1x4096.ShapeCasts T4096) (hc' : T4096.ShapeCasts T1x4096) (z : Fin 1) (n : Fin 4096) :
    shapeCast T1x4096 (shapeCast T4096 (extractStridedSlice T1x4096 ![o, 0] x hs) hc) hc' (ix2 z n)
      = x (ix2 (⟨o, ho⟩ : Fin 4) n) :=
  (row4096_apply _ hc' z n).trans (bvec_apply o ho x hs hc n)

end Cert.Spec

end
-- ==== Proof.KI.HostStretch.lean ====
/-
  What the host operations around the six matrix products write, read as functions of the buffers' contents
  before them. Before the first product: the two planes of x, the (format-changed, hence at the extended
  reals unchanged) operands, and b_in as one row. Before square layer l: plane l of W_h flattened, and row l
  of b_h as one row. Before the last product: b_out as one row. After it: the two planes interleaved.
-/
import proofs.«171407_j40123584479654_2_alg».proof.Proof.Gen.KernelIdeal.Launch
import proofs.«171407_j40123584479654_2_alg».proof.Proof.Gen.KernelIdeal.Regions
import proofs.«171407_j40123584479654_2_alg».proof.Proof.Spec
import proofs.«171407_j40123584479654_2_alg».proof.Proof.HostReads
import Idealize.ShloMosaic.Lib.StableHlo.Run

noncomputable section

namespace Cert.KernelIdeal.Fr

open Cert.KernelIdeal Cert.KernelIdeal.Gen Idealize.ShloMosaic Idealize.ShloMosaic.ValueIdx

variable (V : Valuation τ sig (Elt Ideal))

/-! ## Before the first product -/

theorem s0_v2 : (StableHlo.after (hostOps0 (F := Ideal)) V (Proc.devRef .tc main_v2) : S4096x1024.Idx → EReal)
    = Cert.Spec.sel0 (V (Proc.devRef .tc main_arg0) : S4096x2048.Idx → EReal) := by
  after_results; rfl

theorem s0_v4 : (StableHlo.after (hostOps0 (F := Ideal)) V (Proc.devRef .tc main_v4) : S4096x1024.Idx → EReal)
    = Cert.Spec.sel1 (V (Proc.devRef .tc main_arg0) : S4096x2048.Idx → EReal) := by
  after_results; rfl

theorem s0_v5 : (StableHlo.after (hostOps0 (F := Ideal)) V (Proc.devRef .tc main_v5) : S4096x1024.Idx → EReal)
    = Cert.Spec.sel1 (V (Proc.devRef .tc main_arg0) : S4096x2048.Idx → EReal) := by
  after_results; rfl

theorem s0_v6 : (StableHlo.after (hostOps0 (F := Ideal)) V (Proc.devRef .tc main_v6) : S1024x4096.Idx → EReal)
    = (V (Proc.devRef .tc main_arg2) : S1024x4096.Idx → EReal) := by
  after_results; rfl

theorem s0_v7 : (StableHlo.after (hostOps0 (F := Ideal)) V (Proc.devRef .tc main_v7) : S4x4096x4096.Idx → EReal)
    = (V (Proc.devRef .tc main_arg4) : S4x4096x4096.Idx → EReal) := by
  after_results; rfl

theorem s0_v8 : (StableHlo.after (hostOps0 (F := Ideal)) V (Proc.devRef .tc main_v8) : S4096x1024.Idx → EReal)
    = (V (Proc.devRef .tc main_arg6) : S4096x1024.Idx → EReal) := by
  after_results; rfl

theorem s0_v9 (n : Fin 4096) :
    (StableHlo.after (hostOps0 (F := Ideal)) V (Proc.devRef .tc main_v9) : S1x4096.Idx → EReal) (ix2 (0 : Fin 1) n)
      = (V (Proc.devRef .tc main_arg3) : S4096.Idx → EReal) (ix1 n) := by
  after_results
  exact Cert.Spec.row4096_apply _ _ 0 n

/-! ## Before square layer 0 -/

theorem s1_v12 (k n : Fin 4096) :
    (StableHlo.after (hostOps1 (F := Ideal)) V (Proc.devRef .tc main_v12) : S4096x4096.Idx → EReal) (ix2 k n)
      = (V (Proc.devRef .tc main_v7) : S4x4096x4096.Idx → EReal) (ix3 (0 : Fin 4) k n) := by
  after_results
  exact Cert.Spec.wplane_apply 0 (by decide) _ _ _ k n

theorem s1_v15 (n : Fin 4096) :
    (StableHlo.after (hostOps1 (F := Ideal)) V (Proc.devRef .tc main_v15) : S1x4096.Idx → EReal) (ix2 (0 : Fin 1) n)
      = (V (Proc.devRef .tc main_arg5) : S4x4096.Idx → EReal) (ix2 (0 : Fin 4) n) := by
  after_results
  exact Cert.Spec.brow_apply 0 (by decide) _ _ _ _ 0 n

/-! ## Before square layer 1 -/

theorem s2_v18 (k n : Fin 4096) :
    (StableHlo.after (hostOps2 (F := Ideal)) V (Proc.devRef .tc main_v18) : S4096x4096.Idx → EReal) (ix2 k n)
      = (V (Proc.devRef .tc main_v7) : S4x4096x4096.Idx → EReal) (ix3 (1 : Fin 4) k n) := by
  after_results
  exact Cert.Spec.wplane_apply 1 (by decide) _ _ _ k n

theorem s2_v21 (n : Fin 4096) :
    (StableHlo.after (hostOps2 (F := Ideal)) V (Proc.devRef .tc main_v21) : S1x4096.Idx → EReal) (ix2 (0 : Fin 1) n)
      = (V (Proc.devRef .tc main_arg5) : S4x4096.Idx → EReal) (ix2 (1 : Fin 4) n) := by
  after_results
  exact Cert.Spec.brow_apply 1 (by decide) _ _ _ _ 0 n

/-! ## Before square layer 2 -/

theorem s3_v24 (k n : Fin 4096) :
    (StableHlo.after (hostOps3 (F := Ideal)) V (Proc.devRef .tc main_v24) : S4096x4096.Idx → EReal) (ix2 k n)
      = (V (Proc.devRef .tc main_v7) : S4x4096x4096.Idx → EReal) (ix3 (2 : Fin 4) k n) := by
  after_results
  exact Cert.Spec.wplane_apply 2 (by decide) _ _ _ k n

theorem s3_v27 (n : Fin 4096) :
    (StableHlo.after (hostOps3 (F := Ideal)) V (Proc.devRef .tc main_v27) : S1x4096.Idx → EReal) (ix2 (0 : Fin 1) n)
      = (V (Proc.devRef .tc main_arg5) : S4x4096.Idx → EReal) (ix2 (2 : Fin 4) n) := by
  after_results
  exact Cert.Spec.brow_apply 2 (by decide) _ _ _ _ 0 n

/-! ## Before square layer 3 -/

theorem s4_v30 (k n : Fin 4096) :
    (StableHlo.after (hostOps4 (F := Ideal)) V (Proc.devRef .tc main_v30) : S4096x4096.Idx → EReal) (ix2 k n)
      = (V (Proc.devRef .tc main_v7) : S4x4096x4096.Idx → EReal) (ix3 (3 : Fin 4) k n) := by
  after_results
  exact Cert.Spec.wplane_apply 3 (by decide) _ _ _ k n

theorem s4_v33 (n : Fin 4096) :
    (StableHlo.after (hostOps4 (F := Ideal)) V (Proc.devRef .tc main_v33) : S1x4096.Idx → EReal) (ix2 (0 : Fin 1) n)
      = (V (Proc.devRef .tc main_arg5) : S4x4096.Idx → EReal) (ix2 (3 : Fin 4) n) := by
  after_results
  exact Cert.Spec.brow_apply 3 (by decide) _ _ _ _ 0 n

/-! ## Before and after the last product -/

theorem s5_v35 (q : Fin 1024) :
    (StableHlo.after (hostOps5 (F := Ideal)) V (Proc.devRef .tc main_v35) : S1x1024.Idx → EReal) (ix2 (0 : Fin 1) q)
      = (V (Proc.devRef .tc main_arg7) : S1024.Idx → EReal) (ix1 q) := by
  after_results
  exact Cert.Spec.row1024_apply _ _ 0 q

theorem s6_v40 : (StableHlo.after (hostOps6 (F := Ideal)) V (Proc.devRef .tc main_v40) : S4096x2048.Idx → EReal)
    = Cert.Spec.tail (V (Proc.devRef .tc main_v36) : S4096x1024.Idx → EReal) (V (Proc.devRef .tc main_v4) : S4096x1024.Idx → EReal) := by
  after_results; rfl

end Cert.KernelIdeal.Fr

end
-- ==== Proof.LibBlockSums.lean ====
/-
  A sum over 8192 consecutive indices, cut into 16 blocks of 512: summing each block and then the
  blocks is the sum over all indices (the index 512 · kb + b runs over 0 … 8191 exactly once as kb
  runs over 0 … 15 and b over 0 … 511).
-/
import Mathlib.Data.EReal.Basic
import Mathlib.Algebra.BigOperators.Fin
import Mathlib.Logic.Equiv.Fin.Basic

namespace Cert.Attn

/-- A sum over m · n consecutive indices is the sum over m blocks of the sums over each block's n
    indices. -/
theorem sum_blocks_gen {M : Type*} [AddCommMonoid M] (m n : ℕ) (g : ℕ → M) :
    ∑ kb ∈ Finset.range m, ∑ b : Fin n, g (n * kb + b.val) = ∑ j : Fin (m * n), g j.val := by
  rw [← Fin.sum_univ_eq_sum_range (fun kb => ∑ b : Fin n, g (n * kb + b.val)) m,
    ← Equiv.sum_comp finProdFinEquiv, Fintype.sum_prod_type]
  refine Finset.sum_congr rfl fun a _ => Finset.sum_congr rfl fun b _ => ?_
  rw [finProdFinEquiv_apply_val, add_comm]

/-- 8192 indices in 16 blocks of 512. -/
theorem sum_blocks (g : ℕ → EReal) :
    ∑ kb ∈ Finset.range 16, ∑ b : Fin 512, g (512 * kb + b.val) = ∑ j : Fin 8192, g j.val :=
  sum_blocks_gen 16 512 g

end Cert.Attn
-- ==== Proof.SpecAlgebra.lean ====
/-
  The algebra that joins a contraction accumulated block by block to the whole contraction, in the
  extended reals: only associativity and commutativity of + are used, so nothing has to be finite.

  A contraction over 4096 indices accumulated in four blocks of 1024, starting from zero, is
  (((0 + d0) + d1) + d2) + d3 with d_b the sum over block b's 1024 indices 1024 · b + j; a contraction
  over 1024 indices is accumulated in one block, 0 + d0.
-/
import proofs.«171407_j40123584479654_2_alg».proof.Proof.LibBlockSums

namespace Cert.Spec

open scoped BigOperators

/-- Four blocks of 1024 consecutive indices, accumulated from zero in order, sum to the whole sum over
    4096 indices. The blocks' index maps are arbitrary functions with the stated values, so the lemma
    applies however a block's index is spelt. -/
theorem acc4 (f : Fin 4096 → EReal) (i0 i1 i2 i3 : Fin 1024 → Fin 4096)
    (h0 : ∀ j, (i0 j).val = j.val) (h1 : ∀ j, (i1 j).val = 1024 + j.val)
    (h2 : ∀ j, (i2 j).val = 2048 + j.val) (h3 : ∀ j, (i3 j).val = 3072 + j.val) :
    ((((0 : EReal) + ∑ j, f (i0 j)) + ∑ j, f (i1 j)) + ∑ j, f (i2 j)) + ∑ j, f (i3 j) = ∑ k, f k := by
  -- f extended by zero to all naturals, so that a block's index can be written 1024 · b + j
  let g : ℕ → EReal := fun n => if h : n < 4096 then f ⟨n, h⟩ else 0
  have hg : ∀ k : Fin 4096, g k.val = f k := fun k => dif_pos k.isLt
  have e : ∀ (i : Fin 1024 → Fin 4096) (b : ℕ), (∀ j, (i j).val = 1024 * b + j.val) →
      ∑ j, f (i j) = ∑ j : Fin 1024, g (1024 * b + j.val) := fun i b hi =>
    Finset.sum_congr rfl fun j _ => by rw [← hg, hi]
  have hb := Cert.Attn.sum_blocks_gen 4 1024 g
  rw [Finset.sum_range_succ, Finset.sum_range_succ, Finset.sum_range_succ, Finset.sum_range_succ,
    Finset.sum_range_zero] at hb
  rw [e i0 0 (fun j => by rw [h0]; omega), e i1 1 (fun j => by rw [h1]), e i2 2 (fun j => by rw [h2]),
    e i3 3 (fun j => by rw [h3])]
  exact hb.trans (Finset.sum_congr rfl fun k _ => hg k)

/-- One block: accumulating the whole contraction onto zero is the contraction. -/
theorem acc1 {ι : Type*} [Fintype ι] (f : ι → EReal) : (0 : EReal) + ∑ j, f j = ∑ j, f j := zero_add _

/-- The last layer adds the bias and then x1 to the accumulated contraction; the reference adds the
    contraction plus bias to x1. -/
theorem add_residual (a b c : EReal) : (a + b) + c = c + (a + b) := add_comm _ _

end Cert.Spec
-- ==== Proof.LayerForms.lean ====
/-
  A dense layer given entry by entry is the specification's layer.

  A product kernel leaves in its output array, at entry (p, n), the full contraction of row p of its left
  operand with column n of its right operand, plus entry (0, n) of a one-row bias array, rectified for the five
  inner layers; the last one adds x1 after the bias instead. If the operands are the previous layer, a weight
  plane and a bias row, that array is the specification's layer; for the last layer commutativity of + turns
  (contraction + bias) + x1 into the specification's x1 + (contraction + bias).
-/
import proofs.«171407_j40123584479654_2_alg».proof.Proof.HostReads
import proofs.«171407_j40123584479654_2_alg».proof.Proof.SpecAlgebra

noncomputable section

namespace Cert.Spec

open Idealize.ShloMosaic Idealize.ShloMosaic.ValueIdx
open scoped BigOperators

/-- Entry (p, n) of the first product's output: a : [4096, 1024] against w : [1024, 4096], plus the bias row,
    rectified. -/
def denseRowIn (a : T4096x1024.Idx → EReal) (w : T1024x4096.Idx → EReal) (brow : T1x4096.Idx → EReal)
    (p n : Fin 4096) : EReal :=
  relu ((∑ k : Fin 1024, a (ix2 p k) * w (ix2 k n)) + brow (ix2 (0 : Fin 1) n))

/-- Entry (p, n) of a square product's output: a, w : [4096, 4096], plus the bias row, rectified. -/
def denseRowH (a w : T4096x4096.Idx → EReal) (brow : T1x4096.Idx → EReal) (p n : Fin 4096) : EReal :=
  relu ((∑ k : Fin 4096, a (ix2 p k) * w (ix2 k n)) + brow (ix2 (0 : Fin 1) n))

/-- Entry (p, q) of the last product's output: a : [4096, 4096] against w : [4096, 1024], plus the bias row,
    plus the residual operand. -/
def denseRowOut (a : T4096x4096.Idx → EReal) (w : T4096x1024.Idx → EReal) (brow : T1x1024.Idx → EReal)
    (res : T4096x1024.Idx → EReal) (p : Fin 4096) (q : Fin 1024) : EReal :=
  ((∑ k : Fin 4096, a (ix2 p k) * w (ix2 k q)) + brow (ix2 (0 : Fin 1) q)) + res (ix2 p q)

/-- The first layer from its entries. -/
theorem hidden0_of (x2 : T4096x1024.Idx → EReal) (W_in : T1024x4096.Idx → EReal) (b_in : T4096.Idx → EReal)
    (a : T4096x1024.Idx → EReal) (w : T1024x4096.Idx → EReal) (brow : T1x4096.Idx → EReal) (out : T4096x4096.Idx → EReal)
    (ha : a = x2) (hw : w = W_in) (hb : ∀ n : Fin 4096, brow (ix2 (0 : Fin 1) n) = b_in (ix1 n))
    (ho : ∀ p n : Fin 4096, out (ix2 p n) = denseRowIn a w brow p n) :
    out = hidden0 x2 W_in b_in := by
  subst ha hw
  funext j
  obtain ⟨p, n, rfl⟩ : ∃ (p : Fin 4096) (n : Fin 4096), j = ix2 p n := ⟨j 0, j 1, eq_ix2 j⟩
  rw [ho, hidden0_apply]
  unfold denseRowIn layerIn
  rw [hb]

/-- Square layer l from its entries. -/
theorem hidden_of (l : Fin 4) (hin : T4096x4096.Idx → EReal) (W_h : T4x4096x4096.Idx → EReal) (b_h : T4x4096.Idx → EReal)
    (a w : T4096x4096.Idx → EReal) (brow : T1x4096.Idx → EReal) (out : T4096x4096.Idx → EReal)
    (ha : a = hin) (hw : ∀ k n : Fin 4096, w (ix2 k n) = W_h (ix3 l k n))
    (hb : ∀ n : Fin 4096, brow (ix2 (0 : Fin 1) n) = b_h (ix2 l n))
    (ho : ∀ p n : Fin 4096, out (ix2 p n) = denseRowH a w brow p n) :
    out = hidden l hin W_h b_h := by
  subst ha
  funext j
  obtain ⟨p, n, rfl⟩ : ∃ (p : Fin 4096) (n : Fin 4096), j = ix2 p n := ⟨j 0, j 1, eq_ix2 j⟩
  rw [ho, hidden_apply]
  unfold denseRowH layerH
  rw [hb]
  exact congrArg (fun s => relu (s + b_h (ix2 l n))) (Finset.sum_congr rfl fun k _ => by rw [hw])

/-- Plane 0 of the result from the last product's entries. -/
theorem core_of (x1 x2 : T4096x1024.Idx → EReal) (W_in : T1024x4096.Idx → EReal) (b_in : T4096.Idx → EReal)
    (W_h : T4x4096x4096.Idx → EReal) (b_h : T4x4096.Idx → EReal) (W_out : T4096x1024.Idx → EReal) (b_out : T1024.Idx → EReal)
    (a : T4096x4096.Idx → EReal) (w : T4096x1024.Idx → EReal) (brow : T1x1024.Idx → EReal) (res out : T4096x1024.Idx → EReal)
    (ha : a = mlp x2 W_in b_in W_h b_h) (hw : w = W_out) (hb : ∀ q : Fin 1024, brow (ix2 (0 : Fin 1) q) = b_out (ix1 q))
    (hr : res = x1)
    (ho : ∀ (p : Fin 4096) (q : Fin 1024), out (ix2 p q) = denseRowOut a w brow res p q) :
    out = core x1 x2 W_in b_in W_h b_h W_out b_out := by
  subst ha hw hr
  funext j
  obtain ⟨p, q, rfl⟩ : ∃ (p : Fin 4096) (q : Fin 1024), j = ix2 p q := ⟨j 0, j 1, eq_ix2 j⟩
  rw [ho, core_apply]
  unfold denseRowOut layerOut
  rw [hb, add_residual]

end Cert.Spec

end
-- ==== Proof.KI.HostChain.lean ====
/-
  The kernel program's host operations, chained through its six matrix products, compute the specification.

  The program alternates stretches of host operations with the six products; each product overwrites exactly
  one buffer and leaves every other buffer as it was. Given, for each product, its output array entry by
  entry in terms of the buffers it reads, the buffers are followed through the program: the planes x1 and x2
  and the operands written before the first product persist to where they are read; each layer's output is
  the specification's layer of the previous one; and the last stretch interleaves x1 + out with x2.
-/
import proofs.«171407_j40123584479654_2_alg».proof.Proof.KI.HostStretch
import proofs.«171407_j40123584479654_2_alg».proof.Proof.LayerForms

noncomputable section

namespace Cert.KernelIdeal.Fr

open Cert.KernelIdeal Cert.KernelIdeal.Gen Idealize.ShloMosaic Idealize.ShloMosaic.ValueIdx
open scoped BigOperators

theorem kernel_result (U0 U1 U2 U3 U4 U5 U6 U7 U8 U9 U10 U11 U12 U13 : Valuation τ sig (Elt Ideal))
    (h1 : U1 = StableHlo.after (hostOps0 (F := Ideal)) U0) (h3 : U3 = StableHlo.after (hostOps1 (F := Ideal)) U2)
    (h5 : U5 = StableHlo.after (hostOps2 (F := Ideal)) U4) (h7 : U7 = StableHlo.after (hostOps3 (F := Ideal)) U6)
    (h9 : U9 = StableHlo.after (hostOps4 (F := Ideal)) U8) (h11 : U11 = StableHlo.after (hostOps5 (F := Ideal)) U10)
    (h13 : U13 = StableHlo.after (hostOps6 (F := Ideal)) U12)
    (k0 : ∀ r : Ref sig .tc, r ≠ main_v10 → U2 (Proc.devRef .tc r) = U1 (Proc.devRef .tc r))
    (k1 : ∀ r : Ref sig .tc, r ≠ main_v16 → U4 (Proc.devRef .tc r) = U3 (Proc.devRef .tc r))
    (k2 : ∀ r : Ref sig .tc, r ≠ main_v22 → U6 (Proc.devRef .tc r) = U5 (Proc.devRef .tc r))
    (k3 : ∀ r : Ref sig .tc, r ≠ main_v28 → U8 (Proc.devRef .tc r) = U7 (Proc.devRef .tc r))
    (k4 : ∀ r : Ref sig .tc, r ≠ main_v34 → U10 (Proc.devRef .tc r) = U9 (Proc.devRef .tc r))
    (k5 : ∀ r : Ref sig .tc, r ≠ main_v36 → U12 (Proc.devRef .tc r) = U11 (Proc.devRef .tc r))
    (o0 : ∀ p n : Fin 4096, (U2 (Proc.devRef .tc main_v10) : S4096x4096.Idx → EReal) (ix2 p n)
      = Cert.Spec.denseRowIn (U1 (Proc.devRef .tc main_v5)) (U1 (Proc.devRef .tc main_v6)) (U1 (Proc.devRef .tc main_v9)) p n)
    (o1 : ∀ p n : Fin 4096, (U4 (Proc.devRef .tc main_v16) : S4096x4096.Idx → EReal) (ix2 p n)
      = Cert.Spec.denseRowH (U3 (Proc.devRef .tc main_v10)) (U3 (Proc.devRef .tc main_v12)) (U3 (Proc.devRef .tc main_v15)) p n)
    (o2 : ∀ p n : Fin 4096, (U6 (Proc.devRef .tc main_v22) : S4096x4096.Idx → EReal) (ix2 p n)
      = Cert.Spec.denseRowH (U5 (Proc.devRef .tc main_v16)) (U5 (Proc.devRef .tc main_v18)) (U5 (Proc.devRef .tc main_v21)) p n)
    (o3 : ∀ p n : Fin 4096, (U8 (Proc.devRef .tc main_v28) : S4096x4096.Idx → EReal) (ix2 p n)
      = Cert.Spec.denseRowH (U7 (Proc.devRef .tc main_v22)) (U7 (Proc.devRef .tc main_v24)) (U7 (Proc.devRef .tc main_v27)) p n)
    (o4 : ∀ p n : Fin 4096, (U10 (Proc.devRef .tc main_v34) : S4096x4096.Idx → EReal) (ix2 p n)
      = Cert.Spec.denseRowH (U9 (Proc.devRef .tc main_v28)) (U9 (Proc.devRef .tc main_v30)) (U9 (Proc.devRef .tc main_v33)) p n)
    (o5 : ∀ (p : Fin 4096) (q : Fin 1024), (U12 (Proc.devRef .tc main_v36) : S4096x1024.Idx → EReal) (ix2 p q)
      = Cert.Spec.denseRowOut (U11 (Proc.devRef .tc main_v34)) (U11 (Proc.devRef .tc main_v8)) (U11 (Proc.devRef .tc main_v35)) (U11 (Proc.devRef .tc main_v2)) p q) :
    (U13 (Proc.devRef .tc main_v40) : S4096x2048.Idx → EReal)
      = Cert.Spec.tail (Cert.Spec.core (Cert.Spec.sel0 (U0 (Proc.devRef .tc main_arg0) : S4096x2048.Idx → EReal))
          (Cert.Spec.sel1 (U0 (Proc.devRef .tc main_arg0) : S4096x2048.Idx → EReal))
          (U0 (Proc.devRef .tc main_arg2) : S1024x4096.Idx → EReal) (U0 (Proc.devRef .tc main_arg3) : S4096.Idx → EReal)
          (U0 (Proc.devRef .tc main_arg4) : S4x4096x4096.Idx → EReal) (U0 (Proc.devRef .tc main_arg5) : S4x4096.Idx → EReal)
          (U0 (Proc.devRef .tc main_arg6) : S4096x1024.Idx → EReal) (U0 (Proc.devRef .tc main_arg7) : S1024.Idx → EReal))
        (Cert.Spec.sel1 (U0 (Proc.devRef .tc main_arg0) : S4096x2048.Idx → EReal)) := by
  -- from one product's output to the next: a buffer that neither the stretch nor the product writes is unchanged
  have c0 : ∀ r : Ref sig .tc, r ∉ hostOps0_W → r ≠ main_v10 → U2 (Proc.devRef .tc r) = U0 (Proc.devRef .tc r) :=
    fun r h h' => (k0 r h').trans (by rw [h1]; exact StableHlo.after_of_writes_sub _ U0 hostOps0_writes h)
  have c1 : ∀ r : Ref sig .tc, r ∉ hostOps1_W → r ≠ main_v16 → U4 (Proc.devRef .tc r) = U2 (Proc.devRef .tc r) :=
    fun r h h' => (k1 r h').trans (by rw [h3]; exact StableHlo.after_of_writes_sub _ U2 hostOps1_writes h)
  have c2 : ∀ r : Ref sig .tc, r ∉ hostOps2_W → r ≠ main_v22 → U6 (Proc.devRef .tc r) = U4 (Proc.devRef .tc r) :=
    fun r h h' => (k2 r h').trans (by rw [h5]; exact StableHlo.after_of_writes_sub _ U4 hostOps2_writes h)
  have c3 : ∀ r : Ref sig .tc, r ∉ hostOps3_W → r ≠ main_v28 → U8 (Proc.devRef .tc r) = U6 (Proc.devRef .tc r) :=
    fun r h h' => (k3 r h').trans (by rw [h7]; exact StableHlo.after_of_writes_sub _ U6 hostOps3_writes h)
  have c4 : ∀ r : Ref sig .tc, r ∉ hostOps4_W → r ≠ main_v34 → U10 (Proc.devRef .tc r) = U8 (Proc.devRef .tc r) :=
    fun r h h' => (k4 r h').trans (by rw [h9]; exact StableHlo.after_of_writes_sub _ U8 hostOps4_writes h)
  have c5 : ∀ r : Ref sig .tc, r ∉ hostOps5_W → r ≠ main_v36 → U12 (Proc.devRef .tc r) = U10 (Proc.devRef .tc r) :=
    fun r h h' => (k5 r h').trans (by rw [h11]; exact StableHlo.after_of_writes_sub _ U10 hostOps5_writes h)
  -- the planes of x, the stacked weights and W_out as written before the first product, where they are read
  have v2_2 : (U2 (Proc.devRef .tc main_v2) : S4096x1024.Idx → EReal) = Cert.Spec.sel0 (U0 (Proc.devRef .tc main_arg0) : S4096x2048.Idx → EReal) :=
    (k0 main_v2 (by decide)).trans (by rw [h1]; exact s0_v2 U0)
  have v4_2 : (U2 (Proc.devRef .tc main_v4) : S4096x1024.Idx → EReal) = Cert.Spec.sel1 (U0 (Proc.devRef .tc main_arg0) : S4096x2048.Idx → EReal) :=
    (k0 main_v4 (by decide)).trans (by rw [h1]; exact s0_v4 U0)
  have v7_2 : (U2 (Proc.devRef .tc main_v7) : S4x4096x4096.Idx → EReal) = (U0 (Proc.devRef .tc main_arg4) : S4x4096x4096.Idx → EReal) :=
    (k0 main_v7 (by decide)).trans (by rw [h1]; exact s0_v7 U0)
  have v8_2 : (U2 (Proc.devRef .tc main_v8) : S4096x1024.Idx → EReal) = (U0 (Proc.devRef .tc main_arg6) : S4096x1024.Idx → EReal) :=
    (k0 main_v8 (by decide)).trans (by rw [h1]; exact s0_v8 U0)
  have v7_4 := (c1 main_v7 (by decide) (by decide)).trans v7_2
  have v7_6 := (c2 main_v7 (by decide) (by decide)).trans v7_4
  have v7_8 := (c3 main_v7 (by decide) (by decide)).trans v7_6
  have a5_2 := c0 main_arg5 (by decide) (by decide)
  have a5_4 := (c1 main_arg5 (by decide) (by decide)).trans a5_2
  have a5_6 := (c2 main_arg5 (by decide) (by decide)).trans a5_4
  have a5_8 := (c3 main_arg5 (by decide) (by decide)).trans a5_6
  have v8_10 := (c4 main_v8 (by decide) (by decide)).trans ((c3 main_v8 (by decide) (by decide)).trans
    ((c2 main_v8 (by decide) (by decide)).trans ((c1 main_v8 (by decide) (by decide)).trans v8_2)))
  have v2_10 := (c4 main_v2 (by decide) (by decide)).trans ((c3 main_v2 (by decide) (by decide)).trans
    ((c2 main_v2 (by decide) (by decide)).trans ((c1 main_v2 (by decide) (by decide)).trans v2_2)))
  have v4_12 := (c5 main_v4 (by decide) (by decide)).trans ((c4 main_v4 (by decide) (by decide)).trans
    ((c3 main_v4 (by decide) (by decide)).trans ((c2 main_v4 (by decide) (by decide)).trans
    ((c1 main_v4 (by decide) (by decide)).trans v4_2))))
  have a7_10 := (c4 main_arg7 (by decide) (by decide)).trans ((c3 main_arg7 (by decide) (by decide)).trans
    ((c2 main_arg7 (by decide) (by decide)).trans ((c1 main_arg7 (by decide) (by decide)).trans
    (c0 main_arg7 (by decide) (by decide)))))
  -- the layers, one after the other
  have L0 := Cert.Spec.hidden0_of _ _ _ _ _ _ _
    (show (U1 (Proc.devRef .tc main_v5) : S4096x1024.Idx → EReal) = Cert.Spec.sel1 (U0 (Proc.devRef .tc main_arg0) : S4096x2048.Idx → EReal) by rw [h1]; exact s0_v5 U0)
    (show (U1 (Proc.devRef .tc main_v6) : S1024x4096.Idx → EReal) = (U0 (Proc.devRef .tc main_arg2) : S1024x4096.Idx → EReal) by rw [h1]; exact s0_v6 U0)
    (fun n => show (U1 (Proc.devRef .tc main_v9) : S1x4096.Idx → EReal) (ix2 (0 : Fin 1) n) = _ by rw [h1]; exact s0_v9 U0 n)
    o0
  have L1 := Cert.Spec.hidden_of 0 _ _ _ _ _ _ _
    (show (U3 (Proc.devRef .tc main_v10) : S4096x4096.Idx → EReal) = U2 (Proc.devRef .tc main_v10) by
      rw [h3]; exact StableHlo.after_of_writes_sub _ U2 hostOps1_writes (by decide))
    (fun k n => show (U3 (Proc.devRef .tc main_v12) : S4096x4096.Idx → EReal) (ix2 k n) = _ by
      rw [h3]; exact (s1_v12 U2 k n).trans (congrFun v7_2 _))
    (fun n => show (U3 (Proc.devRef .tc main_v15) : S1x4096.Idx → EReal) (ix2 (0 : Fin 1) n) = _ by
      rw [h3]; exact (s1_v15 U2 n).trans (congrFun a5_2 _))
    o1
  have L2 := Cert.Spec.hidden_of 1 _ _ _ _ _ _ _
    (show (U5 (Proc.devRef .tc main_v16) : S4096x4096.Idx → EReal) = U4 (Proc.devRef .tc main_v16) by
      rw [h5]; exact StableHlo.after_of_writes_sub _ U4 hostOps2_writes (by decide))
    (fun k n => show (U5 (Proc.devRef .tc main_v18) : S4096x4096.Idx → EReal) (ix2 k n) = _ by
      rw [h5]; exact (s2_v18 U4 k n).trans (congrFun v7_4 _))
    (fun n => show (U5 (Proc.devRef .tc main_v21) : S1x4096.Idx → EReal) (ix2 (0 : Fin 1) n) = _ by
      rw [h5]; exact (s2_v21 U4 n).trans (congrFun a5_4 _))
    o2
  have L3 := Cert.Spec.hidden_of 2 _ _ _ _ _ _ _
    (show (U7 (Proc.devRef .tc main_v22) : S4096x4096.Idx → EReal) = U6 (Proc.devRef .tc main_v22) by
      rw [h7]; exact StableHlo.after_of_writes_sub _ U6 hostOps3_writes (by decide))
    (fun k n => show (U7 (Proc.devRef .tc main_v24) : S4096x4096.Idx → EReal) (ix2 k n) = _ by
      rw [h7]; exact (s3_v24 U6 k n).trans (congrFun v7_6 _))
    (fun n => show (U7 (Proc.devRef .tc main_v27) : S1x4096.Idx → EReal) (ix2 (0 : Fin 1) n) = _ by
      rw [h7]; exact (s3_v27 U6 n).trans (congrFun a5_6 _))
    o3
  have L4 := Cert.Spec.hidden_of 3 _ _ _ _ _ _ _
    (show (U9 (Proc.devRef .tc main_v28) : S4096x4096.Idx → EReal) = U8 (Proc.devRef .tc main_v28) by
      rw [h9]; exact StableHlo.after_of_writes_sub _ U8 hostOps4_writes (by decide))
    (fun k n => show (U9 (Proc.devRef .tc main_v30) : S4096x4096.Idx → EReal) (ix2 k n) = _ by
      rw [h9]; exact (s4_v30 U8 k n).trans (congrFun v7_8 _))
    (fun n => show (U9 (Proc.devRef .tc main_v33) : S1x4096.Idx → EReal) (ix2 (0 : Fin 1) n) = _ by
      rw [h9]; exact (s4_v33 U8 n).trans (congrFun a5_8 _))
    o4
  have Lm : (U10 (Proc.devRef .tc main_v34) : S4096x4096.Idx → EReal)
      = Cert.Spec.mlp (Cert.Spec.sel1 (U0 (Proc.devRef .tc main_arg0) : S4096x2048.Idx → EReal))
          (U0 (Proc.devRef .tc main_arg2) : S1024x4096.Idx → EReal) (U0 (Proc.devRef .tc main_arg3) : S4096.Idx → EReal)
          (U0 (Proc.devRef .tc main_arg4) : S4x4096x4096.Idx → EReal) (U0 (Proc.devRef .tc main_arg5) : S4x4096.Idx → EReal) := by
    rw [L4, L3, L2, L1, L0]; rfl
  have L5 := Cert.Spec.core_of _ _ _ _ _ _ _ _ _ _ _ _ _
    (show (U11 (Proc.devRef .tc main_v34) : S4096x4096.Idx → EReal) = Cert.Spec.mlp (Cert.Spec.sel1 (U0 (Proc.devRef .tc main_arg0) : S4096x2048.Idx → EReal))
        (U0 (Proc.devRef .tc main_arg2) : S1024x4096.Idx → EReal) (U0 (Proc.devRef .tc main_arg3) : S4096.Idx → EReal)
        (U0 (Proc.devRef .tc main_arg4) : S4x4096x4096.Idx → EReal) (U0 (Proc.devRef .tc main_arg5) : S4x4096.Idx → EReal) by
      rw [h11]; exact (StableHlo.after_of_writes_sub _ U10 hostOps5_writes (by decide)).trans Lm)
    (show (U11 (Proc.devRef .tc main_v8) : S4096x1024.Idx → EReal) = (U0 (Proc.devRef .tc main_arg6) : S4096x1024.Idx → EReal) by
      rw [h11]; exact (StableHlo.after_of_writes_sub _ U10 hostOps5_writes (by decide)).trans v8_10)
    (fun q => show (U11 (Proc.devRef .tc main_v35) : S1x1024.Idx → EReal) (ix2 (0 : Fin 1) q) = _ by
      rw [h11]; exact (s5_v35 U10 q).trans (congrFun a7_10 _))
    (show (U11 (Proc.devRef .tc main_v2) : S4096x1024.Idx → EReal) = Cert.Spec.sel0 (U0 (Proc.devRef .tc main_arg0) : S4096x2048.Idx → EReal) by
      rw [h11]; exact (StableHlo.after_of_writes_sub _ U10 hostOps5_writes (by decide)).trans v2_10)
    o5
  rw [h13, s6_v40 U12, L5, v4_12]

end Cert.KernelIdeal.Fr

end
-- ==== Proof.KI.ValueLib.lean ====
/-
  Small facts every region's value proof uses: the zero offset of a rank-2 block as a constant function, and a
  contraction over 4096 indices accumulated from zero in four blocks of 1024: the value after block k, by recursion on
  k, and the whole contraction after block 3.
-/
import Idealize.ShloMosaic.Lib.ValueIdx
import proofs.«171407_j40123584479654_2_alg».proof.Proof.Spec
import proofs.«171407_j40123584479654_2_alg».proof.Proof.SpecAlgebra

namespace Cert.KernelIdeal.Fr

open Idealize.ShloMosaic
open scoped BigOperators

/-- The summand of entry (p, n)'s contraction: a(p, k) · w(k, n), for square operands. -/
noncomputable def dotAt (a w : Cert.Spec.T4096x4096.Idx → EReal) (p n : Fin 4096) : Fin 4096 → EReal :=
  fun k => a (ValueIdx.ix2 p k) * w (ValueIdx.ix2 k n)

theorem dotAt_apply (a w : Cert.Spec.T4096x4096.Idx → EReal) (p n k : Fin 4096) :
    dotAt a w p n k = a (ValueIdx.ix2 p k) * w (ValueIdx.ix2 k n) := rfl

/-- The zero offset of a rank-2 block, as the constant function. -/
theorem hz2 : (![0, 0] : Fin 2 → Nat) = fun _ => 0 := funext fun a => by fin_cases a <;> rfl

/-- Index m of the contraction's block k: 1024 k + m. -/
def kidx (k : ℕ) (hk : k < 4) (m : Fin 1024) : Fin 4096 := ⟨1024 * k + m.val, by have := m.isLt; omega⟩

theorem kidx_val (k : ℕ) (hk : k < 4) (m : Fin 1024) : (kidx k hk m).val = 1024 * k + m.val := rfl

/-- The contraction of f accumulated from zero through blocks 0 … k, in order. -/
noncomputable def accUpTo (f : Fin 4096 → EReal) : (k : ℕ) → k < 4 → EReal
  | 0, h => 0 + ∑ m : Fin 1024, f (kidx 0 h m)
  | k + 1, h => accUpTo f k (Nat.lt_of_succ_lt h) + ∑ m : Fin 1024, f (kidx (k + 1) h m)

theorem accUpTo_zero (f : Fin 4096 → EReal) (h : 0 < 4) : accUpTo f 0 h = 0 + ∑ m : Fin 1024, f (kidx 0 h m) := rfl

theorem accUpTo_succ (f : Fin 4096 → EReal) (k : ℕ) (h : k + 1 < 4) :
    accUpTo f (k + 1) h = accUpTo f k (Nat.lt_of_succ_lt h) + ∑ m : Fin 1024, f (kidx (k + 1) h m) := rfl

/-- After the last block the accumulated value is the whole contraction. -/
theorem accUpTo_three (f : Fin 4096 → EReal) (h : 3 < 4) : accUpTo f 3 h = ∑ k : Fin 4096, f k := by
  rw [accUpTo_succ, accUpTo_succ, accUpTo_succ, accUpTo_zero]
  exact Cert.Spec.acc4 f _ _ _ _ (fun j => by rw [kidx_val]; omega) (fun j => by rw [kidx_val]) (fun j => by rw [kidx_val])
    (fun j => by rw [kidx_val])

end Cert.KernelIdeal.Fr
-- ==== Proof.KI.R0ValuePieces.lean ====
/-
  Region 0: what the body leaves in the accumulator and in the output block, as its arithmetic applied to the blocks
  it loaded. The accumulator is zeroed and the block product added to it; the output block is the rectified sum of that
  and the bias row. Every store covers its whole buffer at offset zero, so a buffer reads back as the last payload
  stored into it.
-/
import proofs.«171407_j40123584479654_2_alg».proof.Proof.KI.R0Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-- A load through the whole-shape rectangle at zero offsets, after stores the LAST of which went through that same
    rectangle, reads that last store's payload. -/
theorem readCov_cons_unit_zero {Val : EltTy → Type} [∀ e, Nonempty (Val e)] {S : Shape} {e : EltTy} {sg : RefSig} {κ : Kind} {sp : Space}
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- The accumulator is zeroed and the block product added to it. -/
theorem sout0_A_0_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 k0_pay1 x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  try sl_unfold_words
  rw [View.canon_cons_unit_zero hz2, View.readCov_unit_zero (S := S2048x1024) _ hz2]
  simp only [View.readAt_eq_ld, harg3.read_unread, harg4.read_unread, View.ld_unit_zero (S := S2048x1024) hz2, View.ld_unit_zero (S := S1024x1024) hz2]

/-- The output block: that accumulator plus the bias row, rectified. -/
theorem out0_A_3_eq (c : Dev nD) (i : grid0.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : cond0_1 i)
    (x0 : Vec F S2048x1024 .bf16) (x1 : Vec F S1024x1024 .bf16) (x2 : Vec F S1x1024 .f32) :
    out0_A_3 c i arg3 harg3 arg4 harg4 arg5 harg5 arg6 harg6 arg7 harg7 hc0 hc1 x0 x1 x2 = k0_pay3 (k0_pay2 k0_pay1 x0 x1) x2 := by
  unfold out0_A_3
  rw [View.read_writes_eq_canon _ _ _ (cover0_A_3 c i arg3 harg3 arg4 harg4 arg5 harg5 arg6 harg6 arg7 harg7 hc0 hc1 x0 x1 x2)]
  unfold kernelRun0_A
  dsimp only
  try sl_unfold_words
  rw [View.canon_unit_zero hz2, readCov_cons_unit_zero (S := S2048x1024) _ hz2, View.readCov_unit_zero (S := S2048x1024) _ hz2]
  simp only [View.readAt_eq_ld, harg3.read_unread, harg4.read_unread, harg5.read_unread, View.ld_unit_zero (S := S2048x1024) hz2, View.ld_unit_zero (S := S1024x1024) hz2, View.ld_unit_zero (S := S1x1024) hz2]

end Cert.KernelIdeal.Fr

end
-- ==== Proof.KI.R0ValueStep.lean ====
/-
  Region 0: the output block and the accumulator after each grid point, as the body's arithmetic applied to the
  point's input blocks: the accumulator is the block product added to the zero block, and the output block is the
  rectified sum of that accumulator and the bias row.
-/
import proofs.«171407_j40123584479654_2_alg».proof.Proof.KI.R0ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- After any point the accumulator holds the point's block product added to the zero block. -/
theorem accAt0 (c : Dev nD) (t : Fin cfg0.N) :
    (outsAt0 V c t.val t.isLt).2 = k0_pay2 k0_pay1 (iblk0 V c 0 t) (iblk0 V c 1 t) := by
  rw [outsAt0_A V c t]
  dsimp only
  exact sout0_A_0_eq c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)

/-- After any point the output block holds the rectified sum of that accumulator and the bias row. -/
theorem blockVal0 (c : Dev nD) (t : Fin cfg0.N) :
    (outsAt0 V c t.val t.isLt).1 = k0_pay3 (k0_pay2 k0_pay1 (iblk0 V c 0 t) (iblk0 V c 1 t)) (iblk0 V c 2 t) := by
  rw [outsAt0_A V c t]
  dsimp only
  exact out0_A_3_eq c (grid0.coords t) (ms0_0 t) (hs0_0 t) (ms0_1 t) (hs0_1 t) (ms0_2 t) (hs0_2 t) (ms0_3 t) (hs0_3 t) scM0_0 (Memref.isWhole_whole _) (hcond0_0 t) (hcond0_1 t) (iblk0 V c 0 t) (iblk0 V c 1 t) (iblk0 V c 2 t)

end Cert.KernelIdeal.Fr

end
-- ==== Proof.KI.R0ValuePay.lean ====
/-
  Region 0's arithmetic read at one entry of a block, over the extended reals. At entry (r, q) of a [2048, 1024] block:
  the zero block is 0; the accumulation step is the accumulator's entry plus the sum over the 1024 contraction
  indices m of a(r, m) · w(m, q); the final step is max (acc(r, q) + bias(0, q)) 0. The change of float format is
  the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay0_zero_apply (r : Fin 2048) (q : Fin 1024) : (k0_pay1 (F := Ideal)) (ix2 r q) = 0 := by
  unfold k0_pay1
  rw [shapeCast_self]
  exact Ideal.ofBits_zero_f32

theorem pay0_lhs_0 (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem pay0_lhs_1 (i : S2048x1024.Idx) (k : dot_S2048x1024_S1024x1024_S2048x1024_1_0_0_1_n_n.contr.Idx) : (dot_S2048x1024_S1024x1024_S2048x1024_1_0_0_1_n_n.lhsIdx i k 1).val = (k ⟨0, by decide⟩).val :=
  dot_S2048x1024_S1024x1024_S2048x1024_1_0_0_1_n_n.lhsIdx_val_of_single rfl i k
theorem pay0_rhs_0 (i : S2048x1024.Idx) (k : dot_S2048x1024_S1024x1024_S2048x1024_1_0_0_1_n_n.contr.Idx) : (dot_S2048x1024_S1024x1024_S2048x1024_1_0_0_1_n_n.rhsIdx i k 0).val = (k ⟨0, by decide⟩).val :=
  dot_S2048x1024_S1024x1024_S2048x1024_1_0_0_1_n_n.rhsIdx_val_of_single rfl i k
theorem pay0_rhs_1 (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product at (r, q): the sum over the block's 1024 contraction indices. -/
theorem pay0_matmul_apply (a : FVec Ideal S2048x1024 .bf16) (w : FVec Ideal S1024x1024 .bf16) (r : Fin 2048) (q : Fin 1024) :
    matmul dot_S2048x1024_S1024x1024_S2048x1024_1_0_0_1_n_n none a w (constant S2048x1024 .f32 0x00000000#32) (ix2 r q) = ∑ m : Fin 1024, a (ix2 r m) * w (ix2 m q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r q) ((contrEquiv1 dot_S2048x1024_S1024x1024_S2048x1024_1_0_0_1_n_n 1024 rfl rfl).symm k) = ix2 r k := funext fun b => Fin.ext (by
    match b with
    | ⟨0, _⟩ => exact pay0_lhs_0 _ _
    | ⟨1, _⟩ => exact (pay0_lhs_1 _ _).trans hk)
  have er : dot_S2048x1024_S1024x1024_S2048x1024_1_0_0_1_n_n.rhsIdx (ix2 r q) ((contrEquiv1 dot_S2048x1024_S1024x1024_S2048x1024_1_0_0_1_n_n 1024 rfl rfl).symm k) = ix2 k q := funext fun b => Fin.ext (by
    match b with
    | ⟨0, _⟩ => exact (pay0_rhs_0 _ _).trans hk
    | ⟨1, _⟩ => exact pay0_rhs_1 _ _)
  rw [el, er]

/-- The accumulation step at (r, q): the accumulator's entry plus the block product's. -/
theorem pay0_acc_apply (v3 : Vec Ideal S2048x1024 .f32) (v4 : Vec Ideal S2048x1024 .bf16) (v6 : Vec Ideal S1024x1024 .bf16)
    (r : Fin 2048) (q : Fin 1024) :
    k0_pay2 (F := Ideal) v3 v4 v6 (ix2 r q) = v3 (ix2 r q) + ∑ m : Fin 1024, v4 (ix2 r m) * v6 (ix2 m q) := by
  unfold k0_pay2
  simp only [shapeCast_self]
  exact congrArg (v3 (ix2 r q) + ·) (pay0_matmul_apply v4 v6 r q)

/-- The final step at (r, q): the accumulator's entry plus the bias row's entry q, rectified. -/
theorem pay0_out_apply (v16 : Vec Ideal S2048x1024 .f32) (v17 : Vec Ideal S1x1024 .f32) (r : Fin 2048) (q : Fin 1024) :
    k0_pay3 (F := Ideal) v16 v17 (ix2 r q) = Cert.Spec.relu (v16 (ix2 r q) + v17 (ix2 0 q)) := by
  unfold k0_pay3
  simp only [shapeCast_self]
  show max (v16 (ix2 r q) + broadcastTo S2048x1024 v17 broadcasts_S1x1024_S2048x1024 (ix2 r q)) (Ideal.ofBits .f32 0x00000000#32) = _
  rw [broadcastTo_apply v17 broadcasts_S1x1024_S2048x1024 (ix2 r q) (ix2 0 q) (fun b => by
    match b with
    | ⟨0, _⟩ => rfl
    | ⟨1, _⟩ => rfl), Ideal.ofBits_zero_f32]
  rfl

end Cert.KernelIdeal.Fr

end
-- ==== Proof.KI.R0ValueBlk.lean ====
/-
  Region 0: where each window's block sits in its array, and a block's entry as the array's entry. At point t = (i, j, 0)
  (i = t / 4, j = t mod 4) the activations' block is rows 2048 i … of its array (all 1024 columns), the weights' block
  columns 1024 j … (all 1024 rows), the bias block columns 1024 j … of the one bias row, and the output's block rows
  2048 i … and columns 1024 j …. An entry of a block sits in the array, on each axis, at the block's index times the
  block's extent plus the entry's own coordinate.
-/
import proofs.«171407_j40123584479654_2_alg».proof.Proof.KI.R0Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 8 points. -/
theorem win0_idx : ∀ t : Fin cfg0.N,
    win0_0.index t (0 : Fin 2) = t.val / 4 ∧ win0_0.index t (1 : Fin 2) = 0
    ∧ win0_1.index t (0 : Fin 2) = 0 ∧ win0_1.index t (1 : Fin 2) = t.val % 4
    ∧ win0_2.index t (0 : Fin 2) = 0 ∧ win0_2.index t (1 : Fin 2) = t.val % 4
    ∧ win0_3.index t (0 : Fin 2) = t.val / 4 ∧ win0_3.index t (1 : Fin 2) = t.val % 4 :=
  (by decide +kernel : ∀ t : Fin grid0.N, _)

/-- Entry (r, m) of the activations' block at t is the array's entry (2048 i + r, m). -/
theorem iblk0_0_apply (c : Dev nD) (t : Fin cfg0.N) (r : Fin 2048) (m : Fin 1024) (p : Fin 4096)
    (hp : p.val = 2048 * (t.val / 4) + r.val) :
    (iblk0 V c 0 t : Vec F S2048x1024 .bf16) (ix2 r m)
      = (V c (Pipeline.arrRef spec0 0) : S4096x1024.Idx → Elt F .bf16) (ix2 p m) := by
  obtain ⟨e0, e1, -⟩ := win0_idx t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 2048 + 1 * r.val = p.val; rw [e0, hp]; omega
  | ⟨1, _⟩ => show win0_0.index t (1 : Fin 2) * 1024 + 1 * m.val = m.val; rw [e1]; omega

/-- Entry (m, q) of the weights' block at t is the array's entry (m, 1024 j + q). -/
theorem iblk0_1_apply (c : Dev nD) (t : Fin cfg0.N) (m : Fin 1024) (q : Fin 1024) (n : Fin 4096)
    (hn : n.val = 1024 * (t.val % 4) + q.val) :
    (iblk0 V c 1 t : Vec F S1024x1024 .bf16) (ix2 m q)
      = (V c (Pipeline.arrRef spec0 1) : S1024x4096.Idx → Elt F .bf16) (ix2 m n) := by
  obtain ⟨-, -, e0, e1, -⟩ := win0_idx t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 1024 + 1 * m.val = m.val; rw [e0]; omega
  | ⟨1, _⟩ => show win0_1.index t (1 : Fin 2) * 1024 + 1 * q.val = n.val; rw [e1, hn]; omega

/-- Entry (0, q) of the bias block at t is the bias row's entry 1024 j + q. -/
theorem iblk0_2_apply (c : Dev nD) (t : Fin cfg0.N) (q : Fin 1024) (n : Fin 4096)
    (hn : n.val = 1024 * (t.val % 4) + q.val) :
    (iblk0 V c 2 t : Vec F S1x1024 .f32) (ix2 0 q)
      = (V c (Pipeline.arrRef spec0 2) : S1x4096.Idx → Elt F .f32) (ix2 0 n) := by
  obtain ⟨-, -, -, -, e0, e1, -⟩ := win0_idx t
  unfold iblk0
  rw [View.read_apply]
  show V c (Pipeline.arrRef spec0 2) _ = V c (Pipeline.arrRef spec0 2) _
  refine congrArg (V c (Pipeline.arrRef spec0 2)) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = n.val; rw [e1, hn]; omega

/-- Entry (r, q) of the output's block at t sits at (2048 i + r, 1024 j + q) of the output array. -/
theorem win0_3_emb (t : Fin cfg0.N) (r : Fin 2048) (q : Fin 1024) (p n : Fin 4096)
    (hp : p.val = 2048 * (t.val / 4) + r.val) (hn : n.val = 1024 * (t.val % 4) + q.val) :
    (((cfg0.win 3).blk t).view.emb (ix2 r q) : S4096x4096.Idx) = ix2 p n := by
  obtain ⟨-, -, -, -, -, -, e0, e1⟩ := win0_idx t
  refine funext fun a => Fin.ext ?_
  match a with
  | ⟨0, _⟩ => show win0_3.index t (0 : Fin 2) * 2048 + 1 * r.val = p.val; rw [e0, hp]; omega
  | ⟨1, _⟩ => show win0_3.index t (1 : Fin 2) * 1024 + 1 * q.val = n.val; rw [e1, hn]; omega

end Cert.KernelIdeal.Fr

end
-- ==== Proof.KI.R0ValueEntry.lean ====
/-
  Region 0 over the extended reals: entry (r, q) of the output block after point t = (i, j, 0) is entry
  (2048 i + r, 1024 j + q) of the first layer's product: the whole contraction over the 1024 indices (the one K block,
  accumulated onto zero) of the activations' row against the weights' column, plus the bias row's entry, rectified.
-/
import proofs.«171407_j40123584479654_2_alg».proof.Proof.KI.R0ValueStep
import proofs.«171407_j40123584479654_2_alg».proof.Proof.KI.R0ValuePay
import proofs.«171407_j40123584479654_2_alg».proof.Proof.KI.R0ValueBlk
import proofs.«171407_j40123584479654_2_alg».proof.Proof.LayerForms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt Ideal) ((c : Thread nD τ).loc b))

theorem blockVal0_apply (c : Dev nD) (t : Fin cfg0.N) (r : Fin 2048) (q : Fin 1024) (p n : Fin 4096)
    (hp : p.val = 2048 * (t.val / 4) + r.val) (hn : n.val = 1024 * (t.val % 4) + q.val) :
    ((outsAt0 V c t.val t.isLt).1 : Vec Ideal S2048x1024 .bf16) (ix2 r q)
      = Cert.Spec.denseRowIn (V c (Pipeline.arrRef spec0 0)) (V c (Pipeline.arrRef spec0 1)) (V c (Pipeline.arrRef spec0 2)) p n := by
  rw [blockVal0 V c t]
  refine (pay0_out_apply _ _ r q).trans ?_
  unfold Cert.Spec.denseRowIn
  refine congrArg Cert.Spec.relu ?_
  refine congrArg₂ (· + ·) ?_ (iblk0_2_apply V c t q n hn)
  refine (pay0_acc_apply _ _ _ r q).trans ?_
  rw [pay0_zero_apply, Cert.Spec.acc1]
  exact Finset.sum_congr rfl fun k _ => congrArg₂ (· * ·) (iblk0_0_apply V c t r k p hp) (iblk0_1_apply V c t k q n hn)

end Cert.KernelIdeal.Fr

end
-- ==== Proof.KI.R0Value.lean ====
/-
  Region 0 over the extended reals: the output array after the region. Every point writes its output block back, block
  (i, j) at point t = 4 i + j; each block is the corresponding block of ONE array, the first layer's product given entry by
  entry; the eight [2048, 1024] blocks tile the [4096, 4096] array; so the array ends holding that product.
-/
import proofs.«171407_j40123584479654_2_alg».proof.Proof.KI.R0ValueEntry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt Ideal) ((c : Thread nD τ).loc b))

/-- The first layer's product, entry by entry, of the three operand arrays as the region finds them. -/
def G0 (c : Dev nD) : S4096x4096.Idx → EReal :=
  fun j => Cert.Spec.denseRowIn (V c (Pipeline.arrRef spec0 0)) (V c (Pipeline.arrRef spec0 1)) (V c (Pipeline.arrRef spec0 2)) (j 0) (j 1)

theorem G0_apply (c : Dev nD) (p n : Fin 4096) :
    G0 V c (ix2 p n) = Cert.Spec.denseRowIn (V c (Pipeline.arrRef spec0 0)) (V c (Pipeline.arrRef spec0 1)) (V c (Pipeline.arrRef spec0 2)) p n := rfl

/-- What point t writes back is block t of that array. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  funext y
  have hr : (y 0).val < 2048 := (y 0).isLt
  have hq : (y 1).val < 1024 := (y 1).isLt
  have ht : t.val < 8 := lt_of_lt_of_eq t.isLt N_0
  obtain ⟨r, q, rfl⟩ : ∃ (r : Fin 2048) (q : Fin 1024), y = ix2 r q := ⟨y 0, y 1, eq_ix2 y⟩
  rw [View.read_apply]
  rw [win0_3_emb t r q ⟨2048 * (t.val / 4) + r.val, by omega⟩ ⟨1024 * (t.val % 4) + q.val, by omega⟩ rfl rfl, G0_apply]
  exact blockVal0_apply V c t r q _ _ rfl rfl

/-- An index of the array is in point t's block iff each coordinate is in the block's range on its axis. -/
theorem mem_blk0_3 (t : Fin cfg0.N) (i : S4096x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v10).slice (win0_3.rect t)).set ↔ _
  rw [View.set_slice_whole, Rect.mem_set_unit]
  exact Iff.rfl

/-- Every index of the array is in the block of the point t = 4 (row / 2048) + column / 1024, which writes back. -/
theorem cover0_3 (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have hN : cfg0.N = 8 := N_0
  have hlt : 4 * ((i 0).val / 2048) + (i 1).val / 1024 < cfg0.N := by rw [hN]; omega
  obtain ⟨-, -, -, -, -, -, e0, e1⟩ := win0_idx ⟨4 * ((i 0).val / 2048) + (i 1).val / 1024, hlt⟩
  refine ⟨⟨4 * ((i 0).val / 2048) + (i 1).val / 1024, hlt⟩, flush0_3 _, ?_⟩
  rw [mem_blk0_3]
  intro a
  match a with
  | ⟨0, _⟩ =>
    show win0_3.index _ (0 : Fin 2) * 2048 ≤ (i 0).val ∧ (i 0).val < win0_3.index _ (0 : Fin 2) * 2048 + 2048
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- The output array after the region is the first layer's product. -/
theorem final0_arr (c : Dev nD) : (dat0 V c).arrAt 3 cfg0.N = G0 V c :=
  (dat0 V c).arrAt_eq_of_cover 3 (G0 V c) (fun t _ => flushed0_eq V c t) cover0_3

/-- Entry (p, n) of the output array after the region. -/
theorem final0 (c : Dev nD) : ∀ p n : Fin 4096,
    ((dat0 (F := Ideal) V c).arrAt 3 cfg0.N : S4096x4096.Idx → EReal) (ix2 p n)
      = Cert.Spec.denseRowIn (V c (Pipeline.arrRef spec0 0)) (V c (Pipeline.arrRef spec0 1)) (V c (Pipeline.arrRef spec0 2)) p n := fun p n => by
  rw [final0_arr V c]; rfl

end Cert.KernelIdeal.Fr

end
-- ==== Proof.KI.R1ValuePieces.lean ====
/-
  Region 1: what each control case leaves in the accumulator and in the output block, as the body's arithmetic applied
  to the blocks it loaded. A first K block leaves the block product added to the zero block; a middle or last K block
  leaves it added to what the accumulator held; the last K block stores the rectified sum of that and the bias row.
  Every store covers its whole buffer at offset zero, so a buffer reads back as the last payload stored into it.
-/
import proofs.«171407_j40123584479654_2_alg».proof.Proof.KI.R1Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- First K block: the accumulator is zeroed and the block product added to it. -/
theorem sout1_A_0_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond1_0 i) (hc1 : ¬cond1_1 i)
    (x0 : Vec F S2048x1024 .bf16) (x1 : Vec F S1024x1024 .bf16) (x2 : Vec F S1x1024 .f32) :
    sout1_A_0 c i arg3 harg3 arg4 harg4 arg5 harg5 arg6 harg6 arg7 harg7 hc0 hc1 x0 x1 x2 = k1_pay2 k1_pay1 x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  try sl_unfold_words
  rw [View.canon_cons_unit_zero hz2, View.readCov_unit_zero (S := S2048x1024) _ hz2]
  simp only [View.readAt_eq_ld, harg3.read_unread, harg4.read_unread, View.ld_unit_zero (S := S2048x1024) hz2, View.ld_unit_zero (S := S1024x1024) hz2]

/-- Middle K block: the block product is added to what the accumulator held. -/
theorem sout1_B_0_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : ¬cond1_1 i)
    (x0 : Vec F S2048x1024 .bf16) (x1 : Vec F S1024x1024 .bf16) (x2 : Vec F S1x1024 .f32) (xs0 : Vec F S2048x1024 .f32) :
    sout1_B_0 c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the accumulator: as at a middle block. -/
theorem sout1_C_0_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    sout1_C_0 c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the output block: the finished accumulator plus the bias row, rectified. -/
theorem out1_C_3_eq (c : Dev nD) (i : grid1.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond1_0 i) (hc1 : cond1_1 i)
    (x0 : Vec F S2048x1024 .bf16) (x1 : Vec F S1024x1024 .bf16) (x2 : Vec F S1x1024 .f32) (xs0 : Vec F S2048x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  try sl_unfold_words
  rw [View.canon_unit_zero hz2, View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]

end Cert.KernelIdeal.Fr

end
-- ==== Proof.KI.R1ValueStep.lean ====
/-
  Region 1: the accumulator and the output block after each grid point, as the body's arithmetic applied to the
  point's input blocks and to what the accumulator held after the point before. At a first K block the accumulator
  is the block product added to the zero block; at every other point it is the block product added to the
  accumulator of the point before; at a last K block the output block is the rectified sum of the accumulator just
  computed and the bias row.
-/
import proofs.«171407_j40123584479654_2_alg».proof.Proof.KI.R1ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]
variable (V : (c : Dev nD) → (b : Ref sig .tc) → Buf (Elt F) ((c : Thread nD τ).loc b))

/-- After a first K block the accumulator holds the block product added to the zero block. -/
theorem accAt1_first (c : Dev nD) (t : Fin cfg1.N) (h0 : t.val % 4 = 0) :
    (outsAt1 V c t.val t.isLt).2 = k1_pay2 (F := F) (k1_pay1 (F := F)) (iblk1 V c 0 t) (iblk1 V c 1 t) := by
  have h1 : ¬t.val % 4 = 3 := by omega
  have e := congrArg Prod.snd (outsAt1_A V c t h0 h1)
  dsimp only at e
  exact e.trans (sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t))

/-- After any other point it holds the block product added to what the point before left. -/
theorem accAt1_next (c : Dev nD) (t : Fin cfg1.N) (h0 : ¬t.val % 4 = 0) :
    (outsAt1 V c t.val t.isLt).2
      = k1_pay2 (F := F) (outsAt1 V c (t.val - 1) (Nat.lt_of_le_of_lt (Nat.sub_le _ _) t.isLt)).2 (iblk1 V c 0 t) (iblk1 V c 1 t) := by
  by_cases h1 : t.val % 4 = 3
  · have e := congrArg Prod.snd (outsAt1_C V c t h0 h1)
    dsimp only at e
    exact e.trans (sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2)
  · have e := congrArg Prod.snd (outsAt1_B V c t h0 h1)
    dsimp only at e
    exact e.trans (sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2)

/-- After a last K block the output block holds the rectified sum of that point's accumulator and the bias row. -/
theorem blockVal1_last (c : Dev nD) (t : Fin cfg1.N) (h1 : t.val % 4 = 3) :
    (outsAt1 V c t.val t.isLt).1 = k1_pay3 (F := F) (outsAt1 V c t.val t.isLt).2 (iblk1 V c 2 t) := by
  have h0 : ¬t.val % 4 = 0 := by omega
  have e := congrArg Prod.fst (outsAt1_C V c t h0 h1)
  dsimp only at e
  have e2 := e.trans (out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2)
  exact e2.trans (congrArg (fun a => k1_pay3 (F := F) a (iblk1 V c 2 t)) (accAt1_next V c t h0).symm)

end Cert.KernelIdeal.Fr

end
-- ==== Proof.KI.R1ValueBlk.lean ====
/-
  Region 1: where each window's block sits in its array, and a block's entry as the array's entry. At point t = (i, j, k)
  (i = t / 16, j = t / 4 mod 4, k = t mod 4) the activations' block is rows 2048 i … and columns 1024 k … of its array,
  the weights' block rows 1024 k … and columns 1024 j …, the bias block columns 1024 j … of the one bias row, and the
  output's block rows 2048 i … and columns 1024 j …. An entry of a block sits in the array, on each axis, at the block's
  index times the block's extent plus the entry's own coordinate.
-/
import proofs.«171407_j40123584479654_2_alg».proof.Proof.KI.R1Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 32 points. -/
theorem win1_idx : ∀ t : Fin cfg1.N,
    win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- Entry (r, m) of the activations' block at t is the array's entry (2048 i + r, 1024 k + m). -/
theorem iblk1_0_apply (c : Dev nD) (t : Fin cfg1.N) (r : Fin 2048) (m : Fin 1024) (p k : Fin 4096)
    (hp : p.val = 2048 * (t.val / 16) + r.val) (hk : k.val = 1024 * (t.val % 4) + m.val) :
    (iblk1 V c 0 t : Vec F S2048x1024 .bf16) (ix2 r m)
      = (V c (Pipeline.arrRef spec1 0) : S4096x4096.Idx → Elt F .bf16) (ix2 p k) := by
  obtain ⟨e0, e1, -⟩ := win1_idx t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 2048 + 1 * r.val = p.val; rw [e0, hp]; omega
  | ⟨1, _⟩ => show win1_0.index t (1 : Fin 2) * 1024 + 1 * m.val = k.val; rw [e1, hk]; omega

/-- Entry (m, q) of the weights' block at t is the array's entry (1024 k + m, 1024 j + q). -/
theorem iblk1_1_apply (c : Dev nD) (t : Fin cfg1.N) (m : Fin 1024) (q : Fin 1024) (k n : Fin 4096)
    (hk : k.val = 1024 * (t.val % 4) + m.val) (hn : n.val = 1024 * (t.val / 4 % 4) + q.val) :
    (iblk1 V c 1 t : Vec F S1024x1024 .bf16) (ix2 m q)
      = (V c (Pipeline.arrRef spec1 1) : S4096x4096.Idx → Elt F .bf16) (ix2 k n) := by
  obtain ⟨-, -, e0, e1, -⟩ := win1_idx t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 2) * 1024 + 1 * m.val = k.val; rw [e0, hk]; omega
  | ⟨1, _⟩ => show win1_1.index t (1 : Fin 2) * 1024 + 1 * q.val = n.val; rw [e1, hn]; omega

/-- Entry (0, q) of the bias block at t is the bias row's entry 1024 j + q. -/
theorem iblk1_2_apply (c : Dev nD) (t : Fin cfg1.N) (q : Fin 1024) (n : Fin 4096)
    (hn : n.val = 1024 * (t.val / 4 % 4) + q.val) :
    (iblk1 V c 2 t : Vec F S1x1024 .f32) (ix2 0 q)
      = (V c (Pipeline.arrRef spec1 2) : S1x4096.Idx → Elt F .f32) (ix2 0 n) := by
  obtain ⟨-, -, -, -, e0, e1, -⟩ := win1_idx t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = n.val; rw [e1, hn]; omega

/-- Entry (r, q) of the output's block at t sits at (2048 i + r, 1024 j + q) of the output array. -/
theorem win1_3_emb (t : Fin cfg1.N) (r : Fin 2048) (q : Fin 1024) (p n : Fin 4096)
    (hp : p.val = 2048 * (t.val / 16) + r.val) (hn : n.val = 1024 * (t.val / 4 % 4) + q.val) :
    (((cfg1.win 3).blk t).view.emb (ix2 r q) : S4096x4096.Idx) = ix2 p n := by
  obtain ⟨-, -, -, -, -, -, e0, e1⟩ := win1_idx t
  refine funext fun a => Fin.ext ?_
  match a with
  | ⟨0, _⟩ => show win1_3.index t (0 : Fin 2) * 2048 + 1 * r.val = p.val; rw [e0, hp]; omega
  | ⟨1, _⟩ => show win1_3.index t (1 : Fin 2) * 1024 + 1 * q.val = n.val; rw [e1, hn]; omega

end Cert.KernelIdeal.Fr

end
-- ==== Proof.KI.R1ValuePay.lean ====
/-
  Region 1's arithmetic read at one entry of a block, over the extended reals. At entry (r, q) of a [2048, 1024] block:
  the zero block is 0; the accumulation step is the accumulator's entry plus the sum over the 1024 contraction
  indices m of a(r, m) · w(m, q); the final step is max (acc(r, q) + bias(0, q)) 0. The change of float format is
  the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay1_zero_apply (r : Fin 2048) (q : Fin 1024) : (k1_pay1 (F := Ideal)) (ix2 r q) = 0 := by
  unfold k1_pay1
  rw [shapeCast_self]
  exact Ideal.ofBits_zero_f32

theorem pay1_lhs_0 (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem pay1_lhs_1 (i : S2048x1024.Idx) (k : dot_S2048x1024_S1024x1024_S2048x1024_1_0_0_1_n_n.contr.Idx) : (dot_S2048x1024_S1024x1024_S2048x1024_1_0_0_1_n_n.lhsIdx i k 1).val = (k ⟨0, by decide⟩).val :=
  dot_S2048x1024_S1024x1024_S2048x1024_1_0_0_1_n_n.lhsIdx_val_of_single rfl i k
theorem pay1_rhs_0 (i : S2048x1024.Idx) (k : dot_S2048x1024_S1024x1024_S2048x1024_1_0_0_1_n_n.contr.Idx) : (dot_S2048x1024_S1024x1024_S2048x1024_1_0_0_1_n_n.rhsIdx i k 0).val = (k ⟨0, by decide⟩).val :=
  dot_S2048x1024_S1024x1024_S2048x1024_1_0_0_1_n_n.rhsIdx_val_of_single rfl i k
theorem pay1_rhs_1 (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product at (r, q): the sum over the block's 1024 contraction indices. -/
theorem pay1_matmul_apply (a : FVec Ideal S2048x1024 .bf16) (w : FVec Ideal S1024x1024 .bf16) (r : Fin 2048) (q : Fin 1024) :
    matmul dot_S2048x1024_S1024x1024_S2048x1024_1_0_0_1_n_n none a w (constant S2048x1024 .f32 0x00000000#32) (ix2 r q) = ∑ m : Fin 1024, a (ix2 r m) * w (ix2 m q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r q) ((contrEquiv1 dot_S2048x1024_S1024x1024_S2048x1024_1_0_0_1_n_n 1024 rfl rfl).symm k) = ix2 r k := funext fun b => Fin.ext (by
    match b with
    | ⟨0, _⟩ => exact pay1_lhs_0 _ _
    | ⟨1, _⟩ => exact (pay1_lhs_1 _ _).trans hk)
  have er : dot_S2048x1024_S1024x1024_S2048x1024_1_0_0_1_n_n.rhsIdx (ix2 r q) ((contrEquiv1 dot_S2048x1024_S1024x1024_S2048x1024_1_0_0_1_n_n 1024 rfl rfl).symm k) = ix2 k q := funext fun b => Fin.ext (by
    match b with
    | ⟨0, _⟩ => exact (pay1_rhs_0 _ _).trans hk
    | ⟨1, _⟩ => exact pay1_rhs_1 _ _)
  rw [el, er]

/-- The accumulation step at (r, q): the accumulator's entry plus the block product's. -/
theorem pay1_acc_apply (v3 : Vec Ideal S2048x1024 .f32) (v4 : Vec Ideal S2048x1024 .bf16) (v6 : Vec Ideal S1024x1024 .bf16)
    (r : Fin 2048) (q : Fin 1024) :
    k1_pay2 (F := Ideal) v3 v4 v6 (ix2 r q) = v3 (ix2 r q) + ∑ m : Fin 1024, v4 (ix2 r m) * v6 (ix2 m q) := by
  unfold k1_pay2
  simp only [shapeCast_self]
  exact congrArg (v3 (ix2 r q) + ·) (pay1_matmul_apply v4 v6 r q)

/-- The final step at (r, q): the accumulator's entry plus the bias row's entry q, rectified. -/
theorem pay1_out_apply (v16 : Vec Ideal S2048x1024 .f32) (v17 : Vec Ideal S1x1024 .f32) (r : Fin 2048) (q : Fin 1024) :
    k1_pay3 (F := Ideal) v16 v17 (ix2 r q) = Cert.Spec.relu (v16 (ix2 r q) + v17 (ix2 0 q)) := by
  unfold k1_pay3
  simp only [shapeCast_self]
  show max (v16 (ix2 r q) + broadcastTo S2048x1024 v17 broadcasts_S1x1024_S2048x1024 (ix2 r q)) (Ideal.ofBits .f32 0x00000000#32) = _
  rw [broadcastTo_apply v17 broadcasts_S1x1024_S2048x1024 (ix2 r q) (ix2 0 q) (fun b => by
    match b with
    | ⟨0, _⟩ => rfl
    | ⟨1, _⟩ => rfl), Ideal.ofBits_zero_f32]
  rfl

end Cert.KernelIdeal.Fr

end
-- ==== Proof.KI.R1ValueAcc.lean ====
/-
  Region 1: the accumulator after every grid point, entry by entry, over the extended reals. At point t = (i, j, k)
  entry (r, q) of the accumulator is the contraction of row 2048 i + r of the activations with column 1024 j + q of
  the weights, accumulated from zero through the K blocks 0 … k in order. By induction along the points: a first K
  block rebuilds the accumulator from the zero block and needs nothing of the point before; every other point adds
  its block product to what the point before, which has the same (i, j) and the K block before, left.
-/
import proofs.«171407_j40123584479654_2_alg».proof.Proof.KI.R1ValueStep
import proofs.«171407_j40123584479654_2_alg».proof.Proof.KI.R1ValueBlk
import proofs.«171407_j40123584479654_2_alg».proof.Proof.KI.R1ValuePay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The accumulator's entry (r, q) after point n, for the array row p and column nn that entry stands for. -/
theorem accAt1_eq (c : Dev nD) : ∀ (n : ℕ) (hn : n < cfg1.N) (r : Fin 2048) (q : Fin 1024) (p nn : Fin 4096) (k : ℕ) (hk : k < 4),
    n % 4 = k → p.val = 2048 * (n / 16) + r.val → nn.val = 1024 * (n / 4 % 4) + q.val →
    ((outsAt1 V c n hn).2 : S2048x1024.Idx → EReal) (ix2 r q)
      = accUpTo (dotAt (V c (Pipeline.arrRef spec1 0)) (V c (Pipeline.arrRef spec1 1)) p nn) k hk := by
  intro n
  induction n using Nat.strong_induction_on with
  | _ n ih =>
    intro hn r q p nn k hk hnk hp hnn
    by_cases h0 : n % 4 = 0
    · obtain rfl : k = 0 := by omega
      refine (congrFun (accAt1_first V c ⟨n, hn⟩ h0) (ix2 r q)).trans ?_
      refine (pay1_acc_apply (k1_pay1 (F := Ideal)) (iblk1 V c 0 ⟨n, hn⟩) (iblk1 V c 1 ⟨n, hn⟩) r q).trans ?_
      rw [accUpTo_zero]
      refine congrArg₂ (· + ·) (pay1_zero_apply r q) (Finset.sum_congr rfl fun m _ => ?_)
      exact congrArg₂ (· * ·)
        (iblk1_0_apply V c ⟨n, hn⟩ r m p (kidx 0 hk m) hp (by rw [kidx_val]; show _ = 1024 * (n % 4) + m.val; rw [h0]))
        (iblk1_1_apply V c ⟨n, hn⟩ m q (kidx 0 hk m) nn (by rw [kidx_val]; show _ = 1024 * (n % 4) + m.val; rw [h0]) hnn)
    · obtain ⟨k', rfl⟩ : ∃ k', k = k' + 1 := ⟨k - 1, by omega⟩
      refine (congrFun (accAt1_next V c ⟨n, hn⟩ h0) (ix2 r q)).trans ?_
      refine (pay1_acc_apply (outsAt1 V c (n - 1) (Nat.lt_of_le_of_lt (Nat.sub_le _ _) hn)).2 (iblk1 V c 0 ⟨n, hn⟩) (iblk1 V c 1 ⟨n, hn⟩) r q).trans ?_
      rw [accUpTo_succ]
      refine congrArg₂ (· + ·)
        (ih (n - 1) (by omega) (Nat.lt_of_le_of_lt (Nat.sub_le _ _) hn) r q p nn k' (Nat.lt_of_succ_lt hk) (by omega) (by rw [hp]; omega) (by rw [hnn]; omega))
        (Finset.sum_congr rfl fun m _ => ?_)
      exact congrArg₂ (· * ·)
        (iblk1_0_apply V c ⟨n, hn⟩ r m p (kidx (k' + 1) hk m) hp (by rw [kidx_val]; show _ = 1024 * (n % 4) + m.val; rw [hnk]))
        (iblk1_1_apply V c ⟨n, hn⟩ m q (kidx (k' + 1) hk m) nn (by rw [kidx_val]; show _ = 1024 * (n % 4) + m.val; rw [hnk]) hnn)

end Cert.KernelIdeal.Fr

end
-- ==== Proof.KI.R1Value.lean ====
/-
  Region 1: the output array after the region. A last K block writes back its output block; its entry (r, q) is the
  rectified sum of the finished accumulator's entry — the whole contraction over the 4096 indices, the four block sums
  accumulated from zero in order being the sum over all indices — and the bias row's entry. Block (i, j) of the output
  array is written back at the point 16 i + 4 j + 3; these eight blocks tile the array, so every entry (p, n) of the
  array ends as the rectified sum of row p of the activations against column n of the weights and entry n of the bias row.
-/
import proofs.«171407_j40123584479654_2_alg».proof.Proof.KI.R1ValueAcc
import proofs.«171407_j40123584479654_2_alg».proof.Proof.LayerForms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The layer as one array: entry (p, n) from row p of window 0's array, column n of window 1's and entry n of window 2's row. -/
def layerVal1 (c : Dev nD) : S4096x4096.Idx → EReal :=
  fun j => Cert.Spec.denseRowH (V c (Pipeline.arrRef spec1 0)) (V c (Pipeline.arrRef spec1 1)) (V c (Pipeline.arrRef spec1 2)) (j 0) (j 1)

/-- The output block is written back exactly at the last K blocks. -/
theorem flushed1_iff : ∀ t : Fin cfg1.N, (cfg1.win 3).flush t = true ↔ t.val % 4 = 3 :=
  (by decide +kernel : ∀ t : Fin grid1.N, win1_3.flush t = true ↔ t.val % 4 = 3)

/-- What a last K block writes back is its block of the layer. -/
theorem flushed1_eq (c : Dev nD) (t : Fin cfg1.N) (hf : (cfg1.win 3).flush t = true) :
    (dat1 (F := Ideal) V c).flushed 3 t = ((cfg1.win 3).blk t).view.read (Elt Ideal) (layerVal1 V c) := by
  have h1 : t.val % 4 = 3 := (flushed1_iff t).mp hf
  have hN : t.val < 32 := lt_of_lt_of_eq t.isLt (show cfg1.N = 32 from N_1)
  show (cfg1.win 3).cut (grid1.coords t) ((dat1 V c).after 3 t) = _
  rw [after1_3, blockVal1_last V c t h1]
  funext j
  obtain ⟨r, q, rfl⟩ : ∃ (r : Fin 2048) (q : Fin 1024), j = ix2 r q := ⟨j 0, j 1, eq_ix2 j⟩
  have hr := r.isLt
  have hq := q.isLt
  show k1_pay3 (F := Ideal) (outsAt1 V c t.val t.isLt).2 (iblk1 V c 2 t) (ix2 r q)
    = layerVal1 V c (((cfg1.win 3).blk t).view.emb (ix2 r q))
  rw [win1_3_emb t r q ⟨2048 * (t.val / 16) + r.val, by omega⟩ ⟨1024 * (t.val / 4 % 4) + q.val, by omega⟩ rfl rfl]
  refine (pay1_out_apply (outsAt1 V c t.val t.isLt).2 (iblk1 V c 2 t) r q).trans ?_
  unfold layerVal1 Cert.Spec.denseRowH
  refine congrArg Cert.Spec.relu (congrArg₂ (· + ·) ?_ ?_)
  · exact (accAt1_eq V c t.val t.isLt r q ⟨2048 * (t.val / 16) + r.val, by omega⟩ ⟨1024 * (t.val / 4 % 4) + q.val, by omega⟩ 3 (by omega) h1 rfl rfl).trans
      (accUpTo_three _ _)
  · exact iblk1_2_apply V c t q ⟨1024 * (t.val / 4 % 4) + q.val, by omega⟩ rfl

/-- Every entry of the output array is in the block some last K block writes back. -/
theorem cover1_out (i : S4096x4096.Idx) :
    ∃ t : Fin cfg1.N, (cfg1.win 3).flush t = true ∧ i ∈ ((cfg1.win 3).blk t).view.set := by
  have h0 : (i 0).val < 4096 := (i 0).isLt
  have h1 : (i 1).val < 4096 := (i 1).isLt
  have hN : cfg1.N = 32 := N_1
  obtain ⟨t, ht⟩ : ∃ t : Fin cfg1.N, t.val = 16 * ((i 0).val / 2048) + 4 * ((i 1).val / 1024) + 3 :=
    ⟨⟨16 * ((i 0).val / 2048) + 4 * ((i 1).val / 1024) + 3, by rw [hN]; omega⟩, rfl⟩
  obtain ⟨-, -, -, -, -, -, e0, e1⟩ := win1_idx t
  refine ⟨t, (flushed1_iff t).mpr (by rw [ht]; omega), ?_⟩
  show i ∈ ((View.whole (Pipeline.arrRef spec1 3)).slice (win1_3.rect t)).set
  rw [View.set_slice_whole, Rect.mem_set_unit]
  intro a
  match a with
  | ⟨0, _⟩ =>
    show win1_3.index t (0 : Fin 2) * 2048 ≤ (i 0).val ∧ (i 0).val < win1_3.index t (0 : Fin 2) * 2048 + 2048
    rw [e0, ht]; omega
  | ⟨1, _⟩ =>
    show win1_3.index t (1 : Fin 2) * 1024 ≤ (i 1).val ∧ (i 1).val < win1_3.index t (1 : Fin 2) * 1024 + 1024
    rw [e1, ht]; omega

/-- The output array after the region is the layer. -/
theorem final1_arr (c : Dev nD) : (dat1 (F := Ideal) V c).arrAt 3 cfg1.N = layerVal1 V c :=
  (dat1 (F := Ideal) V c).arrAt_eq_of_cover 3 (layerVal1 V c) (flushed1_eq V c) cover1_out

/-- Entry by entry: the rectified sum of the full contraction and the bias. -/
theorem final1 (c : Dev nD) : ∀ p n : Fin 4096,
    ((dat1 (F := Ideal) V c).arrAt 3 cfg1.N : S4096x4096.Idx → EReal) (ix2 p n)
      = Cert.Spec.denseRowH (V c (Pipeline.arrRef spec1 0)) (V c (Pipeline.arrRef spec1 1)) (V c (Pipeline.arrRef spec1 2)) p n :=
  fun p n => congrFun (final1_arr V c) (ix2 p n)

end Cert.KernelIdeal.Fr

end
-- ==== Proof.KI.R2ValuePieces.lean ====
/-
  Region 2: what each control case leaves in the accumulator and in the output block, as the body's arithmetic applied
  to the blocks it loaded. A first K block leaves the block product added to the zero block; a middle or last K block
  leaves it added to what the accumulator held; the last K block stores the rectified sum of that and the bias row.
  Every store covers its whole buffer at offset zero, so a buffer reads back as the last payload stored into it.
-/
import proofs.«171407_j40123584479654_2_alg».proof.Proof.KI.R2Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- First K block: the accumulator is zeroed and the block product added to it. -/
theorem sout2_A_0_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond2_0 i) (hc1 : ¬cond2_1 i)
    (x0 : Vec F S2048x1024 .bf16) (x1 : Vec F S1024x1024 .bf16) (x2 : Vec F S1x1024 .f32) :
    sout2_A_0 c i arg3 harg3 arg4 harg4 arg5 harg5 arg6 harg6 arg7 harg7 hc0 hc1 x0 x1 x2 = k2_pay2 k2_pay1 x0 x1 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  try sl_unfold_words
  rw [View.canon_cons_unit_zero hz2, View.readCov_unit_zero (S := S2048x1024) _ hz2]
  simp only [View.readAt_eq_ld, harg3.read_unread, harg4.read_unread, View.ld_unit_zero (S := S2048x1024) hz2, View.ld_unit_zero (S := S1024x1024) hz2]

/-- Middle K block: the block product is added to what the accumulator held. -/
theorem sout2_B_0_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : ¬cond2_1 i)
    (x0 : Vec F S2048x1024 .bf16) (x1 : Vec F S1024x1024 .bf16) (x2 : Vec F S1x1024 .f32) (xs0 : Vec F S2048x1024 .f32) :
    sout2_B_0 c i arg3 harg3 arg4 harg4 arg5 harg5 arg6 harg6 arg7 harg7 hc0 hc1 x0 x1 x2 xs0 = k2_pay2 xs0 x0 x1 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the accumulator: as at a middle block. -/
theorem sout2_C_0_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) :
    sout2_C_0 c i arg3 harg3 arg4 harg4 arg5 harg5 arg6 harg6 arg7 harg7 hc0 hc1 x0 x1 x2 xs0 = k2_pay2 xs0 x0 x1 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the output block: the finished accumulator plus the bias row, rectified. -/
theorem out2_C_3_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond2_0 i) (hc1 : cond2_1 i)
    (x0 : Vec F S2048x1024 .bf16) (x1 : Vec F S1024x1024 .bf16) (x2 : Vec F S1x1024 .f32) (xs0 : Vec F S2048x1024 .f32) :
    out2_C_3 c i arg3 harg3 arg4 harg4 arg5 harg5 arg6 harg6 arg7 harg7 hc0 hc1 x0 x1 x2 xs0 = k2_pay3 (k2_pay2 xs0 x0 x1) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  try sl_unfold_words
  rw [View.canon_unit_zero hz2, View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]

end Cert.KernelIdeal.Fr

end
-- ==== Proof.KI.R2ValueStep.lean ====
/-
  Region 2: the accumulator and the output block after each grid point, as the body's arithmetic applied to the
  point's input blocks and to what the accumulator held after the point before. At a first K block the accumulator
  is the block product added to the zero block; at every other point it is the block product added to the
  accumulator of the point before; at a last K block the output block is the rectified sum of the accumulator just
  computed and the bias row.
-/
import proofs.«171407_j40123584479654_2_alg».proof.Proof.KI.R2ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]
variable (V : (c : Dev nD) → (b : Ref sig .tc) → Buf (Elt F) ((c : Thread nD τ).loc b))

/-- After a first K block the accumulator holds the block product added to the zero block. -/
theorem accAt2_first (c : Dev nD) (t : Fin cfg2.N) (h0 : t.val % 4 = 0) :
    (outsAt2 V c t.val t.isLt).2 = k2_pay2 (F := F) (k2_pay1 (F := F)) (iblk2 V c 0 t) (iblk2 V c 1 t) := by
  have h1 : ¬t.val % 4 = 3 := by omega
  have e := congrArg Prod.snd (outsAt2_A V c t h0 h1)
  dsimp only at e
  exact e.trans (sout2_A_0_eq c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t))

/-- After any other point it holds the block product added to what the point before left. -/
theorem accAt2_next (c : Dev nD) (t : Fin cfg2.N) (h0 : ¬t.val % 4 = 0) :
    (outsAt2 V c t.val t.isLt).2
      = k2_pay2 (F := F) (outsAt2 V c (t.val - 1) (Nat.lt_of_le_of_lt (Nat.sub_le _ _) t.isLt)).2 (iblk2 V c 0 t) (iblk2 V c 1 t) := by
  by_cases h1 : t.val % 4 = 3
  · have e := congrArg Prod.snd (outsAt2_C V c t h0 h1)
    dsimp only at e
    exact e.trans (sout2_C_0_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2)
  · have e := congrArg Prod.snd (outsAt2_B V c t h0 h1)
    dsimp only at e
    exact e.trans (sout2_B_0_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2)

/-- After a last K block the output block holds the rectified sum of that point's accumulator and the bias row. -/
theorem blockVal2_last (c : Dev nD) (t : Fin cfg2.N) (h1 : t.val % 4 = 3) :
    (outsAt2 V c t.val t.isLt).1 = k2_pay3 (F := F) (outsAt2 V c t.val t.isLt).2 (iblk2 V c 2 t) := by
  have h0 : ¬t.val % 4 = 0 := by omega
  have e := congrArg Prod.fst (outsAt2_C V c t h0 h1)
  dsimp only at e
  have e2 := e.trans (out2_C_3_eq c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2)
  exact e2.trans (congrArg (fun a => k2_pay3 (F := F) a (iblk2 V c 2 t)) (accAt2_next V c t h0).symm)

end Cert.KernelIdeal.Fr

end
-- ==== Proof.KI.R2ValueBlk.lean ====
/-
  Region 2: where each window's block sits in its array, and a block's entry as the array's entry. At point t = (i, j, k)
  (i = t / 16, j = t / 4 mod 4, k = t mod 4) the activations' block is rows 2048 i … and columns 1024 k … of its array,
  the weights' block rows 1024 k … and columns 1024 j …, the bias block columns 1024 j … of the one bias row, and the
  output's block rows 2048 i … and columns 1024 j …. An entry of a block sits in the array, on each axis, at the block's
  index times the block's extent plus the entry's own coordinate.
-/
import proofs.«171407_j40123584479654_2_alg».proof.Proof.KI.R2Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 32 points. -/
theorem win2_idx : ∀ t : Fin cfg2.N,
    win2_0.index t (0 : Fin 2) = t.val / 16 ∧ win2_0.index t (1 : Fin 2) = t.val % 4
    ∧ win2_1.index t (0 : Fin 2) = t.val % 4 ∧ win2_1.index t (1 : Fin 2) = t.val / 4 % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N, _)

/-- Entry (r, m) of the activations' block at t is the array's entry (2048 i + r, 1024 k + m). -/
theorem iblk2_0_apply (c : Dev nD) (t : Fin cfg2.N) (r : Fin 2048) (m : Fin 1024) (p k : Fin 4096)
    (hp : p.val = 2048 * (t.val / 16) + r.val) (hk : k.val = 1024 * (t.val % 4) + m.val) :
    (iblk2 V c 0 t : Vec F S2048x1024 .bf16) (ix2 r m)
      = (V c (Pipeline.arrRef spec2 0) : S4096x4096.Idx → Elt F .bf16) (ix2 p k) := by
  obtain ⟨e0, e1, -⟩ := win2_idx t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 2048 + 1 * r.val = p.val; rw [e0, hp]; omega
  | ⟨1, _⟩ => show win2_0.index t (1 : Fin 2) * 1024 + 1 * m.val = k.val; rw [e1, hk]; omega

/-- Entry (m, q) of the weights' block at t is the array's entry (1024 k + m, 1024 j + q). -/
theorem iblk2_1_apply (c : Dev nD) (t : Fin cfg2.N) (m : Fin 1024) (q : Fin 1024) (k n : Fin 4096)
    (hk : k.val = 1024 * (t.val % 4) + m.val) (hn : n.val = 1024 * (t.val / 4 % 4) + q.val) :
    (iblk2 V c 1 t : Vec F S1024x1024 .bf16) (ix2 m q)
      = (V c (Pipeline.arrRef spec2 1) : S4096x4096.Idx → Elt F .bf16) (ix2 k n) := by
  obtain ⟨-, -, e0, e1, -⟩ := win2_idx t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 1024 + 1 * m.val = k.val; rw [e0, hk]; omega
  | ⟨1, _⟩ => show win2_1.index t (1 : Fin 2) * 1024 + 1 * q.val = n.val; rw [e1, hn]; omega

/-- Entry (0, q) of the bias block at t is the bias row's entry 1024 j + q. -/
theorem iblk2_2_apply (c : Dev nD) (t : Fin cfg2.N) (q : Fin 1024) (n : Fin 4096)
    (hn : n.val = 1024 * (t.val / 4 % 4) + q.val) :
    (iblk2 V c 2 t : Vec F S1x1024 .f32) (ix2 0 q)
      = (V c (Pipeline.arrRef spec2 2) : S1x4096.Idx → Elt F .f32) (ix2 0 n) := by
  obtain ⟨-, -, -, -, e0, e1, -⟩ := win2_idx t
  unfold iblk2
  rw [View.read_apply]
  show V c (Pipeline.arrRef spec2 2) _ = V c (Pipeline.arrRef spec2 2) _
  refine congrArg (V c (Pipeline.arrRef spec2 2)) (funext fun a => Fin.ext ?_)
  match a with
  | ⟨0, _⟩ => show win2_2.index t (0 : Fin 2) * 1 + 1 * 0 = 0; rw [e0]
  | ⟨1, _⟩ => show win2_2.index t (1 : Fin 2) * 1024 + 1 * q.val = n.val; rw [e1, hn]; omega

/-- Entry (r, q) of the output's block at t sits at (2048 i + r, 1024 j + q) of the output array. -/
theorem win2_3_emb (t : Fin cfg2.N) (r : Fin 2048) (q : Fin 1024) (p n : Fin 4096)
    (hp : p.val = 2048 * (t.val / 16) + r.val) (hn : n.val = 1024 * (t.val / 4 % 4) + q.val) :
    (((cfg2.win 3).blk t).view.emb (ix2 r q) : S4096x4096.Idx) = ix2 p n := by
  obtain ⟨-, -, -, -, -, -, e0, e1⟩ := win2_idx t
  refine funext fun a => Fin.ext ?_
  match a with
  | ⟨0, _⟩ => show win2_3.index t (0 : Fin 2) * 2048 + 1 * r.val = p.val; rw [e0, hp]; omega
  | ⟨1, _⟩ => show win2_3.index t (1 : Fin 2) * 1024 + 1 * q.val = n.val; rw [e1, hn]; omega

end Cert.KernelIdeal.Fr

end
-- ==== Proof.KI.R2ValuePay.lean ====
/-
  Region 2's arithmetic read at one entry of a block, over the extended reals. At entry (r, q) of a [2048, 1024] block:
  the zero block is 0; the accumulation step is the accumulator's entry plus the sum over the 1024 contraction
  indices m of a(r, m) · w(m, q); the final step is max (acc(r, q) + bias(0, q)) 0. The change of float format is
  the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay2_zero_apply (r : Fin 2048) (q : Fin 1024) : (k2_pay1 (F := Ideal)) (ix2 r q) = 0 := by
  unfold k2_pay1
  rw [shapeCast_self]
  exact Ideal.ofBits_zero_f32

theorem pay2_lhs_0 (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem pay2_lhs_1 (i : S2048x1024.Idx) (k : dot_S2048x1024_S1024x1024_S2048x1024_1_0_0_1_n_n.contr.Idx) : (dot_S2048x1024_S1024x1024_S2048x1024_1_0_0_1_n_n.lhsIdx i k 1).val = (k ⟨0, by decide⟩).val :=
  dot_S2048x1024_S1024x1024_S2048x1024_1_0_0_1_n_n.lhsIdx_val_of_single rfl i k
theorem pay2_rhs_0 (i : S2048x1024.Idx) (k : dot_S2048x1024_S1024x1024_S2048x1024_1_0_0_1_n_n.contr.Idx) : (dot_S2048x1024_S1024x1024_S2048x1024_1_0_0_1_n_n.rhsIdx i k 0).val = (k ⟨0, by decide⟩).val :=
  dot_S2048x1024_S1024x1024_S2048x1024_1_0_0_1_n_n.rhsIdx_val_of_single rfl i k
theorem pay2_rhs_1 (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product at (r, q): the sum over the block's 1024 contraction indices. -/
theorem pay2_matmul_apply (a : FVec Ideal S2048x1024 .bf16) (w : FVec Ideal S1024x1024 .bf16) (r : Fin 2048) (q : Fin 1024) :
    matmul dot_S2048x1024_S1024x1024_S2048x1024_1_0_0_1_n_n none a w (constant S2048x1024 .f32 0x00000000#32) (ix2 r q) = ∑ m : Fin 1024, a (ix2 r m) * w (ix2 m q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r q) ((contrEquiv1 dot_S2048x1024_S1024x1024_S2048x1024_1_0_0_1_n_n 1024 rfl rfl).symm k) = ix2 r k := funext fun b => Fin.ext (by
    match b with
    | ⟨0, _⟩ => exact pay2_lhs_0 _ _
    | ⟨1, _⟩ => exact (pay2_lhs_1 _ _).trans hk)
  have er : dot_S2048x1024_S1024x1024_S2048x1024_1_0_0_1_n_n.rhsIdx (ix2 r q) ((contrEquiv1 dot_S2048x1024_S1024x1024_S2048x1024_1_0_0_1_n_n 1024 rfl rfl).symm k) = ix2 k q := funext fun b => Fin.ext (by
    match b with
    | ⟨0, _⟩ => exact (pay2_rhs_0 _ _).trans hk
    | ⟨1, _⟩ => exact pay2_rhs_1 _ _)
  rw [el, er]

/-- The accumulation step at (r, q): the accumulator's entry plus the block product's. -/
theorem pay2_acc_apply (v3 : Vec Ideal S2048x1024 .f32) (v4 : Vec Ideal S2048x1024 .bf16) (v6 : Vec Ideal S1024x1024 .bf16)
    (r : Fin 2048) (q : Fin 1024) :
    k2_pay2 (F := Ideal) v3 v4 v6 (ix2 r q) = v3 (ix2 r q) + ∑ m : Fin 1024, v4 (ix2 r m) * v6 (ix2 m q) := by
  unfold k2_pay2
  simp only [shapeCast_self]
  exact congrArg (v3 (ix2 r q) + ·) (pay2_matmul_apply v4 v6 r q)

/-- The final step at (r, q): the accumulator's entry plus the bias row's entry q, rectified. -/
theorem pay2_out_apply (v16 : Vec Ideal S2048x1024 .f32) (v17 : Vec Ideal S1x1024 .f32) (r : Fin 2048) (q : Fin 1024) :
    k2_pay3 (F := Ideal) v16 v17 (ix2 r q) = Cert.Spec.relu (v16 (ix2 r q) + v17 (ix2 0 q)) := by
  unfold k2_pay3
  simp only [shapeCast_self]
  show max (v16 (ix2 r q) + broadcastTo S2048x1024 v17 broadcasts_S1x1024_S2048x1024 (ix2 r q)) (Ideal.ofBits .f32 0x00000000#32) = _
  rw [broadcastTo_apply v17 broadcasts_S1x1024_S2048x1024 (ix2 r q) (ix2 0 q) (fun b => by
    match b with
    | ⟨0, _⟩ => rfl
    | ⟨1, _⟩ => rfl), Ideal.ofBits_zero_f32]
  rfl

end Cert.KernelIdeal.Fr

end
-- ==== Proof.KI.R2ValueAcc.lean ====
/-
  Region 2: the accumulator after every grid point, entry by entry, over the extended reals. At point t = (i, j, k)
  entry (r, q) of the accumulator is the contraction of row 2048 i + r of the activations with column 1024 j + q of
  the weights, accumulated from zero through the K blocks 0 … k in order. By induction along the points: a first K
  block rebuilds the accumulator from the zero block and needs nothing of the point before; every other point adds
  its block product to what the point before, which has the same (i, j) and the K block before, left.
-/
import proofs.«171407_j40123584479654_2_alg».proof.Proof.KI.R2ValueStep
import proofs.«171407_j40123584479654_2_alg».proof.Proof.KI.R2ValueBlk
import proofs.«171407_j40123584479654_2_alg».proof.Proof.KI.R2ValuePay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The accumulator's entry (r, q) after point n, for the array row p and column nn that entry stands for. -/
theorem accAt2_eq (c : Dev nD) : ∀ (n : ℕ) (hn : n < cfg2.N) (r : Fin 2048) (q : Fin 1024) (p nn : Fin 4096) (k : ℕ) (hk : k < 4),
    n % 4 = k → p.val = 2048 * (n / 16) + r.val → nn.val = 1024 * (n / 4 % 4) + q.val →
    ((outsAt2 V c n hn).2 : S2048x1024.Idx → EReal) (ix2 r q)
      = accUpTo (dotAt (V c (Pipeline.arrRef spec2 0)) (V c (Pipeline.arrRef spec2 1)) p nn) k hk := by
  intro n
  induction n using Nat.strong_induction_on with
  | _ n ih =>
    intro hn r q p nn k hk hnk hp hnn
    by_cases h0 : n % 4 = 0
    · obtain rfl : k = 0 := by omega
      refine (congrFun (accAt2_first V c ⟨n, hn⟩ h0) (ix2 r q)).trans ?_
      refine (pay2_acc_apply (k2_pay1 (F := Ideal)) (iblk2 V c 0 ⟨n, hn⟩) (iblk2 V c 1 ⟨n, hn⟩) r q).trans ?_
      rw [accUpTo_zero]
      refine congrArg₂ (· + ·) (pay2_zero_apply r q) (Finset.sum_congr rfl fun m _ => ?_)
      exact congrArg₂ (· * ·)
        (iblk2_0_apply V c ⟨n, hn⟩ r m p (kidx 0 hk m) hp (by rw [kidx_val]; show _ = 1024 * (n % 4) + m.val; rw [h0]))
        (iblk2_1_apply V c ⟨n, hn⟩ m q (kidx 0 hk m) nn (by rw [kidx_val]; show _ = 1024 * (n % 4) + m.val; rw [h0]) hnn)
    · obtain ⟨k', rfl⟩ : ∃ k', k = k' + 1 := ⟨k - 1, by omega⟩
      refine (congrFun (accAt2_next V c ⟨n, hn⟩ h0) (ix2 r q)).trans ?_
      refine (pay2_acc_apply (outsAt2 V c (n - 1) (Nat.lt_of_le_of_lt (Nat.sub_le _ _) hn)).2 (iblk2 V c 0 ⟨n, hn⟩) (iblk2 V c 1 ⟨n, hn⟩) r q).trans ?_
      rw [accUpTo_succ]
      refine congrArg₂ (· + ·)
        (ih (n - 1) (by omega) (Nat.lt_of_le_of_lt (Nat.sub_le _ _) hn) r q p nn k' (Nat.lt_of_succ_lt hk) (by omega) (by rw [hp]; omega) (by rw [hnn]; omega))
        (Finset.sum_congr rfl fun m _ => ?_)
      exact congrArg₂ (· * ·)
        (iblk2_0_apply V c ⟨n, hn⟩ r m p (kidx (k' + 1) hk m) hp (by rw [kidx_val]; show _ = 1024 * (n % 4) + m.val; rw [hnk]))
        (iblk2_1_apply V c ⟨n, hn⟩ m q (kidx (k' + 1) hk m) nn (by rw [kidx_val]; show _ = 1024 * (n % 4) + m.val; rw [hnk]) hnn)

end Cert.KernelIdeal.Fr

end
-- ==== Proof.KI.R2Value.lean ====
/-
  Region 2: the output array after the region. A last K block writes back its output block; its entry (r, q) is the
  rectified sum of the finished accumulator's entry — the whole contraction over the 4096 indices, the four block sums
  accumulated from zero in order being the sum over all indices — and the bias row's entry. Block (i, j) of the output
  array is written back at the point 16 i + 4 j + 3; these eight blocks tile the array, so every entry (p, n) of the
  array ends as the rectified sum of row p of the activations against column n of the weights and entry n of the bias row.
-/
import proofs.«171407_j40123584479654_2_alg».proof.Proof.KI.R2ValueAcc
import proofs.«171407_j40123584479654_2_alg».proof.Proof.LayerForms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The layer as one array: entry (p, n) from row p of window 0's array, column n of window 1's and entry n of window 2's row. -/
def layerVal2 (c : Dev nD) : S4096x4096.Idx → EReal :=
  fun j => Cert.Spec.denseRowH (V c (Pipeline.arrRef spec2 0)) (V c (Pipeline.arrRef spec2 1)) (V c (Pipeline.arrRef spec2 2)) (j 0) (j 1)

/-- The output block is written back exactly at the last K blocks. -/
theorem flushed2_iff : ∀ t : Fin cfg2.N, (cfg2.win 3).flush t = true ↔ t.val % 4 = 3 :=
  (by decide +kernel : ∀ t : Fin grid2.N, win2_3.flush t = true ↔ t.val % 4 = 3)

/-- What a last K block writes back is its block of the layer. -/
theorem flushed2_eq (c : Dev nD) (t : Fin cfg2.N) (hf : (cfg2.win 3).flush t = true) :
    (dat2 (F := Ideal) V c).flushed 3 t = ((cfg2.win 3).blk t).view.read (Elt Ideal) (layerVal2 V c) := by
  have h1 : t.val % 4 = 3 := (flushed2_iff t).mp hf
  have hN : t.val < 32 := lt_of_lt_of_eq t.isLt (show cfg2.N = 32 from N_2)
  show (cfg2.win 3).cut (grid2.coords t) ((dat2 V c).after 3 t) = _
  rw [after2_3, blockVal2_last V c t h1]
  funext j
  obtain ⟨r, q, rfl⟩ : ∃ (r : Fin 2048) (q : Fin 1024), j = ix2 r q := ⟨j 0, j 1, eq_ix2 j⟩
  have hr := r.isLt
  have hq := q.isLt
  show k2_pay3 (F := Ideal) (outsAt2 V c t.val t.isLt).2 (iblk2 V c 2 t) (ix2 r q)
    = layerVal2 V c (((cfg2.win 3).blk t).view.emb (ix2 r q))
  rw [win2_3_emb t r q ⟨2048 * (t.val / 16) + r.val, by omega⟩ ⟨1024 * (t.val / 4 % 4) + q.val, by omega⟩ rfl rfl]
  refine (pay2_out_apply (outsAt2 V c t.val t.isLt).2 (iblk2 V c 2 t) r q).trans ?_
  unfold layerVal2 Cert.Spec.denseRowH
  refine congrArg Cert.Spec.relu (congrArg₂ (· + ·) ?_ ?_)
  · exact (accAt2_eq V c t.val t.isLt r q ⟨2048 * (t.val / 16) + r.val, by omega⟩ ⟨1024 * (t.val / 4 % 4) + q.val, by omega⟩ 3 (by omega) h1 rfl rfl).trans
      (accUpTo_three _ _)
  · exact iblk2_2_apply V c t q ⟨1024 * (t.val / 4 % 4) + q.val, by omega⟩ rfl

/-- Every entry of the output array is in the block some last K block writes back. -/
theorem cover2_out (i : S4096x4096.Idx) :
    ∃ t : Fin cfg2.N, (cfg2.win 3).flush t = true ∧ i ∈ ((cfg2.win 3).blk t).view.set := by
  have h0 : (i 0).val < 4096 := (i 0).isLt
  have h1 : (i 1).val < 4096 := (i 1).isLt
  have hN : cfg2.N = 32 := N_2
  obtain ⟨t, ht⟩ : ∃ t : Fin cfg2.N, t.val = 16 * ((i 0).val / 2048) + 4 * ((i 1).val / 1024) + 3 :=
    ⟨⟨16 * ((i 0).val / 2048) + 4 * ((i 1).val / 1024) + 3, by rw [hN]; omega⟩, rfl⟩
  obtain ⟨-, -, -, -, -, -, e0, e1⟩ := win2_idx t
  refine ⟨t, (flushed2_iff t).mpr (by rw [ht]; omega), ?_⟩
  show i ∈ ((View.whole (Pipeline.arrRef spec2 3)).slice (win2_3.rect t)).set
  rw [View.set_slice_whole, Rect.mem_set_unit]
  intro a
  match a with
  | ⟨0, _⟩ =>
    show win2_3.index t (0 : Fin 2) * 2048 ≤ (i 0).val ∧ (i 0).val < win2_3.index t (0 : Fin 2) * 2048 + 2048
    rw [e0, ht]; omega
  | ⟨1, _⟩ =>
    show win2_3.index t (1 : Fin 2) * 1024 ≤ (i 1).val ∧ (i 1).val < win2_3.index t (1 : Fin 2) * 1024 + 1024
    rw [e1, ht]; omega

/-- The output array after the region is the layer. -/
theorem final2_arr (c : Dev nD) : (dat2 (F := Ideal) V c).arrAt 3 cfg2.N = layerVal2 V c :=
  (dat2 (F := Ideal) V c).arrAt_eq_of_cover 3 (layerVal2 V c) (flushed2_eq V c) cover2_out

/-- Entry by entry: the rectified sum of the full contraction and the bias. -/
theorem final2 (c : Dev nD) : ∀ p n : Fin 4096,
    ((dat2 (F := Ideal) V c).arrAt 3 cfg2.N : S4096x4096.Idx → EReal) (ix2 p n)
      = Cert.Spec.denseRowH (V c (Pipeline.arrRef spec2 0)) (V c (Pipeline.arrRef spec2 1)) (V c (Pipeline.arrRef spec2 2)) p n :=
  fun p n => congrFun (final2_arr V c) (ix2 p n)

end Cert.KernelIdeal.Fr

end
-- ==== Proof.KI.R3ValuePieces.lean ====
/-
  Region 3: what each control case leaves in the accumulator and in the output block, as the body's arithmetic applied
  to the blocks it loaded. A first K block leaves the block product added to the zero block; a middle or last K block
  leaves it added to what the accumulator held; the last K block stores the rectified sum of that and the bias row.
  Every store covers its whole buffer at offset zero, so a buffer reads back as the last payload stored into it.
-/
import proofs.«171407_j40123584479654_2_alg».proof.Proof.KI.R3Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- First K block: the accumulator is zeroed and the block product added to it. -/
theorem sout3_A_0_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond3_0 i) (hc1 : ¬cond3_1 i)
    (x0 : Vec F S2048x1024 .bf16) (x1 : Vec F S1024x1024 .bf16) (x2 : Vec F S1x1024 .f32) :
    sout3_A_0 c i arg3 harg3 arg4 harg4 arg5 harg5 arg6 harg6 arg7 harg7 hc0 hc1 x0 x1 x2 = k3_pay2 k3_pay1 x0 x1 := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  try sl_unfold_words
  rw [View.canon_cons_unit_zero hz2, View.readCov_unit_zero (S := S2048x1024) _ hz2]
  simp only [View.readAt_eq_ld, harg3.read_unread, harg4.read_unread, View.ld_unit_zero (S := S2048x1024) hz2, View.ld_unit_zero (S := S1024x1024) hz2]

/-- Middle K block: the block product is added to what the accumulator held. -/
theorem sout3_B_0_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : ¬cond3_1 i)
    (x0 : Vec F S2048x1024 .bf16) (x1 : Vec F S1024x1024 .bf16) (x2 : Vec F S1x1024 .f32) (xs0 : Vec F S2048x1024 .f32) :
    sout3_B_0 c i arg3 harg3 arg4 harg4 arg5 harg5 arg6 harg6 arg7 harg7 hc0 hc1 x0 x1 x2 xs0 = k3_pay2 xs0 x0 x1 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the accumulator: as at a middle block. -/
theorem sout3_C_0_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) :
    sout3_C_0 c i arg3 harg3 arg4 harg4 arg5 harg5 arg6 harg6 arg7 harg7 hc0 hc1 x0 x1 x2 xs0 = k3_pay2 xs0 x0 x1 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the output block: the finished accumulator plus the bias row, rectified. -/
theorem out3_C_3_eq (c : Dev nD) (i : grid3.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond3_0 i) (hc1 : cond3_1 i)
    (x0 : Vec F S2048x1024 .bf16) (x1 : Vec F S1024x1024 .bf16) (x2 : Vec F S1x1024 .f32) (xs0 : Vec F S2048x1024 .f32) :
    out3_C_3 c i arg3 harg3 arg4 harg4 arg5 harg5 arg6 harg6 arg7 harg7 hc0 hc1 x0 x1 x2 xs0 = k3_pay3 (k3_pay2 xs0 x0 x1) x2 := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  try sl_unfold_words
  rw [View.canon_unit_zero hz2, View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]

end Cert.KernelIdeal.Fr

end
-- ==== Proof.KI.R3ValueStep.lean ====
/-
  Region 3: the accumulator and the output block after each grid point, as the body's arithmetic applied to the
  point's input blocks and to what the accumulator held after the point before. At a first K block the accumulator
  is the block product added to the zero block; at every other point it is the block product added to the
  accumulator of the point before; at a last K block the output block is the rectified sum of the accumulator just
  computed and the bias row.
-/
import proofs.«171407_j40123584479654_2_alg».proof.Proof.KI.R3ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]
variable (V : (c : Dev nD) → (b : Ref sig .tc) → Buf (Elt F) ((c : Thread nD τ).loc b))

/-- After a first K block the accumulator holds the block product added to the zero block. -/
theorem accAt3_first (c : Dev nD) (t : Fin cfg3.N) (h0 : t.val % 4 = 0) :
    (outsAt3 V c t.val t.isLt).2 = k3_pay2 (F := F) (k3_pay1 (F := F)) (iblk3 V c 0 t) (iblk3 V c 1 t) := by
  have h1 : ¬t.val % 4 = 3 := by omega
  have e := congrArg Prod.snd (outsAt3_A V c t h0 h1)
  dsimp only at e
  exact e.trans (sout3_A_0_eq c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t))

/-- After any other point it holds the block product added to what the point before left. -/
theorem accAt3_next (c : Dev nD) (t : Fin cfg3.N) (h0 : ¬t.val % 4 = 0) :
    (outsAt3 V c t.val t.isLt).2
      = k3_pay2 (F := F) (outsAt3 V c (t.val - 1) (Nat.lt_of_le_of_lt (Nat.sub_le _ _) t.isLt)).2 (iblk3 V c 0 t) (iblk3 V c 1 t) := by
  by_cases h1 : t.val % 4 = 3
  · have e := congrArg Prod.snd (outsAt3_C V c t h0 h1)
    dsimp only at e
    exact e.trans (sout3_C_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2)
  · have e := congrArg Prod.snd (outsAt3_B V c t h0 h1)
    dsimp only at e
    exact e.trans (sout3_B_0_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2)

/-- After a last K block the output block holds the rectified sum of that point's accumulator and the bias row. -/
theorem blockVal3_last (c : Dev nD) (t : Fin cfg3.N) (h1 : t.val % 4 = 3) :
    (outsAt3 V c t.val t.isLt).1 = k3_pay3 (F := F) (outsAt3 V c t.val t.isLt).2 (iblk3 V c 2 t) := by
  have h0 : ¬t.val % 4 = 0 := by omega
  have e := congrArg Prod.fst (outsAt3_C V c t h0 h1)
  dsimp only at e
  have e2 := e.trans (out3_C_3_eq c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2)
  exact e2.trans (congrArg (fun a => k3_pay3 (F := F) a (iblk3 V c 2 t)) (accAt3_next V c t h0).symm)

end Cert.KernelIdeal.Fr

end
-- ==== Proof.KI.R3ValueBlk.lean ====
/-
  Region 3: where each window's block sits in its array, and a block's entry as the array's entry. At point t = (i, j, k)
  (i = t / 16, j = t / 4 mod 4, k = t mod 4) the activations' block is rows 2048 i … and columns 1024 k … of its array,
  the weights' block rows 1024 k … and columns 1024 j …, the bias block columns 1024 j … of the one bias row, and the
  output's block rows 2048 i … and columns 1024 j …. An entry of a block sits in the array, on each axis, at the block's
  index times the block's extent plus the entry's own coordinate.
-/
import proofs.«171407_j40123584479654_2_alg».proof.Proof.KI.R3Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 32 points. -/
theorem win3_idx : ∀ t : Fin cfg3.N,
    win3_0.index t (0 : Fin 2) = t.val / 16 ∧ win3_0.index t (1 : Fin 2) = t.val % 4
    ∧ win3_1.index t (0 : Fin 2) = t.val % 4 ∧ win3_1.index t (1 : Fin 2) = t.val / 4 % 4
    ∧ win3_2.index t (0 : Fin 2) = 0 ∧ win3_2.index t (1 : Fin 2) = t.val / 4 % 4
    ∧ win3_3.index t (0 : Fin 2) = t.val / 16 ∧ win3_3.index t (1 : Fin 2) = t.val / 4 % 4 :=
  (by decide +kernel : ∀ t : Fin grid3.N, _)

/-- Entry (r, m) of the activations' block at t is the array's entry (2048 i + r, 1024 k + m). -/
theorem iblk3_0_apply (c : Dev nD) (t : Fin cfg3.N) (r : Fin 2048) (m : Fin 1024) (p k : Fin 4096)
    (hp : p.val = 2048 * (t.val / 16) + r.val) (hk : k.val = 1024 * (t.val % 4) + m.val) :
    (iblk3 V c 0 t : Vec F S2048x1024 .bf16) (ix2 r m)
      = (V c (Pipeline.arrRef spec3 0) : S4096x4096.Idx → Elt F .bf16) (ix2 p k) := by
  obtain ⟨e0, e1, -⟩ := win3_idx t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 2048 + 1 * r.val = p.val; rw [e0, hp]; omega
  | ⟨1, _⟩ => show win3_0.index t (1 : Fin 2) * 1024 + 1 * m.val = k.val; rw [e1, hk]; omega

/-- Entry (m, q) of the weights' block at t is the array's entry (1024 k + m, 1024 j + q). -/
theorem iblk3_1_apply (c : Dev nD) (t : Fin cfg3.N) (m : Fin 1024) (q : Fin 1024) (k n : Fin 4096)
    (hk : k.val = 1024 * (t.val % 4) + m.val) (hn : n.val = 1024 * (t.val / 4 % 4) + q.val) :
    (iblk3 V c 1 t : Vec F S1024x1024 .bf16) (ix2 m q)
      = (V c (Pipeline.arrRef spec3 1) : S4096x4096.Idx → Elt F .bf16) (ix2 k n) := by
  obtain ⟨-, -, e0, e1, -⟩ := win3_idx t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 2) * 1024 + 1 * m.val = k.val; rw [e0, hk]; omega
  | ⟨1, _⟩ => show win3_1.index t (1 : Fin 2) * 1024 + 1 * q.val = n.val; rw [e1, hn]; omega

/-- Entry (0, q) of the bias block at t is the bias row's entry 1024 j + q. -/
theorem iblk3_2_apply (c : Dev nD) (t : Fin cfg3.N) (q : Fin 1024) (n : Fin 4096)
    (hn : n.val = 1024 * (t.val / 4 % 4) + q.val) :
    (iblk3 V c 2 t : Vec F S1x1024 .f32) (ix2 0 q)
      = (V c (Pipeline.arrRef spec3 2) : S1x4096.Idx → Elt F .f32) (ix2 0 n) := by
  obtain ⟨-, -, -, -, e0, e1, -⟩ := win3_idx t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 2) * 1 + 1 * 0 = 0; rw [e0]
  | ⟨1, _⟩ => show win3_2.index t (1 : Fin 2) * 1024 + 1 * q.val = n.val; rw [e1, hn]; omega

/-- Entry (r, q) of the output's block at t sits at (2048 i + r, 1024 j + q) of the output array. -/
theorem win3_3_emb (t : Fin cfg3.N) (r : Fin 2048) (q : Fin 1024) (p n : Fin 4096)
    (hp : p.val = 2048 * (t.val / 16) + r.val) (hn : n.val = 1024 * (t.val / 4 % 4) + q.val) :
    (((cfg3.win 3).blk t).view.emb (ix2 r q) : S4096x4096.Idx) = ix2 p n := by
  obtain ⟨-, -, -, -, -, -, e0, e1⟩ := win3_idx t
  refine funext fun a => Fin.ext ?_
  match a with
  | ⟨0, _⟩ => show win3_3.index t (0 : Fin 2) * 2048 + 1 * r.val = p.val; rw [e0, hp]; omega
  | ⟨1, _⟩ => show win3_3.index t (1 : Fin 2) * 1024 + 1 * q.val = n.val; rw [e1, hn]; omega

end Cert.KernelIdeal.Fr

end
-- ==== Proof.KI.R3ValuePay.lean ====
/-
  Region 3's arithmetic read at one entry of a block, over the extended reals. At entry (r, q) of a [2048, 1024] block:
  the zero block is 0; the accumulation step is the accumulator's entry plus the sum over the 1024 contraction
  indices m of a(r, m) · w(m, q); the final step is max (acc(r, q) + bias(0, q)) 0. The change of float format is
  the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay3_zero_apply (r : Fin 2048) (q : Fin 1024) : (k3_pay1 (F := Ideal)) (ix2 r q) = 0 := by
  unfold k3_pay1
  rw [shapeCast_self]
  exact Ideal.ofBits_zero_f32

theorem pay3_lhs_0 (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem pay3_lhs_1 (i : S2048x1024.Idx) (k : dot_S2048x1024_S1024x1024_S2048x1024_1_0_0_1_n_n.contr.Idx) : (dot_S2048x1024_S1024x1024_S2048x1024_1_0_0_1_n_n.lhsIdx i k 1).val = (k ⟨0, by decide⟩).val :=
  dot_S2048x1024_S1024x1024_S2048x1024_1_0_0_1_n_n.lhsIdx_val_of_single rfl i k
theorem pay3_rhs_0 (i : S2048x1024.Idx) (k : dot_S2048x1024_S1024x1024_S2048x1024_1_0_0_1_n_n.contr.Idx) : (dot_S2048x1024_S1024x1024_S2048x1024_1_0_0_1_n_n.rhsIdx i k 0).val = (k ⟨0, by decide⟩).val :=
  dot_S2048x1024_S1024x1024_S2048x1024_1_0_0_1_n_n.rhsIdx_val_of_single rfl i k
theorem pay3_rhs_1 (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product at (r, q): the sum over the block's 1024 contraction indices. -/
theorem pay3_matmul_apply (a : FVec Ideal S2048x1024 .bf16) (w : FVec Ideal S1024x1024 .bf16) (r : Fin 2048) (q : Fin 1024) :
    matmul dot_S2048x1024_S1024x1024_S2048x1024_1_0_0_1_n_n none a w (constant S2048x1024 .f32 0x00000000#32) (ix2 r q) = ∑ m : Fin 1024, a (ix2 r m) * w (ix2 m q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r q) ((contrEquiv1 dot_S2048x1024_S1024x1024_S2048x1024_1_0_0_1_n_n 1024 rfl rfl).symm k) = ix2 r k := funext fun b => Fin.ext (by
    match b with
    | ⟨0, _⟩ => exact pay3_lhs_0 _ _
    | ⟨1, _⟩ => exact (pay3_lhs_1 _ _).trans hk)
  have er : dot_S2048x1024_S1024x1024_S2048x1024_1_0_0_1_n_n.rhsIdx (ix2 r q) ((contrEquiv1 dot_S2048x1024_S1024x1024_S2048x1024_1_0_0_1_n_n 1024 rfl rfl).symm k) = ix2 k q := funext fun b => Fin.ext (by
    match b with
    | ⟨0, _⟩ => exact (pay3_rhs_0 _ _).trans hk
    | ⟨1, _⟩ => exact pay3_rhs_1 _ _)
  rw [el, er]

/-- The accumulation step at (r, q): the accumulator's entry plus the block product's. -/
theorem pay3_acc_apply (v3 : Vec Ideal S2048x1024 .f32) (v4 : Vec Ideal S2048x1024 .bf16) (v6 : Vec Ideal S1024x1024 .bf16)
    (r : Fin 2048) (q : Fin 1024) :
    k3_pay2 (F := Ideal) v3 v4 v6 (ix2 r q) = v3 (ix2 r q) + ∑ m : Fin 1024, v4 (ix2 r m) * v6 (ix2 m q) := by
  unfold k3_pay2
  simp only [shapeCast_self]
  exact congrArg (v3 (ix2 r q) + ·) (pay3_matmul_apply v4 v6 r q)

/-- The final step at (r, q): the accumulator's entry plus the bias row's entry q, rectified. -/
theorem pay3_out_apply (v16 : Vec Ideal S2048x1024 .f32) (v17 : Vec Ideal S1x1024 .f32) (r : Fin 2048) (q : Fin 1024) :
    k3_pay3 (F := Ideal) v16 v17 (ix2 r q) = Cert.Spec.relu (v16 (ix2 r q) + v17 (ix2 0 q)) := by
  unfold k3_pay3
  simp only [shapeCast_self]
  show max (v16 (ix2 r q) + broadcastTo S2048x1024 v17 broadcasts_S1x1024_S2048x1024 (ix2 r q)) (Ideal.ofBits .f32 0x00000000#32) = _
  rw [broadcastTo_apply v17 broadcasts_S1x1024_S2048x1024 (ix2 r q) (ix2 0 q) (fun b => by
    match b with
    | ⟨0, _⟩ => rfl
    | ⟨1, _⟩ => rfl), Ideal.ofBits_zero_f32]
  rfl

end Cert.KernelIdeal.Fr

end
-- ==== Proof.KI.R3ValueAcc.lean ====
/-
  Region 3: the accumulator after every grid point, entry by entry, over the extended reals. At point t = (i, j, k)
  entry (r, q) of the accumulator is the contraction of row 2048 i + r of the activations with column 1024 j + q of
  the weights, accumulated from zero through the K blocks 0 … k in order. By induction along the points: a first K
  block rebuilds the accumulator from the zero block and needs nothing of the point before; every other point adds
  its block product to what the point before, which has the same (i, j) and the K block before, left.
-/
import proofs.«171407_j40123584479654_2_alg».proof.Proof.KI.R3ValueStep
import proofs.«171407_j40123584479654_2_alg».proof.Proof.KI.R3ValueBlk
import proofs.«171407_j40123584479654_2_alg».proof.Proof.KI.R3ValuePay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The accumulator's entry (r, q) after point n, for the array row p and column nn that entry stands for. -/
theorem accAt3_eq (c : Dev nD) : ∀ (n : ℕ) (hn : n < cfg3.N) (r : Fin 2048) (q : Fin 1024) (p nn : Fin 4096) (k : ℕ) (hk : k < 4),
    n % 4 = k → p.val = 2048 * (n / 16) + r.val → nn.val = 1024 * (n / 4 % 4) + q.val →
    ((outsAt3 V c n hn).2 : S2048x1024.Idx → EReal) (ix2 r q)
      = accUpTo (dotAt (V c (Pipeline.arrRef spec3 0)) (V c (Pipeline.arrRef spec3 1)) p nn) k hk := by
  intro n
  induction n using Nat.strong_induction_on with
  | _ n ih =>
    intro hn r q p nn k hk hnk hp hnn
    by_cases h0 : n % 4 = 0
    · obtain rfl : k = 0 := by omega
      refine (congrFun (accAt3_first V c ⟨n, hn⟩ h0) (ix2 r q)).trans ?_
      refine (pay3_acc_apply (k3_pay1 (F := Ideal)) (iblk3 V c 0 ⟨n, hn⟩) (iblk3 V c 1 ⟨n, hn⟩) r q).trans ?_
      rw [accUpTo_zero]
      refine congrArg₂ (· + ·) (pay3_zero_apply r q) (Finset.sum_congr rfl fun m _ => ?_)
      exact congrArg₂ (· * ·)
        (iblk3_0_apply V c ⟨n, hn⟩ r m p (kidx 0 hk m) hp (by rw [kidx_val]; show _ = 1024 * (n % 4) + m.val; rw [h0]))
        (iblk3_1_apply V c ⟨n, hn⟩ m q (kidx 0 hk m) nn (by rw [kidx_val]; show _ = 1024 * (n % 4) + m.val; rw [h0]) hnn)
    · obtain ⟨k', rfl⟩ : ∃ k', k = k' + 1 := ⟨k - 1, by omega⟩
      refine (congrFun (accAt3_next V c ⟨n, hn⟩ h0) (ix2 r q)).trans ?_
      refine (pay3_acc_apply (outsAt3 V c (n - 1) (Nat.lt_of_le_of_lt (Nat.sub_le _ _) hn)).2 (iblk3 V c 0 ⟨n, hn⟩) (iblk3 V c 1 ⟨n, hn⟩) r q).trans ?_
      rw [accUpTo_succ]
      refine congrArg₂ (· + ·)
        (ih (n - 1) (by omega) (Nat.lt_of_le_of_lt (Nat.sub_le _ _) hn) r q p nn k' (Nat.lt_of_succ_lt hk) (by omega) (by rw [hp]; omega) (by rw [hnn]; omega))
        (Finset.sum_congr rfl fun m _ => ?_)
      exact congrArg₂ (· * ·)
        (iblk3_0_apply V c ⟨n, hn⟩ r m p (kidx (k' + 1) hk m) hp (by rw [kidx_val]; show _ = 1024 * (n % 4) + m.val; rw [hnk]))
        (iblk3_1_apply V c ⟨n, hn⟩ m q (kidx (k' + 1) hk m) nn (by rw [kidx_val]; show _ = 1024 * (n % 4) + m.val; rw [hnk]) hnn)

end Cert.KernelIdeal.Fr

end
-- ==== Proof.KI.R3Value.lean ====
/-
  Region 3: the output array after the region. A last K block writes back its output block; its entry (r, q) is the
  rectified sum of the finished accumulator's entry — the whole contraction over the 4096 indices, the four block sums
  accumulated from zero in order being the sum over all indices — and the bias row's entry. Block (i, j) of the output
  array is written back at the point 16 i + 4 j + 3; these eight blocks tile the array, so every entry (p, n) of the
  array ends as the rectified sum of row p of the activations against column n of the weights and entry n of the bias row.
-/
import proofs.«171407_j40123584479654_2_alg».proof.Proof.KI.R3ValueAcc
import proofs.«171407_j40123584479654_2_alg».proof.Proof.LayerForms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The layer as one array: entry (p, n) from row p of window 0's array, column n of window 1's and entry n of window 2's row. -/
def layerVal3 (c : Dev nD) : S4096x4096.Idx → EReal :=
  fun j => Cert.Spec.denseRowH (V c (Pipeline.arrRef spec3 0)) (V c (Pipeline.arrRef spec3 1)) (V c (Pipeline.arrRef spec3 2)) (j 0) (j 1)

/-- The output block is written back exactly at the last K blocks. -/
theorem flushed3_iff : ∀ t : Fin cfg3.N, (cfg3.win 3).flush t = true ↔ t.val % 4 = 3 :=
  (by decide +kernel : ∀ t : Fin grid3.N, win3_3.flush t = true ↔ t.val % 4 = 3)

/-- What a last K block writes back is its block of the layer. -/
theorem flushed3_eq (c : Dev nD) (t : Fin cfg3.N) (hf : (cfg3.win 3).flush t = true) :
    (dat3 (F := Ideal) V c).flushed 3 t = ((cfg3.win 3).blk t).view.read (Elt Ideal) (layerVal3 V c) := by
  have h1 : t.val % 4 = 3 := (flushed3_iff t).mp hf
  have hN : t.val < 32 := lt_of_lt_of_eq t.isLt (show cfg3.N = 32 from N_3)
  show (cfg3.win 3).cut (grid3.coords t) ((dat3 V c).after 3 t) = _
  rw [after3_3, blockVal3_last V c t h1]
  funext j
  obtain ⟨r, q, rfl⟩ : ∃ (r : Fin 2048) (q : Fin 1024), j = ix2 r q := ⟨j 0, j 1, eq_ix2 j⟩
  have hr := r.isLt
  have hq := q.isLt
  show k3_pay3 (F := Ideal) (outsAt3 V c t.val t.isLt).2 (iblk3 V c 2 t) (ix2 r q)
    = layerVal3 V c (((cfg3.win 3).blk t).view.emb (ix2 r q))
  rw [win3_3_emb t r q ⟨2048 * (t.val / 16) + r.val, by omega⟩ ⟨1024 * (t.val / 4 % 4) + q.val, by omega⟩ rfl rfl]
  refine (pay3_out_apply (outsAt3 V c t.val t.isLt).2 (iblk3 V c 2 t) r q).trans ?_
  unfold layerVal3 Cert.Spec.denseRowH
  refine congrArg Cert.Spec.relu (congrArg₂ (· + ·) ?_ ?_)
  · exact (accAt3_eq V c t.val t.isLt r q ⟨2048 * (t.val / 16) + r.val, by omega⟩ ⟨1024 * (t.val / 4 % 4) + q.val, by omega⟩ 3 (by omega) h1 rfl rfl).trans
      (accUpTo_three _ _)
  · exact iblk3_2_apply V c t q ⟨1024 * (t.val / 4 % 4) + q.val, by omega⟩ rfl

/-- Every entry of the output array is in the block some last K block writes back. -/
theorem cover3_out (i : S4096x4096.Idx) :
    ∃ t : Fin cfg3.N, (cfg3.win 3).flush t = true ∧ i ∈ ((cfg3.win 3).blk t).view.set := by
  have h0 : (i 0).val < 4096 := (i 0).isLt
  have h1 : (i 1).val < 4096 := (i 1).isLt
  have hN : cfg3.N = 32 := N_3
  obtain ⟨t, ht⟩ : ∃ t : Fin cfg3.N, t.val = 16 * ((i 0).val / 2048) + 4 * ((i 1).val / 1024) + 3 :=
    ⟨⟨16 * ((i 0).val / 2048) + 4 * ((i 1).val / 1024) + 3, by rw [hN]; omega⟩, rfl⟩
  obtain ⟨-, -, -, -, -, -, e0, e1⟩ := win3_idx t
  refine ⟨t, (flushed3_iff t).mpr (by rw [ht]; omega), ?_⟩
  show i ∈ ((View.whole (Pipeline.arrRef spec3 3)).slice (win3_3.rect t)).set
  rw [View.set_slice_whole, Rect.mem_set_unit]
  intro a
  match a with
  | ⟨0, _⟩ =>
    show win3_3.index t (0 : Fin 2) * 2048 ≤ (i 0).val ∧ (i 0).val < win3_3.index t (0 : Fin 2) * 2048 + 2048
    rw [e0, ht]; omega
  | ⟨1, _⟩ =>
    show win3_3.index t (1 : Fin 2) * 1024 ≤ (i 1).val ∧ (i 1).val < win3_3.index t (1 : Fin 2) * 1024 + 1024
    rw [e1, ht]; omega

/-- The output array after the region is the layer. -/
theorem final3_arr (c : Dev nD) : (dat3 (F := Ideal) V c).arrAt 3 cfg3.N = layerVal3 V c :=
  (dat3 (F := Ideal) V c).arrAt_eq_of_cover 3 (layerVal3 V c) (flushed3_eq V c) cover3_out

/-- Entry by entry: the rectified sum of the full contraction and the bias. -/
theorem final3 (c : Dev nD) : ∀ p n : Fin 4096,
    ((dat3 (F := Ideal) V c).arrAt 3 cfg3.N : S4096x4096.Idx → EReal) (ix2 p n)
      = Cert.Spec.denseRowH (V c (Pipeline.arrRef spec3 0)) (V c (Pipeline.arrRef spec3 1)) (V c (Pipeline.arrRef spec3 2)) p n :=
  fun p n => congrFun (final3_arr V c) (ix2 p n)

end Cert.KernelIdeal.Fr

end
-- ==== Proof.KI.R4ValuePieces.lean ====
/-
  Region 4: what each control case leaves in the accumulator and in the output block, as the body's arithmetic applied
  to the blocks it loaded. A first K block leaves the block product added to the zero block; a middle or last K block
  leaves it added to what the accumulator held; the last K block stores the rectified sum of that and the bias row.
  Every store covers its whole buffer at offset zero, so a buffer reads back as the last payload stored into it.
-/
import proofs.«171407_j40123584479654_2_alg».proof.Proof.KI.R4Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- First K block: the accumulator is zeroed and the block product added to it. -/
theorem sout4_A_0_eq (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : cond4_0 i) (hc1 : ¬cond4_1 i)
    (x0 : Vec F S2048x1024 .bf16) (x1 : Vec F S1024x1024 .bf16) (x2 : Vec F S1x1024 .f32) :
    sout4_A_0 c i arg3 harg3 arg4 harg4 arg5 harg5 arg6 harg6 arg7 harg7 hc0 hc1 x0 x1 x2 = k4_pay2 k4_pay1 x0 x1 := by
  unfold sout4_A_0
  rw [View.read_writes_eq_canon _ _ _ (scover4_A_0 c i arg3 harg3 arg4 harg4 arg5 harg5 arg6 harg6 arg7 harg7 hc0 hc1 x0 x1 x2)]
  unfold kernelRun4_A
  dsimp only
  try sl_unfold_words
  rw [View.canon_cons_unit_zero hz2, View.readCov_unit_zero (S := S2048x1024) _ hz2]
  simp only [View.readAt_eq_ld, harg3.read_unread, harg4.read_unread, View.ld_unit_zero (S := S2048x1024) hz2, View.ld_unit_zero (S := S1024x1024) hz2]

/-- Middle K block: the block product is added to what the accumulator held. -/
theorem sout4_B_0_eq (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : ¬cond4_1 i)
    (x0 : Vec F S2048x1024 .bf16) (x1 : Vec F S1024x1024 .bf16) (x2 : Vec F S1x1024 .f32) (xs0 : Vec F S2048x1024 .f32) :
    sout4_B_0 c i arg3 harg3 arg4 harg4 arg5 harg5 arg6 harg6 arg7 harg7 hc0 hc1 x0 x1 x2 xs0 = k4_pay2 xs0 x0 x1 := by
  unfold sout4_B_0
  rw [View.read_writes_eq_canon _ _ _ (scover4_B_0 c i arg3 harg3 arg4 harg4 arg5 harg5 arg6 harg6 arg7 harg7 hc0 hc1 x0 x1 x2 xs0)]
  unfold kernelRun4_B
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the accumulator: as at a middle block. -/
theorem sout4_C_0_eq (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) :
    sout4_C_0 c i arg3 harg3 arg4 harg4 arg5 harg5 arg6 harg6 arg7 harg7 hc0 hc1 x0 x1 x2 xs0 = k4_pay2 xs0 x0 x1 := by
  unfold sout4_C_0
  rw [View.read_writes_eq_canon _ _ _ (scover4_C_0 c i arg3 harg3 arg4 harg4 arg5 harg5 arg6 harg6 arg7 harg7 hc0 hc1 x0 x1 x2 xs0)]
  unfold kernelRun4_C
  dsimp only
  try sl_unfold_words
  rw [View.canon_unit_zero hz2]
  simp only [View.readAt_eq_ld, harg3.read_unread, harg4.read_unread, harg7.read_unread, View.ld_unit_zero (S := S2048x1024) hz2, View.ld_unit_zero (S := S1024x1024) hz2]

/-- Last K block, the output block: the finished accumulator plus the bias row, rectified. -/
theorem out4_C_3_eq (c : Dev nD) (i : grid4.Coords) (arg3 : Memref sig .tc .vmem S2048x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond4_0 i) (hc1 : cond4_1 i)
    (x0 : Vec F S2048x1024 .bf16) (x1 : Vec F S1024x1024 .bf16) (x2 : Vec F S1x1024 .f32) (xs0 : Vec F S2048x1024 .f32) :
    out4_C_3 c i arg3 harg3 arg4 harg4 arg5 harg5 arg6 harg6 arg7 harg7 hc0 hc1 x0 x1 x2 xs0 = k4_pay3 (k4_pay2 xs0 x0 x1) x2 := by
  unfold out4_C_3
  rw [View.read_writes_eq_canon _ _ _ (cover4_C_3 c i arg3 harg3 arg4 harg4 arg5 harg5 arg6 harg6 arg7 harg7 hc0 hc1 x0 x1 x2 xs0)]
  unfold kernelRun4_C
  dsimp only
  try sl_unfold_words
  rw [View.canon_unit_zero hz2, View.readCov_unit_zero (S := S2048x1024) _ hz2]
  simp only [View.readAt_eq_ld, harg3.read_unread, harg4.read_unread, harg5.read_unread, harg7.read_unread, View.ld_unit_zero (S := S2048x1024) hz2, View.ld_unit_zero (S := S1024x1024) hz2, View.ld_unit_zero (S := S1x1024) hz2]

end Cert.KernelIdeal.Fr

end
-- ==== Proof.KI.R4ValueStep.lean ====
/-
  Region 4: the accumulator and the output block after each grid point, as the body's arithmetic applied to the
  point's input blocks and to what the accumulator held after the point before. At a first K block the accumulator
  is the block product added to the zero block; at every other point it is the block product added to the
  accumulator of the point before; at a last K block the output block is the rectified sum of the accumulator just
  computed and the bias row.
-/
import proofs.«171407_j40123584479654_2_alg».proof.Proof.KI.R4ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]
variable (V : (c : Dev nD) → (b : Ref sig .tc) → Buf (Elt F) ((c : Thread nD τ).loc b))

/-- After a first K block the accumulator holds the block product added to the zero block. -/
theorem accAt4_first (c : Dev nD) (t : Fin cfg4.N) (h0 : t.val % 4 = 0) :
    (outsAt4 V c t.val t.isLt).2 = k4_pay2 (F := F) (k4_pay1 (F := F)) (iblk4 V c 0 t) (iblk4 V c 1 t) := by
  have h1 : ¬t.val % 4 = 3 := by omega
  have e := congrArg Prod.snd (outsAt4_A V c t h0 h1)
  dsimp only at e
  exact e.trans (sout4_A_0_eq c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t))

/-- After any other point it holds the block product added to what the point before left. -/
theorem accAt4_next (c : Dev nD) (t : Fin cfg4.N) (h0 : ¬t.val % 4 = 0) :
    (outsAt4 V c t.val t.isLt).2
      = k4_pay2 (F := F) (outsAt4 V c (t.val - 1) (Nat.lt_of_le_of_lt (Nat.sub_le _ _) t.isLt)).2 (iblk4 V c 0 t) (iblk4 V c 1 t) := by
  by_cases h1 : t.val % 4 = 3
  · have e := congrArg Prod.snd (outsAt4_C V c t h0 h1)
    dsimp only at e
    exact e.trans (sout4_C_0_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2)
  · have e := congrArg Prod.snd (outsAt4_B V c t h0 h1)
    dsimp only at e
    exact e.trans (sout4_B_0_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) (fun h => h1 ((hcond4_1 t).mp h)) (iblk4 V c 0 t) (iblk4 V c 1 t) (iblk4 V c 2 t) (outsAt4 V c (t.val - 1) (Nat.lt_of_le_of_lt (Nat.sub_le _ _) t.isLt)).2)

/-- After a last K block the output block holds the rectified sum of that point's accumulator and the bias row. -/
theorem blockVal4_last (c : Dev nD) (t : Fin cfg4.N) (h1 : t.val % 4 = 3) :
    (outsAt4 V c t.val t.isLt).1 = k4_pay3 (F := F) (outsAt4 V c t.val t.isLt).2 (iblk4 V c 2 t) := by
  have h0 : ¬t.val % 4 = 0 := by omega
  have e := congrArg Prod.fst (outsAt4_C V c t h0 h1)
  dsimp only at e
  have e2 := e.trans (out4_C_3_eq c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2)
  exact e2.trans (congrArg (fun a => k4_pay3 (F := F) a (iblk4 V c 2 t)) (accAt4_next V c t h0).symm)

end Cert.KernelIdeal.Fr

end
-- ==== Proof.KI.R4ValueBlk.lean ====
/-
  Region 4: where each window's block sits in its array, and a block's entry as the array's entry. At point t = (i, j, k)
  (i = t / 16, j = t / 4 mod 4, k = t mod 4) the activations' block is rows 2048 i … and columns 1024 k … of its array,
  the weights' block rows 1024 k … and columns 1024 j …, the bias block columns 1024 j … of the one bias row, and the
  output's block rows 2048 i … and columns 1024 j …. An entry of a block sits in the array, on each axis, at the block's
  index times the block's extent plus the entry's own coordinate.
-/
import proofs.«171407_j40123584479654_2_alg».proof.Proof.KI.R4Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 32 points. -/
theorem win4_idx : ∀ t : Fin cfg4.N,
    win4_0.index t (0 : Fin 2) = t.val / 16 ∧ win4_0.index t (1 : Fin 2) = t.val % 4
    ∧ win4_1.index t (0 : Fin 2) = t.val % 4 ∧ win4_1.index t (1 : Fin 2) = t.val / 4 % 4
    ∧ win4_2.index t (0 : Fin 2) = 0 ∧ win4_2.index t (1 : Fin 2) = t.val / 4 % 4
    ∧ win4_3.index t (0 : Fin 2) = t.val / 16 ∧ win4_3.index t (1 : Fin 2) = t.val / 4 % 4 :=
  (by decide +kernel : ∀ t : Fin grid4.N, _)

/-- Entry (r, m) of the activations' block at t is the array's entry (2048 i + r, 1024 k + m). -/
theorem iblk4_0_apply (c : Dev nD) (t : Fin cfg4.N) (r : Fin 2048) (m : Fin 1024) (p k : Fin 4096)
    (hp : p.val = 2048 * (t.val / 16) + r.val) (hk : k.val = 1024 * (t.val % 4) + m.val) :
    (iblk4 V c 0 t : Vec F S2048x1024 .bf16) (ix2 r m)
      = (V c (Pipeline.arrRef spec4 0) : S4096x4096.Idx → Elt F .bf16) (ix2 p k) := by
  obtain ⟨e0, e1, -⟩ := win4_idx t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 2048 + 1 * r.val = p.val; rw [e0, hp]; omega
  | ⟨1, _⟩ => show win4_0.index t (1 : Fin 2) * 1024 + 1 * m.val = k.val; rw [e1, hk]; omega

/-- Entry (m, q) of the weights' block at t is the array's entry (1024 k + m, 1024 j + q). -/
theorem iblk4_1_apply (c : Dev nD) (t : Fin cfg4.N) (m : Fin 1024) (q : Fin 1024) (k n : Fin 4096)
    (hk : k.val = 1024 * (t.val % 4) + m.val) (hn : n.val = 1024 * (t.val / 4 % 4) + q.val) :
    (iblk4 V c 1 t : Vec F S1024x1024 .bf16) (ix2 m q)
      = (V c (Pipeline.arrRef spec4 1) : S4096x4096.Idx → Elt F .bf16) (ix2 k n) := by
  obtain ⟨-, -, e0, e1, -⟩ := win4_idx t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 1024 + 1 * m.val = k.val; rw [e0, hk]; omega
  | ⟨1, _⟩ => show win4_1.index t (1 : Fin 2) * 1024 + 1 * q.val = n.val; rw [e1, hn]; omega

/-- Entry (0, q) of the bias block at t is the bias row's entry 1024 j + q. -/
theorem iblk4_2_apply (c : Dev nD) (t : Fin cfg4.N) (q : Fin 1024) (n : Fin 4096)
    (hn : n.val = 1024 * (t.val / 4 % 4) + q.val) :
    (iblk4 V c 2 t : Vec F S1x1024 .f32) (ix2 0 q)
      = (V c (Pipeline.arrRef spec4 2) : S1x4096.Idx → Elt F .f32) (ix2 0 n) := by
  obtain ⟨-, -, -, -, e0, e1, -⟩ := win4_idx t
  unfold iblk4
  rw [View.read_apply]
  show V c (Pipeline.arrRef spec4 2) _ = V c (Pipeline.arrRef spec4 2) _
  refine congrArg (V c (Pipeline.arrRef spec4 2)) (funext fun a => Fin.ext ?_)
  match a with
  | ⟨0, _⟩ => show win4_2.index t (0 : Fin 2) * 1 + 1 * 0 = 0; rw [e0]
  | ⟨1, _⟩ => show win4_2.index t (1 : Fin 2) * 1024 + 1 * q.val = n.val; rw [e1, hn]; omega

/-- Entry (r, q) of the output's block at t sits at (2048 i + r, 1024 j + q) of the output array. -/
theorem win4_3_emb (t : Fin cfg4.N) (r : Fin 2048) (q : Fin 1024) (p n : Fin 4096)
    (hp : p.val = 2048 * (t.val / 16) + r.val) (hn : n.val = 1024 * (t.val / 4 % 4) + q.val) :
    (((cfg4.win 3).blk t).view.emb (ix2 r q) : S4096x4096.Idx) = ix2 p n := by
  obtain ⟨-, -, -, -, -, -, e0, e1⟩ := win4_idx t
  refine funext fun a => Fin.ext ?_
  match a with
  | ⟨0, _⟩ => show win4_3.index t (0 : Fin 2) * 2048 + 1 * r.val = p.val; rw [e0, hp]; omega
  | ⟨1, _⟩ => show win4_3.index t (1 : Fin 2) * 1024 + 1 * q.val = n.val; rw [e1, hn]; omega

end Cert.KernelIdeal.Fr

end
-- ==== Proof.KI.R4ValuePay.lean ====
/-
  Region 4's arithmetic read at one entry of a block, over the extended reals. At entry (r, q) of a [2048, 1024] block:
  the zero block is 0; the accumulation step is the accumulator's entry plus the sum over the 1024 contraction
  indices m of a(r, m) · w(m, q); the final step is max (acc(r, q) + bias(0, q)) 0. The change of float format is
  the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay4_zero_apply (r : Fin 2048) (q : Fin 1024) : (k4_pay1 (F := Ideal)) (ix2 r q) = 0 := by
  unfold k4_pay1
  rw [shapeCast_self]
  exact Ideal.ofBits_zero_f32

theorem pay4_lhs_0 (i : S2048x1024.Idx) (k : dot_S2048x1024_S1024x1024_S2048x1024_1_0_0_1_n_n.contr.Idx) : (dot_S2048x1024_S1024x1024_S2048x1024_1_0_0_1_n_n.lhsIdx i k 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem pay4_lhs_1 (i : S2048x1024.Idx) (k : dot_S2048x1024_S1024x1024_S2048x1024_1_0_0_1_n_n.contr.Idx) : (dot_S2048x1024_S1024x1024_S2048x1024_1_0_0_1_n_n.lhsIdx i k 1).val = (k ⟨0, by decide⟩).val :=
  dot_S2048x1024_S1024x1024_S2048x1024_1_0_0_1_n_n.lhsIdx_val_of_single rfl i k
theorem pay4_rhs_0 (i : S2048x1024.Idx) (k : dot_S2048x1024_S1024x1024_S2048x1024_1_0_0_1_n_n.contr.Idx) : (dot_S2048x1024_S1024x1024_S2048x1024_1_0_0_1_n_n.rhsIdx i k 0).val = (k ⟨0, by decide⟩).val :=
  dot_S2048x1024_S1024x1024_S2048x1024_1_0_0_1_n_n.rhsIdx_val_of_single rfl i k
theorem pay4_rhs_1 (i : S2048x1024.Idx) (k : dot_S2048x1024_S1024x1024_S2048x1024_1_0_0_1_n_n.contr.Idx) : (dot_S2048x1024_S1024x1024_S2048x1024_1_0_0_1_n_n.rhsIdx i k 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

/-- The block product at (r, q): the sum over the block's 1024 contraction indices. -/
theorem pay4_matmul_apply (a : FVec Ideal S2048x1024 .bf16) (w : FVec Ideal S1024x1024 .bf16) (r : Fin 2048) (q : Fin 1024) :
    matmul dot_S2048x1024_S1024x1024_S2048x1024_1_0_0_1_n_n none a w (constant S2048x1024 .f32 0x00000000#32) (ix2 r q) = ∑ m : Fin 1024, a (ix2 r m) * w (ix2 m q) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r q) ((contrEquiv1 dot_S2048x1024_S1024x1024_S2048x1024_1_0_0_1_n_n 1024 rfl rfl).symm k) = ix2 r k := funext fun b => Fin.ext (by
    match b with
    | ⟨0, _⟩ => exact pay4_lhs_0 _ _
    | ⟨1, _⟩ => exact (pay4_lhs_1 _ _).trans hk)
  have er : dot_S2048x1024_S1024x1024_S2048x1024_1_0_0_1_n_n.rhsIdx (ix2 r q) ((contrEquiv1 dot_S2048x1024_S1024x1024_S2048x1024_1_0_0_1_n_n 1024 rfl rfl).symm k) = ix2 k q := funext fun b => Fin.ext (by
    match b with
    | ⟨0, _⟩ => exact (pay4_rhs_0 _ _).trans hk
    | ⟨1, _⟩ => exact pay4_rhs_1 _ _)
  rw [el, er]

/-- The accumulation step at (r, q): the accumulator's entry plus the block product's. -/
theorem pay4_acc_apply (v3 : Vec Ideal S2048x1024 .f32) (v4 : Vec Ideal S2048x1024 .bf16) (v6 : Vec Ideal S1024x1024 .bf16)
    (r : Fin 2048) (q : Fin 1024) :
    k4_pay2 (F := Ideal) v3 v4 v6 (ix2 r q) = v3 (ix2 r q) + ∑ m : Fin 1024, v4 (ix2 r m) * v6 (ix2 m q) := by
  unfold k4_pay2
  simp only [shapeCast_self]
  exact congrArg (v3 (ix2 r q) + ·) (pay4_matmul_apply v4 v6 r q)

/-- The final step at (r, q): the accumulator's entry plus the bias row's entry q, rectified. -/
theorem pay4_out_apply (v16 : Vec Ideal S2048x1024 .f32) (v17 : Vec Ideal S1x1024 .f32) (r : Fin 2048) (q : Fin 1024) :
    k4_pay3 (F := Ideal) v16 v17 (ix2 r q) = Cert.Spec.relu (v16 (ix2 r q) + v17 (ix2 0 q)) := by
  unfold k4_pay3
  simp only [shapeCast_self]
  show max (v16 (ix2 r q) + broadcastTo S2048x1024 v17 broadcasts_S1x1024_S2048x1024 (ix2 r q)) (Ideal.ofBits .f32 0x00000000#32) = _
  rw [broadcastTo_apply v17 broadcasts_S1x1024_S2048x1024 (ix2 r q) (ix2 0 q) (fun b => by
    match b with
    | ⟨0, _⟩ => rfl
    | ⟨1, _⟩ => rfl), Ideal.ofBits_zero_f32]
  rfl

end Cert.KernelIdeal.Fr

end
-- ==== Proof.KI.R4ValueAcc.lean ====
/-
  Region 4: the accumulator after every grid point, entry by entry, over the extended reals. At point t = (i, j, k)
  entry (r, q) of the accumulator is the contraction of row 2048 i + r of the activations with column 1024 j + q of
  the weights, accumulated from zero through the K blocks 0 … k in order. By induction along the points: a first K
  block rebuilds the accumulator from the zero block and needs nothing of the point before; every other point adds
  its block product to what the point before, which has the same (i, j) and the K block before, left.
-/
import proofs.«171407_j40123584479654_2_alg».proof.Proof.KI.R4ValueStep
import proofs.«171407_j40123584479654_2_alg».proof.Proof.KI.R4ValueBlk
import proofs.«171407_j40123584479654_2_alg».proof.Proof.KI.R4ValuePay

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The accumulator's entry (r, q) after point n, for the array row p and column nn that entry stands for. -/
theorem accAt4_eq (c : Dev nD) : ∀ (n : ℕ) (hn : n < cfg4.N) (r : Fin 2048) (q : Fin 1024) (p nn : Fin 4096) (k : ℕ) (hk : k < 4),
    n % 4 = k → p.val = 2048 * (n / 16) + r.val → nn.val = 1024 * (n / 4 % 4) + q.val →
    ((outsAt4 V c n hn).2 : S2048x1024.Idx → EReal) (ix2 r q)
      = accUpTo (dotAt (V c (Pipeline.arrRef spec4 0)) (V c (Pipeline.arrRef spec4 1)) p nn) k hk := by
  intro n
  induction n using Nat.strong_induction_on with
  | _ n ih =>
    intro hn r q p nn k hk hnk hp hnn
    by_cases h0 : n % 4 = 0
    · obtain rfl : k = 0 := by omega
      refine (congrFun (accAt4_first V c ⟨n, hn⟩ h0) (ix2 r q)).trans ?_
      refine (pay4_acc_apply (k4_pay1 (F := Ideal)) (iblk4 V c 0 ⟨n, hn⟩) (iblk4 V c 1 ⟨n, hn⟩) r q).trans ?_
      rw [accUpTo_zero]
      refine congrArg₂ (· + ·) (pay4_zero_apply r q) (Finset.sum_congr rfl fun m _ => ?_)
      exact congrArg₂ (· * ·)
        (iblk4_0_apply V c ⟨n, hn⟩ r m p (kidx 0 hk m) hp (by rw [kidx_val]; show _ = 1024 * (n % 4) + m.val; rw [h0]))
        (iblk4_1_apply V c ⟨n, hn⟩ m q (kidx 0 hk m) nn (by rw [kidx_val]; show _ = 1024 * (n % 4) + m.val; rw [h0]) hnn)
    · obtain ⟨k', rfl⟩ : ∃ k', k = k' + 1 := ⟨k - 1, by omega⟩
      refine (congrFun (accAt4_next V c ⟨n, hn⟩ h0) (ix2 r q)).trans ?_
      refine (pay4_acc_apply (outsAt4 V c (n - 1) (Nat.lt_of_le_of_lt (Nat.sub_le _ _) hn)).2 (iblk4 V c 0 ⟨n, hn⟩) (iblk4 V c 1 ⟨n, hn⟩) r q).trans ?_
      rw [accUpTo_succ]
      refine congrArg₂ (· + ·)
        (ih (n - 1) (by omega) (Nat.lt_of_le_of_lt (Nat.sub_le _ _) hn) r q p nn k' (Nat.lt_of_succ_lt hk) (by omega) (by rw [hp]; omega) (by rw [hnn]; omega))
        (Finset.sum_congr rfl fun m _ => ?_)
      exact congrArg₂ (· * ·)
        (iblk4_0_apply V c ⟨n, hn⟩ r m p (kidx (k' + 1) hk m) hp (by rw [kidx_val]; show _ = 1024 * (n % 4) + m.val; rw [hnk]))
        (iblk4_1_apply V c ⟨n, hn⟩ m q (kidx (k' + 1) hk m) nn (by rw [kidx_val]; show _ = 1024 * (n % 4) + m.val; rw [hnk]) hnn)

end Cert.KernelIdeal.Fr

end
-- ==== Proof.KI.R4Value.lean ====
/-
  Region 4: the output array after the region. A last K block writes back its output block; its entry (r, q) is the
  rectified sum of the finished accumulator's entry — the whole contraction over the 4096 indices, the four block sums
  accumulated from zero in order being the sum over all indices — and the bias row's entry. Block (i, j) of the output
  array is written back at the point 16 i + 4 j + 3; these eight blocks tile the array, so every entry (p, n) of the
  array ends as the rectified sum of row p of the activations against column n of the weights and entry n of the bias row.
-/
import proofs.«171407_j40123584479654_2_alg».proof.Proof.KI.R4ValueAcc
import proofs.«171407_j40123584479654_2_alg».proof.Proof.LayerForms

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

/-- The layer as one array: entry (p, n) from row p of window 0's array, column n of window 1's and entry n of window 2's row. -/
def layerVal4 (c : Dev nD) : S4096x4096.Idx → EReal :=
  fun j => Cert.Spec.denseRowH (V c (Pipeline.arrRef spec4 0)) (V c (Pipeline.arrRef spec4 1)) (V c (Pipeline.arrRef spec4 2)) (j 0) (j 1)

/-- The output block is written back exactly at the last K blocks. -/
theorem flushed4_iff : ∀ t : Fin cfg4.N, (cfg4.win 3).flush t = true ↔ t.val % 4 = 3 :=
  (by decide +kernel : ∀ t : Fin grid4.N, win4_3.flush t = true ↔ t.val % 4 = 3)

/-- What a last K block writes back is its block of the layer. -/
theorem flushed4_eq (c : Dev nD) (t : Fin cfg4.N) (hf : (cfg4.win 3).flush t = true) :
    (dat4 (F := Ideal) V c).flushed 3 t = ((cfg4.win 3).blk t).view.read (Elt Ideal) (layerVal4 V c) := by
  have h1 : t.val % 4 = 3 := (flushed4_iff t).mp hf
  have hN : t.val < 32 := lt_of_lt_of_eq t.isLt (show cfg4.N = 32 from N_4)
  show (cfg4.win 3).cut (grid4.coords t) ((dat4 V c).after 3 t) = _
  rw [after4_3, blockVal4_last V c t h1]
  funext j
  obtain ⟨r, q, rfl⟩ : ∃ (r : Fin 2048) (q : Fin 1024), j = ix2 r q := ⟨j 0, j 1, eq_ix2 j⟩
  have hr := r.isLt
  have hq := q.isLt
  show k4_pay3 (F := Ideal) (outsAt4 V c t.val t.isLt).2 (iblk4 V c 2 t) (ix2 r q)
    = layerVal4 V c (((cfg4.win 3).blk t).view.emb (ix2 r q))
  rw [win4_3_emb t r q ⟨2048 * (t.val / 16) + r.val, by omega⟩ ⟨1024 * (t.val / 4 % 4) + q.val, by omega⟩ rfl rfl]
  refine (pay4_out_apply (outsAt4 V c t.val t.isLt).2 (iblk4 V c 2 t) r q).trans ?_
  unfold layerVal4 Cert.Spec.denseRowH
  refine congrArg Cert.Spec.relu (congrArg₂ (· + ·) ?_ ?_)
  · exact (accAt4_eq V c t.val t.isLt r q ⟨2048 * (t.val / 16) + r.val, by omega⟩ ⟨1024 * (t.val / 4 % 4) + q.val, by omega⟩ 3 (by omega) h1 rfl rfl).trans
      (accUpTo_three _ _)
  · exact iblk4_2_apply V c t q ⟨1024 * (t.val / 4 % 4) + q.val, by omega⟩ rfl

/-- Every entry of the output array is in the block some last K block writes back. -/
theorem cover4_out (i : S4096x4096.Idx) :
    ∃ t : Fin cfg4.N, (cfg4.win 3).flush t = true ∧ i ∈ ((cfg4.win 3).blk t).view.set := by
  have h0 : (i 0).val < 4096 := (i 0).isLt
  have h1 : (i 1).val < 4096 := (i 1).isLt
  have hN : cfg4.N = 32 := N_4
  obtain ⟨t, ht⟩ : ∃ t : Fin cfg4.N, t.val = 16 * ((i 0).val / 2048) + 4 * ((i 1).val / 1024) + 3 :=
    ⟨⟨16 * ((i 0).val / 2048) + 4 * ((i 1).val / 1024) + 3, by rw [hN]; omega⟩, rfl⟩
  obtain ⟨-, -, -, -, -, -, e0, e1⟩ := win4_idx t
  refine ⟨t, (flushed4_iff t).mpr (by rw [ht]; omega), ?_⟩
  show i ∈ ((View.whole (Pipeline.arrRef spec4 3)).slice (win4_3.rect t)).set
  rw [View.set_slice_whole, Rect.mem_set_unit]
  intro a
  match a with
  | ⟨0, _⟩ =>
    show win4_3.index t (0 : Fin 2) * 2048 ≤ (i 0).val ∧ (i 0).val < win4_3.index t (0 : Fin 2) * 2048 + 2048
    rw [e0, ht]; omega
  | ⟨1, _⟩ =>
    show win4_3.index t (1 : Fin 2) * 1024 ≤ (i 1).val ∧ (i 1).val < win4_3.index t (1 : Fin 2) * 1024 + 1024
    rw [e1, ht]; omega

/-- The output array after the region is the layer. -/
theorem final4_arr (c : Dev nD) : (dat4 (F := Ideal) V c).arrAt 3 cfg4.N = layerVal4 V c :=
  (dat4 (F := Ideal) V c).arrAt_eq_of_cover 3 (layerVal4 V c) (flushed4_eq V c) cover4_out

/-- Entry by entry: the rectified sum of the full contraction and the bias. -/
theorem final4 (c : Dev nD) : ∀ p n : Fin 4096,
    ((dat4 (F := Ideal) V c).arrAt 3 cfg4.N : S4096x4096.Idx → EReal) (ix2 p n)
      = Cert.Spec.denseRowH (V c (Pipeline.arrRef spec4 0)) (V c (Pipeline.arrRef spec4 1)) (V c (Pipeline.arrRef spec4 2)) p n :=
  fun p n => congrFun (final4_arr V c) (ix2 p n)

end Cert.KernelIdeal.Fr

end
-- ==== Proof.KI.R5ValuePieces.lean ====
/-
  Region 5: what each control case leaves in the accumulator and in the output block, as the body's arithmetic applied
  to the blocks it loaded. A first K block leaves the block product added to the zero block; a middle or last K block
  leaves it added to what the accumulator held; the last K block stores that, plus the bias row, plus the residual block.
  Every store covers its whole buffer at offset zero, so a buffer reads back as the last payload stored into it.
-/
import proofs.«171407_j40123584479654_2_alg».proof.Proof.KI.R5Frame
import Idealize.ShloMosaic.Lib.Pipeline.Value
import proofs.«171407_j40123584479654_2_alg».proof.Proof.KI.ValueLib

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]

/-- First K block: the accumulator is zeroed and the block product added to it. -/
theorem sout5_A_0_eq (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : cond5_0 i) (hc1 : ¬cond5_1 i)
    (x0 : Vec F S1024x1024 .bf16) (x1 : Vec F S1024x1024 .bf16) (x2 : Vec F S1x1024 .f32) (x3 : Vec F S1024x1024 .f32) :
    sout5_A_0 c i arg3 harg3 arg4 harg4 arg5 harg5 arg6 harg6 arg7 harg7 arg8 harg8 hc0 hc1 x0 x1 x2 x3 = k5_pay2 k5_pay1 x0 x1 := by
  unfold sout5_A_0
  rw [View.read_writes_eq_canon _ _ _ (scover5_A_0 c i arg3 harg3 arg4 harg4 arg5 harg5 arg6 harg6 arg7 harg7 arg8 harg8 hc0 hc1 x0 x1 x2 x3)]
  unfold kernelRun5_A
  dsimp only
  try sl_unfold_words
  rw [View.canon_cons_unit_zero hz2, View.readCov_unit_zero (S := S1024x1024) _ hz2]
  simp only [View.readAt_eq_ld, harg3.read_unread, harg4.read_unread, View.ld_unit_zero (S := S1024x1024) hz2]

/-- Middle K block: the block product is added to what the accumulator held. -/
theorem sout5_B_0_eq (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : ¬cond5_1 i)
    (x0 : Vec F S1024x1024 .bf16) (x1 : Vec F S1024x1024 .bf16) (x2 : Vec F S1x1024 .f32) (x3 : Vec F S1024x1024 .f32) (xs0 : Vec F S1024x1024 .f32) :
    sout5_B_0 c i arg3 harg3 arg4 harg4 arg5 harg5 arg6 harg6 arg7 harg7 arg8 harg8 hc0 hc1 x0 x1 x2 x3 xs0 = k5_pay2 xs0 x0 x1 := by
  unfold sout5_B_0
  rw [View.read_writes_eq_canon _ _ _ (scover5_B_0 c i arg3 harg3 arg4 harg4 arg5 harg5 arg6 harg6 arg7 harg7 arg8 harg8 hc0 hc1 x0 x1 x2 x3 xs0)]
  unfold kernelRun5_B
  dsimp only
  try sl_unfold_words
  rw [View.canon_unit_zero hz2]
  simp only [View.readAt_eq_ld, harg3.read_unread, harg4.read_unread, View.ld_unit_zero (S := S1024x1024) hz2, harg8.read_unread]

/-- Last K block, the accumulator: as at a middle block. -/
theorem sout5_C_0_eq (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) :
    sout5_C_0 c i arg3 harg3 arg4 harg4 arg5 harg5 arg6 harg6 arg7 harg7 arg8 harg8 hc0 hc1 x0 x1 x2 x3 xs0 = k5_pay2 xs0 x0 x1 := by
  unfold sout5_C_0
  rw [View.read_writes_eq_canon _ _ _ (scover5_C_0 c i arg3 harg3 arg4 harg4 arg5 harg5 arg6 harg6 arg7 harg7 arg8 harg8 hc0 hc1 x0 x1 x2 x3 xs0)]
  unfold kernelRun5_C
  dsimp only
  try sl_unfold_words
  rw [View.canon_unit_zero hz2]
  simp only [View.readAt_eq_ld, harg3.read_unread, harg4.read_unread, View.ld_unit_zero (S := S1024x1024) hz2, harg8.read_unread]

/-- Last K block, the output block: the finished accumulator plus the bias row, plus the residual block. -/
theorem out5_C_4_eq (c : Dev nD) (i : grid5.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond5_0 i) (hc1 : cond5_1 i)
    (x0 : Vec F S1024x1024 .bf16) (x1 : Vec F S1024x1024 .bf16) (x2 : Vec F S1x1024 .f32) (x3 : Vec F S1024x1024 .f32) (xs0 : Vec F S1024x1024 .f32) :
    out5_C_4 c i arg3 harg3 arg4 harg4 arg5 harg5 arg6 harg6 arg7 harg7 arg8 harg8 hc0 hc1 x0 x1 x2 x3 xs0 = k5_pay3 (k5_pay2 xs0 x0 x1) x2 x3 := by
  unfold out5_C_4
  rw [View.read_writes_eq_canon _ _ _ (cover5_C_4 c i arg3 harg3 arg4 harg4 arg5 harg5 arg6 harg6 arg7 harg7 arg8 harg8 hc0 hc1 x0 x1 x2 x3 xs0)]
  unfold kernelRun5_C
  dsimp only
  try sl_unfold_words
  rw [View.canon_unit_zero hz2, View.readCov_unit_zero (S := S1024x1024) _ hz2]
  simp only [View.readAt_eq_ld, harg3.read_unread, harg4.read_unread, View.ld_unit_zero (S := S1024x1024) hz2, harg5.read_unread, harg6.read_unread, harg8.read_unread, View.ld_unit_zero (S := S1x1024) hz2]

end Cert.KernelIdeal.Fr

end
-- ==== Proof.KI.R5ValueStep.lean ====
/-
  Region 5: the accumulator and the output block after each grid point, as the body's arithmetic applied to the
  point's input blocks and to what the accumulator held after the point before. At a first K block the accumulator
  is the block product added to the zero block; at every other point it is the block product added to the
  accumulator of the point before; at a last K block the output block is the accumulator just computed, plus the bias
  row, plus the residual block.
-/
import proofs.«171407_j40123584479654_2_alg».proof.Proof.KI.R5ValuePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- After a first K block the accumulator holds the block product added to the zero block. -/
theorem accAt5_first (c : Dev nD) (t : Fin cfg5.N) (h0 : t.val % 4 = 0) :
    (outsAt5 V c t.val t.isLt).2 = k5_pay2 k5_pay1 (iblk5 V c 0 t) (iblk5 V c 1 t) := by
  have h1 : ¬t.val % 4 = 3 := by omega
  rw [outsAt5_A V c t h0 h1]
  dsimp only
  exact sout5_A_0_eq c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)

/-- After any other point it holds the block product added to what the point before left. -/
theorem accAt5_next (c : Dev nD) (t : Fin cfg5.N) (h0 : ¬t.val % 4 = 0) :
    (outsAt5 V c t.val t.isLt).2
      = k5_pay2 (outsAt5 V c (t.val - 1) (Nat.lt_of_le_of_lt (Nat.sub_le _ _) t.isLt)).2 (iblk5 V c 0 t) (iblk5 V c 1 t) := by
  by_cases h1 : t.val % 4 = 3
  · rw [outsAt5_C V c t h0 h1]
    dsimp only
    exact sout5_C_0_eq c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2
  · rw [outsAt5_B V c t h0 h1]
    dsimp only
    exact sout5_B_0_eq c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2

/-- After a last K block the output block holds that point's accumulator, plus the bias row, plus the residual block. -/
theorem blockVal5_last (c : Dev nD) (t : Fin cfg5.N) (h1 : t.val % 4 = 3) :
    (outsAt5 V c t.val t.isLt).1 = k5_pay3 (outsAt5 V c t.val t.isLt).2 (iblk5 V c 2 t) (iblk5 V c 3 t) := by
  have h0 : ¬t.val % 4 = 0 := by omega
  rw [accAt5_next V c t h0, outsAt5_C V c t h0 h1]
  dsimp only
  exact out5_C_4_eq c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2

end Cert.KernelIdeal.Fr

end
-- ==== Proof.KI.R5ValuePay.lean ====
/-
  Region 5's arithmetic read at one entry of a block, over the extended reals. At entry (r, q) of a [1024, 1024] block:
  the zero block is 0; the accumulation step is the accumulator's entry plus the sum over the 1024 contraction
  indices m of a(r, m) · w(m, q); the final step is (acc(r, q) + bias(0, q)) + residual(r, q). The change of float
  format is the identity on extended reals, and the matmul accumulates into a zero block.
-/
import proofs.«171407_j40123584479654_2_alg».proof.Proof.Gen.KernelIdeal.Skeleton
import proofs.«171407_j40123584479654_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.ValueIdx
open scoped BigOperators

/-- The zero block reads 0 everywhere. -/
theorem pay5_zero_apply (r : Fin 1024) (q : Fin 1024) : (k5_pay1 (F := Ideal)) (ix2 r q) = 0 := by
  unfold k5_pay1
  rw [shapeCast_self]
  exact Ideal.ofBits_zero_f32

theorem pay5_lhs_0 (i : S1024x1024.Idx) (k : dot_S1024x1024_S1024x1024_S1024x1024_1_0_0_1_n_n.contr.Idx) : (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem pay5_lhs_1 (i : S1024x1024.Idx) (k : dot_S1024x1024_S1024x1024_S1024x1024_1_0_0_1_n_n.contr.Idx) : (dot_S1024x1024_S1024x1024_S1024x1024_1_0_0_1_n_n.lhsIdx i k 1).val = (k ⟨0, by decide⟩).val :=
  dot_S1024x1024_S1024x1024_S1024x1024_1_0_0_1_n_n.lhsIdx_val_of_single rfl i k
theorem pay5_rhs_0 (i : S1024x1024.Idx) (k : dot_S1024x1024_S1024x1024_S1024x1024_1_0_0_1_n_n.contr.Idx) : (dot_S1024x1024_S1024x1024_S1024x1024_1_0_0_1_n_n.rhsIdx i k 0).val = (k ⟨0, by decide⟩).val :=
  dot_S1024x1024_S1024x1024_S1024x1024_1_0_0_1_n_n.rhsIdx_val_of_single rfl i k
theorem pay5_rhs_1 (i : S1024x1024.Idx) (k : dot_S1024x1024_S1024x1024_S1024x1024_1_0_0_1_n_n.contr.Idx) : (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product at (r, q): the sum over the block's 1024 contraction indices. -/
theorem pay5_matmul_apply (a : FVec Ideal S1024x1024 .bf16) (w : FVec Ideal S1024x1024 .bf16) (r : Fin 1024) (q : Fin 1024) :
    matmul dot_S1024x1024_S1024x1024_S1024x1024_1_0_0_1_n_n none a w (constant S1024x1024 .f32 0x00000000#32) (ix2 r q) = ∑ m : Fin 1024, a (ix2 r m) * w (ix2 m q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r q) ((contrEquiv1 dot_S1024x1024_S1024x1024_S1024x1024_1_0_0_1_n_n 1024 rfl rfl).symm k) = ix2 r k := funext fun b => Fin.ext (by
    match b with
    | ⟨0, _⟩ => exact pay5_lhs_0 _ _
    | ⟨1, _⟩ => exact (pay5_lhs_1 _ _).trans hk)
  have er : dot_S1024x1024_S1024x1024_S1024x1024_1_0_0_1_n_n.rhsIdx (ix2 r q) ((contrEquiv1 dot_S1024x1024_S1024x1024_S1024x1024_1_0_0_1_n_n 1024 rfl rfl).symm k) = ix2 k q := funext fun b => Fin.ext (by
    match b with
    | ⟨0, _⟩ => exact (pay5_rhs_0 _ _).trans hk
    | ⟨1, _⟩ => exact pay5_rhs_1 _ _)
  rw [el, er]

/-- The accumulation step at (r, q): the accumulator's entry plus the block product's. -/
theorem pay5_acc_apply (v3 : Vec Ideal S1024x1024 .f32) (v4 : Vec Ideal S1024x1024 .bf16) (v6 : Vec Ideal S1024x1024 .bf16)
    (r : Fin 1024) (q : Fin 1024) :
    k5_pay2 (F := Ideal) v3 v4 v6 (ix2 r q) = v3 (ix2 r q) + ∑ m : Fin 1024, v4 (ix2 r m) * v6 (ix2 m q) := by
  unfold k5_pay2
  simp only [shapeCast_self]
  exact congrArg (v3 (ix2 r q) + ·) (pay5_matmul_apply v4 v6 r q)

/-- The final step at (r, q): the accumulator's entry plus the bias row's entry q, plus the residual's entry. -/
theorem pay5_out_apply (v16 : Vec Ideal S1024x1024 .f32) (v17 : Vec Ideal S1x1024 .f32) (v21 : Vec Ideal S1024x1024 .f32) (r : Fin 1024) (q : Fin 1024) :
    k5_pay3 (F := Ideal) v16 v17 v21 (ix2 r q) = (v16 (ix2 r q) + v17 (ix2 0 q)) + v21 (ix2 r q) := by
  unfold k5_pay3
  simp only [shapeCast_self]
  show (v16 (ix2 r q) + broadcastTo S1024x1024 v17 broadcasts_S1x1024_S1024x1024 (ix2 r q)) + v21 (ix2 r q) = _
  rw [broadcastTo_apply v17 broadcasts_S1x1024_S1024x1024 (ix2 r q) (ix2 0 q) (fun b => by
    match b with
    | ⟨0, _⟩ => rfl
    | ⟨1, _⟩ => rfl)]

end Cert.KernelIdeal.Fr

end
-- ==== Proof.KI.R5ValueBlk.lean ====
/-
  Region 5: where each window's block sits in its array, and a block's entry as the array's entry. At point t = (i, 0, k)
  (i = t / 4, k = t mod 4) the activations' block is rows 1024 i … and columns 1024 k … of its array, the weights' block
  rows 1024 k … (all 1024 columns), the bias block the whole bias row, and the residual's and the output's blocks rows
  1024 i … (all 1024 columns). An entry of a block sits in the array, on each axis, at the block's index times the
  block's extent plus the entry's own coordinate.
-/
import proofs.«171407_j40123584479654_2_alg».proof.Proof.KI.R5Runs
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt F) ((c : Thread nD τ).loc b))

/-- The windows' block indices at every point, decided over the grid's 16 points. -/
theorem win5_idx : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0
    ∧ win5_4.index t (0 : Fin 2) = t.val / 4 ∧ win5_4.index t (1 : Fin 2) = 0 :=
  (by decide +kernel : ∀ t : Fin grid5.N, _)

/-- Entry (r, m) of the activations' block at t is the array's entry (1024 i + r, 1024 k + m). -/
theorem iblk5_0_apply (c : Dev nD) (t : Fin cfg5.N) (r : Fin 1024) (m : Fin 1024) (p k : Fin 4096)
    (hp : p.val = 1024 * (t.val / 4) + r.val) (hk : k.val = 1024 * (t.val % 4) + m.val) :
    (iblk5 V c 0 t : Vec F S1024x1024 .bf16) (ix2 r m)
      = (V c (Pipeline.arrRef spec5 0) : S4096x4096.Idx → Elt F .bf16) (ix2 p k) := by
  obtain ⟨e0, e1, -⟩ := win5_idx t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 1024 + 1 * r.val = p.val; rw [e0, hp]; omega
  | ⟨1, _⟩ => show win5_0.index t (1 : Fin 2) * 1024 + 1 * m.val = k.val; rw [e1, hk]; omega

/-- Entry (m, q) of the weights' block at t is the array's entry (1024 k + m, q). -/
theorem iblk5_1_apply (c : Dev nD) (t : Fin cfg5.N) (m : Fin 1024) (q : Fin 1024) (k : Fin 4096)
    (hk : k.val = 1024 * (t.val % 4) + m.val) :
    (iblk5 V c 1 t : Vec F S1024x1024 .bf16) (ix2 m q)
      = (V c (Pipeline.arrRef spec5 1) : S4096x1024.Idx → Elt F .bf16) (ix2 k q) := by
  obtain ⟨-, -, e0, e1, -⟩ := win5_idx t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 2) * 1024 + 1 * m.val = k.val; rw [e0, hk]; omega
  | ⟨1, _⟩ => show win5_1.index t (1 : Fin 2) * 1024 + 1 * q.val = q.val; rw [e1]; omega

/-- Entry (0, q) of the bias block at t is the bias row's entry q. -/
theorem iblk5_2_apply (c : Dev nD) (t : Fin cfg5.N) (q : Fin 1024) :
    (iblk5 V c 2 t : Vec F S1x1024 .f32) (ix2 0 q)
      = (V c (Pipeline.arrRef spec5 2) : S1x1024.Idx → Elt F .f32) (ix2 0 q) := by
  obtain ⟨-, -, -, -, e0, e1, -⟩ := win5_idx t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 2) * 1 + 1 * 0 = 0; rw [e0]
  | ⟨1, _⟩ => show win5_2.index t (1 : Fin 2) * 1024 + 1 * q.val = q.val; rw [e1]; omega

/-- Entry (r, q) of the residual's block at t is the array's entry (1024 i + r, q). -/
theorem iblk5_3_apply (c : Dev nD) (t : Fin cfg5.N) (r : Fin 1024) (q : Fin 1024) (p : Fin 4096)
    (hp : p.val = 1024 * (t.val / 4) + r.val) :
    (iblk5 V c 3 t : Vec F S1024x1024 .f32) (ix2 r q)
      = (V c (Pipeline.arrRef spec5 3) : S4096x1024.Idx → Elt F .f32) (ix2 p q) := by
  obtain ⟨-, -, -, -, -, -, e0, e1, -⟩ := win5_idx t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 2) * 1024 + 1 * r.val = p.val; rw [e0, hp]; omega
  | ⟨1, _⟩ => show win5_3.index t (1 : Fin 2) * 1024 + 1 * q.val = q.val; rw [e1]; omega

/-- Entry (r, q) of the output's block at t sits at (1024 i + r, q) of the output array. -/
theorem win5_4_emb (t : Fin cfg5.N) (r : Fin 1024) (q : Fin 1024) (p : Fin 4096)
    (hp : p.val = 1024 * (t.val / 4) + r.val) :
    (((cfg5.win 4).blk t).view.emb (ix2 r q) : S4096x1024.Idx) = ix2 p q := by
  obtain ⟨-, -, -, -, -, -, -, -, e0, e1⟩ := win5_idx t
  refine funext fun a => Fin.ext ?_
  match a with
  | ⟨0, _⟩ => show win5_4.index t (0 : Fin 2) * 1024 + 1 * r.val = p.val; rw [e0, hp]; omega
  | ⟨1, _⟩ => show win5_4.index t (1 : Fin 2) * 1024 + 1 * q.val = q.val; rw [e1]; omega

end Cert.KernelIdeal.Fr

end
-- ==== Proof.KI.R5ValueAlg.lean ====
/-
  The last layer's contraction cut into its four K blocks, over the extended reals: the term at contraction index k,
  block b's 1024 indices 1024 b + m, a block's sum, and the four block sums accumulated from zero in order as the
  whole contraction over 4096 indices.
-/
import proofs.«171407_j40123584479654_2_alg».proof.Proof.LayerForms

noncomputable section

namespace Cert.KernelIdeal.Fr

open Idealize.ShloMosaic Idealize.ShloMosaic.ValueIdx
open Cert.Spec
open scoped BigOperators

/-- The product's term at contraction index k, for the output entry (p, q). -/
def term5 (a : T4096x4096.Idx → EReal) (w : T4096x1024.Idx → EReal) (p : Fin 4096) (q : Fin 1024) (k : Fin 4096) : EReal :=
  a (ix2 p k) * w (ix2 k q)

/-- Index m of K block b among the 4096 contraction indices. -/
def kidx5 (b : Fin 4) (m : Fin 1024) : Fin 4096 := ⟨1024 * b.val + m.val, by have := b.isLt; have := m.isLt; omega⟩

theorem kidx5_val (b : Fin 4) (m : Fin 1024) : (kidx5 b m).val = 1024 * b.val + m.val := rfl

/-- K block b's part of the contraction. -/
def blkSum5 (a : T4096x4096.Idx → EReal) (w : T4096x1024.Idx → EReal) (p : Fin 4096) (q : Fin 1024) (b : Fin 4) : EReal :=
  ∑ m : Fin 1024, term5 a w p q (kidx5 b m)

/-- The four block sums accumulated from zero in order are the whole contraction. -/
theorem blkSum5_acc (a : T4096x4096.Idx → EReal) (w : T4096x1024.Idx → EReal) (p : Fin 4096) (q : Fin 1024) :
    ((((0 : EReal) + blkSum5 a w p q 0) + blkSum5 a w p q 1) + blkSum5 a w p q 2) + blkSum5 a w p q 3
      = ∑ k : Fin 4096, term5 a w p q k :=
  acc4 (term5 a w p q) (kidx5 0) (kidx5 1) (kidx5 2) (kidx5 3)
    (fun j => by rw [kidx5_val]; show 1024 * 0 + j.val = j.val; omega)
    (fun j => by rw [kidx5_val]; show 1024 * 1 + j.val = 1024 + j.val; omega)
    (fun j => by rw [kidx5_val]; show 1024 * 2 + j.val = 2048 + j.val; omega)
    (fun j => by rw [kidx5_val]; show 1024 * 3 + j.val = 3072 + j.val; omega)

end Cert.KernelIdeal.Fr

end
-- ==== Proof.KI.R5ValueAcc.lean ====
/-
  Region 5 over the extended reals: the accumulator along a row block's four K blocks. At point t = (i, 0, k), at entry
  (r, q), with p = 1024 i + r: after the first K block the accumulator holds 0 plus block 0's part of the contraction
  of row p of the activations against column q of the weights; each later point adds its own block's part to what the
  point before left. So after the k-th block it holds the first k + 1 parts accumulated from zero in order.
-/
import proofs.«171407_j40123584479654_2_alg».proof.Proof.KI.R5ValueStep
import proofs.«171407_j40123584479654_2_alg».proof.Proof.KI.R5ValuePay
import proofs.«171407_j40123584479654_2_alg».proof.Proof.KI.R5ValueBlk
import proofs.«171407_j40123584479654_2_alg».proof.Proof.KI.R5ValueAlg

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt Ideal) ((c : Thread nD τ).loc b))

/-- A first K block: the accumulator's entry is 0 plus the block's part. -/
theorem acc5_first_entry (c : Dev nD) (t : Fin cfg5.N) (h0 : t.val % 4 = 0) (r q : Fin 1024) (p : Fin 4096)
    (hp : p.val = 1024 * (t.val / 4) + r.val) (b : Fin 4) (hb : b.val = t.val % 4) :
    ((outsAt5 V c t.val t.isLt).2 : Vec Ideal S1024x1024 .f32) (ix2 r q)
      = 0 + blkSum5 (V c (Pipeline.arrRef spec5 0)) (V c (Pipeline.arrRef spec5 1)) p q b := by
  rw [accAt5_first V c t h0]
  refine (pay5_acc_apply _ _ _ r q).trans ?_
  rw [pay5_zero_apply]
  refine congrArg (fun s => (0 : EReal) + s) ?_
  unfold blkSum5 term5
  exact Finset.sum_congr rfl fun m _ => congrArg₂ (· * ·)
    (iblk5_0_apply V c t r m p (kidx5 b m) hp (by rw [kidx5_val, hb]))
    (iblk5_1_apply V c t m q (kidx5 b m) (by rw [kidx5_val, hb]))

/-- Any other point: the accumulator's entry is what the point before left there plus the block's part. -/
theorem acc5_next_entry (c : Dev nD) (t : Fin cfg5.N) (h0 : ¬t.val % 4 = 0) (r q : Fin 1024) (p : Fin 4096)
    (hp : p.val = 1024 * (t.val / 4) + r.val) (b : Fin 4) (hb : b.val = t.val % 4) :
    ((outsAt5 V c t.val t.isLt).2 : Vec Ideal S1024x1024 .f32) (ix2 r q)
      = ((outsAt5 V c (t.val - 1) (Nat.lt_of_le_of_lt (Nat.sub_le _ _) t.isLt)).2 : Vec Ideal S1024x1024 .f32) (ix2 r q)
        + blkSum5 (V c (Pipeline.arrRef spec5 0)) (V c (Pipeline.arrRef spec5 1)) p q b := by
  rw [accAt5_next V c t h0]
  refine (pay5_acc_apply _ _ _ r q).trans ?_
  refine congrArg (fun s => ((outsAt5 V c (t.val - 1) (Nat.lt_of_le_of_lt (Nat.sub_le _ _) t.isLt)).2 : Vec Ideal S1024x1024 .f32) (ix2 r q) + s) ?_
  unfold blkSum5 term5
  exact Finset.sum_congr rfl fun m _ => congrArg₂ (· * ·)
    (iblk5_0_apply V c t r m p (kidx5 b m) hp (by rw [kidx5_val, hb]))
    (iblk5_1_apply V c t m q (kidx5 b m) (by rw [kidx5_val, hb]))

/-- After the first K block. -/
theorem acc5_at0 (c : Dev nD) (t : Fin cfg5.N) (h : t.val % 4 = 0) (r q : Fin 1024) (p : Fin 4096)
    (hp : p.val = 1024 * (t.val / 4) + r.val) :
    ((outsAt5 V c t.val t.isLt).2 : Vec Ideal S1024x1024 .f32) (ix2 r q)
      = 0 + blkSum5 (V c (Pipeline.arrRef spec5 0)) (V c (Pipeline.arrRef spec5 1)) p q 0 :=
  acc5_first_entry V c t h r q p hp 0 (by rw [h]; rfl)

/-- After the second K block. -/
theorem acc5_at1 (c : Dev nD) (t : Fin cfg5.N) (h : t.val % 4 = 1) (r q : Fin 1024) (p : Fin 4096)
    (hp : p.val = 1024 * (t.val / 4) + r.val) :
    ((outsAt5 V c t.val t.isLt).2 : Vec Ideal S1024x1024 .f32) (ix2 r q)
      = (0 + blkSum5 (V c (Pipeline.arrRef spec5 0)) (V c (Pipeline.arrRef spec5 1)) p q 0) + blkSum5 (V c (Pipeline.arrRef spec5 0)) (V c (Pipeline.arrRef spec5 1)) p q 1 := by
  have hN : t.val < 16 := lt_of_lt_of_eq t.isLt N_5
  have hlt : t.val - 1 < cfg5.N := Nat.lt_of_le_of_lt (Nat.sub_le _ _) t.isLt
  refine (acc5_next_entry V c t (by omega) r q p hp 1 (by rw [h]; rfl)).trans ?_
  refine congrArg (fun s => s + blkSum5 (V c (Pipeline.arrRef spec5 0)) (V c (Pipeline.arrRef spec5 1)) p q 1) ?_
  exact acc5_at0 V c ⟨t.val - 1, hlt⟩ (by show (t.val - 1) % 4 = 0; omega) r q p (by show p.val = 1024 * ((t.val - 1) / 4) + r.val; omega)

/-- After the third K block. -/
theorem acc5_at2 (c : Dev nD) (t : Fin cfg5.N) (h : t.val % 4 = 2) (r q : Fin 1024) (p : Fin 4096)
    (hp : p.val = 1024 * (t.val / 4) + r.val) :
    ((outsAt5 V c t.val t.isLt).2 : Vec Ideal S1024x1024 .f32) (ix2 r q)
      = ((0 + blkSum5 (V c (Pipeline.arrRef spec5 0)) (V c (Pipeline.arrRef spec5 1)) p q 0) + blkSum5 (V c (Pipeline.arrRef spec5 0)) (V c (Pipeline.arrRef spec5 1)) p q 1) + blkSum5 (V c (Pipeline.arrRef spec5 0)) (V c (Pipeline.arrRef spec5 1)) p q 2 := by
  have hN : t.val < 16 := lt_of_lt_of_eq t.isLt N_5
  have hlt : t.val - 1 < cfg5.N := Nat.lt_of_le_of_lt (Nat.sub_le _ _) t.isLt
  refine (acc5_next_entry V c t (by omega) r q p hp 2 (by rw [h]; rfl)).trans ?_
  refine congrArg (fun s => s + blkSum5 (V c (Pipeline.arrRef spec5 0)) (V c (Pipeline.arrRef spec5 1)) p q 2) ?_
  exact acc5_at1 V c ⟨t.val - 1, hlt⟩ (by show (t.val - 1) % 4 = 1; omega) r q p (by show p.val = 1024 * ((t.val - 1) / 4) + r.val; omega)

/-- After the last K block: the whole contraction over the 4096 indices. -/
theorem acc5_at3 (c : Dev nD) (t : Fin cfg5.N) (h : t.val % 4 = 3) (r q : Fin 1024) (p : Fin 4096)
    (hp : p.val = 1024 * (t.val / 4) + r.val) :
    ((outsAt5 V c t.val t.isLt).2 : Vec Ideal S1024x1024 .f32) (ix2 r q)
      = ∑ k : Fin 4096, term5 (V c (Pipeline.arrRef spec5 0)) (V c (Pipeline.arrRef spec5 1)) p q k := by
  have hN : t.val < 16 := lt_of_lt_of_eq t.isLt N_5
  have hlt : t.val - 1 < cfg5.N := Nat.lt_of_le_of_lt (Nat.sub_le _ _) t.isLt
  refine (acc5_next_entry V c t (by omega) r q p hp 3 (by rw [h]; rfl)).trans ?_
  refine Eq.trans (congrArg (fun s => s + blkSum5 (V c (Pipeline.arrRef spec5 0)) (V c (Pipeline.arrRef spec5 1)) p q 3) ?_) (blkSum5_acc (V c (Pipeline.arrRef spec5 0)) (V c (Pipeline.arrRef spec5 1)) p q)
  exact acc5_at2 V c ⟨t.val - 1, hlt⟩ (by show (t.val - 1) % 4 = 2; omega) r q p (by show p.val = 1024 * ((t.val - 1) / 4) + r.val; omega)

end Cert.KernelIdeal.Fr

end
-- ==== Proof.KI.R5Value.lean ====
/-
  Region 5 over the extended reals: the output array after the region. At a last K block, t = 4 i + 3, the output block
  holds at entry (r, q), with p = 1024 i + r, the whole contraction of row p of the activations against column q of the
  weights, plus the bias row's entry, plus the residual's entry (p, q), and that point writes the block back as row block
  i of the output array; each such block is the corresponding block of ONE array, the last layer's product given entry by
  entry; the four [1024, 1024] blocks tile the [4096, 1024] array; so the array ends holding that product.
-/
import proofs.«171407_j40123584479654_2_alg».proof.Proof.KI.R5ValueAcc

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable {F : FTy → Type} [FloatOps F]
variable (V : (c : Dev nD) → (b : Ref sig .tc) → Buf (Elt Ideal) ((c : Thread nD τ).loc b))

/-- Entry (r, q) of the output block after a last K block. -/
theorem blockVal5_apply (c : Dev nD) (t : Fin cfg5.N) (h1 : t.val % 4 = 3) (r q : Fin 1024) (p : Fin 4096)
    (hp : p.val = 1024 * (t.val / 4) + r.val) :
    ((outsAt5 V c t.val t.isLt).1 : Vec Ideal S1024x1024 .f32) (ix2 r q)
      = Cert.Spec.denseRowOut (V c (Pipeline.arrRef spec5 0)) (V c (Pipeline.arrRef spec5 1)) (V c (Pipeline.arrRef spec5 2)) (V c (Pipeline.arrRef spec5 3)) p q := by
  rw [blockVal5_last V c t h1]
  refine (pay5_out_apply _ _ _ r q).trans ?_
  unfold Cert.Spec.denseRowOut
  refine congrArg₂ (· + ·) (congrArg₂ (· + ·) ?_ (iblk5_2_apply V c t q)) (iblk5_3_apply V c t r q p hp)
  exact acc5_at3 V c t h1 r q p hp

/-- The last layer's product, entry by entry, of the four operand arrays as the region finds them. -/
def G5 (c : Dev nD) : S4096x1024.Idx → EReal :=
  fun j => Cert.Spec.denseRowOut (V c (Pipeline.arrRef spec5 0)) (V c (Pipeline.arrRef spec5 1)) (V c (Pipeline.arrRef spec5 2)) (V c (Pipeline.arrRef spec5 3)) (j 0) (j 1)

theorem G5_apply (c : Dev nD) (p : Fin 4096) (q : Fin 1024) :
    G5 V c (ix2 p q) = Cert.Spec.denseRowOut (V c (Pipeline.arrRef spec5 0)) (V c (Pipeline.arrRef spec5 1)) (V c (Pipeline.arrRef spec5 2)) (V c (Pipeline.arrRef spec5 3)) p q := rfl

/-- What a last K block's point writes back is its block of that array. -/
theorem flushed5_eq (c : Dev nD) (t : Fin cfg5.N) (hf : (cfg5.win 4).flush t = true) :
    (dat5 V c).flushed 4 t = ((cfg5.win 4).blk t).view.read (Elt Ideal) (G5 V c) := by
  have h1 : t.val % 4 = 3 := (flush5_4 t).mp hf
  show (cfg5.win 4).cut (grid5.coords t) ((dat5 V c).after 4 t) = _
  rw [after5_4]
  funext y
  have hr : (y 0).val < 1024 := (y 0).isLt
  have hq : (y 1).val < 1024 := (y 1).isLt
  have ht : t.val < 16 := lt_of_lt_of_eq t.isLt N_5
  obtain ⟨r, q, rfl⟩ : ∃ (r : Fin 1024) (q : Fin 1024), y = ix2 r q := ⟨y 0, y 1, eq_ix2 y⟩
  rw [View.read_apply]
  rw [win5_4_emb t r q ⟨1024 * (t.val / 4) + r.val, by omega⟩ rfl, G5_apply]
  exact blockVal5_apply V c t h1 r q _ rfl

/-- An index of the array is in point t's block iff each coordinate is in the block's range on its axis. -/
theorem mem_blk5_4 (t : Fin cfg5.N) (i : S4096x1024.Idx) :
    i ∈ ((cfg5.win 4).blk t).view.set ↔ ∀ a : Fin 2, win5_4.index t a * S1024x1024.size a ≤ (i a).val ∧ (i a).val < win5_4.index t a * S1024x1024.size a + S1024x1024.size a := by
  show i ∈ ((View.whole main_v36).slice (win5_4.rect t)).set ↔ _
  rw [View.set_slice_whole, Rect.mem_set_unit]
  exact Iff.rfl

/-- Every index of the array is in the block of the point t = 4 (row / 1024) + 3, which writes back. -/
theorem cover5_4 (i : S4096x1024.Idx) :
    ∃ t : Fin cfg5.N, (cfg5.win 4).flush t = true ∧ i ∈ ((cfg5.win 4).blk t).view.set := by
  have h0 : (i 0).val < 4096 := (i 0).isLt
  have h1 : (i 1).val < 1024 := (i 1).isLt
  have hN : cfg5.N = 16 := N_5
  have hlt : 4 * ((i 0).val / 1024) + 3 < cfg5.N := by rw [hN]; omega
  obtain ⟨-, -, -, -, -, -, -, -, e0, e1⟩ := win5_idx ⟨4 * ((i 0).val / 1024) + 3, hlt⟩
  refine ⟨⟨4 * ((i 0).val / 1024) + 3, hlt⟩, (flush5_4 _).mpr (by show (4 * ((i 0).val / 1024) + 3) % 4 = 3; omega), ?_⟩
  rw [mem_blk5_4]
  intro a
  match a with
  | ⟨0, _⟩ =>
    show win5_4.index _ (0 : Fin 2) * 1024 ≤ (i 0).val ∧ (i 0).val < win5_4.index _ (0 : Fin 2) * 1024 + 1024
    rw [e0]; dsimp only; omega
  | ⟨1, _⟩ =>
    show win5_4.index _ (1 : Fin 2) * 1024 ≤ (i 1).val ∧ (i 1).val < win5_4.index _ (1 : Fin 2) * 1024 + 1024
    rw [e1]; omega

/-- The output array after the region is the last layer's product. -/
theorem final5_arr (c : Dev nD) : (dat5 V c).arrAt 4 cfg5.N = G5 V c :=
  (dat5 V c).arrAt_eq_of_cover 4 (G5 V c) (fun t hf => flushed5_eq V c t hf) cover5_4

/-- Entry (p, q) of the output array after the region. -/
theorem final5 (c : Dev nD) : ∀ (p : Fin 4096) (q : Fin 1024),
    ((dat5 (F := Ideal) V c).arrAt 4 cfg5.N : S4096x1024.Idx → EReal) (ix2 p q)
      = Cert.Spec.denseRowOut (V c (Pipeline.arrRef spec5 0)) (V c (Pipeline.arrRef spec5 1)) (V c (Pipeline.arrRef spec5 2)) (V c (Pipeline.arrRef spec5 3)) p q := fun p q => by
  rw [final5_arr V c]; rfl

end Cert.KernelIdeal.Fr

end
-- ==== Proof.KI.Result.lean ====
/-
  The idealized kernel program's result: the array @main returns, after the whole run, is the specification's function of
  the argument arrays. The six regions' output arrays (each a dense layer of its input arrays, by the regions' value
  theorems) and the seven host stretches are threaded through the boundary valuations W0 … W13 of the run.
-/
import proofs.«171407_j40123584479654_2_alg».proof.Proof.KI.Chain
import proofs.«171407_j40123584479654_2_alg».proof.Proof.KI.HostChain
import proofs.«171407_j40123584479654_2_alg».proof.Proof.KI.R0Value
import proofs.«171407_j40123584479654_2_alg».proof.Proof.KI.R1Value
import proofs.«171407_j40123584479654_2_alg».proof.Proof.KI.R2Value
import proofs.«171407_j40123584479654_2_alg».proof.Proof.KI.R3Value
import proofs.«171407_j40123584479654_2_alg».proof.Proof.KI.R4Value
import proofs.«171407_j40123584479654_2_alg».proof.Proof.KI.R5Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- What @main leaves in its result array, as the specification's function of the launch memory's argument arrays. -/
theorem result_v40 (c : Dev nD) :
    (W13 (F := Ideal) m ρ c (Proc.devRef .tc main_v40) : S4096x2048.Idx → EReal)
      = Cert.Spec.tail (Cert.Spec.core (Cert.Spec.sel0 (m ((c : Thread nD τ).loc main_arg0))) (Cert.Spec.sel1 (m ((c : Thread nD τ).loc main_arg0)))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7))) (Cert.Spec.sel1 (m ((c : Thread nD τ).loc main_arg0))) :=
  kernel_result (W0 m ρ c) (W1 m ρ c) (W2 m ρ c) (W3 m ρ c) (W4 m ρ c) (W5 m ρ c) (W6 m ρ c) (W7 m ρ c) (W8 m ρ c) (W9 m ρ c) (W10 m ρ c) (W11 m ρ c) (W12 m ρ c) (W13 m ρ c)
    rfl rfl rfl rfl rfl rfl rfl
    (fun r hr => W2_keep m ρ c r hr) (fun r hr => W4_keep m ρ c r hr) (fun r hr => W6_keep m ρ c r hr)
    (fun r hr => W8_keep m ρ c r hr) (fun r hr => W10_keep m ρ c r hr) (fun r hr => W12_keep m ρ c r hr)
    (fun p n => (congrFun (W2_arr m ρ c 3) (ix2 p n)).trans (final0 (V1 m ρ) c p n))
    (fun p n => (congrFun (W4_arr m ρ c 3) (ix2 p n)).trans (final1 (V3 m ρ) c p n))
    (fun p n => (congrFun (W6_arr m ρ c 3) (ix2 p n)).trans (final2 (V5 m ρ) c p n))
    (fun p n => (congrFun (W8_arr m ρ c 3) (ix2 p n)).trans (final3 (V7 m ρ) c p n))
    (fun p n => (congrFun (W10_arr m ρ c 3) (ix2 p n)).trans (final4 (V9 m ρ) c p n))
    (fun p q => (congrFun (W12_arr m ρ c 4) (ix2 p q)).trans (final5 (V11 m ρ) c p q))

/-- The idealized kernel program's run with its results named: the result array at the specification's value, the
    returned scalar and every argument as launched. -/
theorem value_run : θ_run (defs (F := Ideal)) (onTc (τ := τ) (main (F := Ideal))) ⟨m, fun _ => 0, ρ⟩ (fun r => ∀ c : Dev nD,
      r.2.mem ((c.tc : Thread nD τ).loc main_v40)
        = Cert.Spec.tail (Cert.Spec.core (Cert.Spec.sel0 (m ((c.tc : Thread nD τ).loc main_arg0))) (Cert.Spec.sel1 (m ((c.tc : Thread nD τ).loc main_arg0)))
          (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7))) (Cert.Spec.sel1 (m ((c.tc : Thread nD τ).loc main_arg0)))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v40 (by decide))).trans (result_v40 m ρ c),
    (h c _ (mem_uc main_arg1 (by decide))).trans (W13_main_arg1 m ρ c),
    (h c _ (mem_uc main_arg0 (by decide))).trans (W13_main_arg0 m ρ c),
    (h c _ (mem_uc main_arg1 (by decide))).trans (W13_main_arg1 m ρ c),
    (h c _ (mem_uc main_arg2 (by decide))).trans (W13_main_arg2 m ρ c),
    (h c _ (mem_uc main_arg3 (by decide))).trans (W13_main_arg3 m ρ c),
    (h c _ (mem_uc main_arg4 (by decide))).trans (W13_main_arg4 m ρ c),
    (h c _ (mem_uc main_arg5 (by decide))).trans (W13_main_arg5 m ρ c),
    (h c _ (mem_uc main_arg6 (by decide))).trans (W13_main_arg6 m ρ c),
    (h c _ (mem_uc main_arg7 (by decide))).trans (W13_main_arg7 m ρ c)⟩) (run_all m ρ)

end Cert.KernelIdeal.Fr

end
-- ==== Proof.RefLayers.lean ====
/-
  The reference's intermediate arrays are the perceptron's layers.

  Each dense layer of the reference is a contraction (read at an index as a finite sum of products), a
  bias broadcast along the rows, an addition, and for the five inner layers a maximum against a zero
  array. Read at the index (p, n), the left operand of the contraction is read at (p, k) and the right one
  at (k, n); weight plane l of the stacked square weights is read at (l, k, n) and the stacked bias at
  (l, n). So each layer's array is the corresponding array of the specification, entry by entry.
-/
import proofs.«171407_j40123584479654_2_alg».proof.Proof.Gen.ReferenceIdeal.Read
import proofs.«171407_j40123584479654_2_alg».proof.Proof.Spec

noncomputable section

namespace Cert.ReferenceIdeal.RefValue

open Cert.ReferenceIdeal Cert.ReferenceIdeal.Read Idealize.ShloMosaic Idealize.ShloMosaic.ValueIdx
open scoped BigOperators

variable (a0 : (⟨S4096x2048, .f32⟩ : BufTy).Contents (Elt Ideal)) (a2 : (⟨S1024x4096, .f32⟩ : BufTy).Contents (Elt Ideal))
  (a3 : (⟨S4096, .f32⟩ : BufTy).Contents (Elt Ideal)) (a4 : (⟨S4x4096x4096, .f32⟩ : BufTy).Contents (Elt Ideal))
  (a5 : (⟨S4x4096, .f32⟩ : BufTy).Contents (Elt Ideal)) (a6 : (⟨S4096x1024, .f32⟩ : BufTy).Contents (Elt Ideal))
  (a7 : (⟨S1024, .f32⟩ : BufTy).Contents (Elt Ideal))

/-- The first layer: x2 against W_in, plus b_in, rectified. -/
theorem layer0_eq :
    val_main_v9 (F := Ideal) a0 a2 a3 = Cert.Spec.hidden0 (val_main_v4 (F := Ideal) a0) a2 a3 := by
  funext j
  obtain ⟨p, n, rfl⟩ : ∃ (p : Fin 4096) (n : Fin 4096), j = ix2 p n := ⟨j 0, j 1, eq_ix2 j⟩
  rw [Cert.Spec.hidden0_apply, val_main_v9_apply, val_main_v8_apply, val_main_v5_apply, val_main_v7_apply,
    val_main_v6_apply, val_main_call0_v0_apply, val_main_call0_cst_apply]
  have el : ∀ k : Fin 1024, lidx_main_v5 (ix2 p n) k = ix2 p k := fun k => funext fun a => by
    match a with | ⟨0, _⟩ => rfl | ⟨1, _⟩ => rfl
  have er : ∀ k : Fin 1024, ridx_main_v5 (ix2 p n) k = ix2 k n := fun k => funext fun a => by
    match a with | ⟨0, _⟩ => rfl | ⟨1, _⟩ => rfl
  have eb : idx_main_v6 (idx_main_v7 (ix2 p n)) = ix1 n := funext fun a => by
    match a with | ⟨0, _⟩ => rfl
  rw [eb, Ideal.maximumf_def, Ideal.addf_def, Ideal.ofBits_def, Ideal.ofBits_zero_f32]
  unfold Cert.Spec.layerIn Cert.Spec.relu
  refine congrArg (fun s => max (s + a3 (ix1 n)) 0) (Finset.sum_congr rfl fun k _ => ?_)
  rw [el, er]

/-- The first square layer: the previous layer against plane 0 of W_h, plus row 0 of b_h, rectified. -/
theorem layer1_eq :
    val_main_v18 (F := Ideal) a0 a2 a3 a4 a5
      = Cert.Spec.hidden 0 (val_main_v9 (F := Ideal) a0 a2 a3) a4 a5 := by
  funext j
  obtain ⟨p, n, rfl⟩ : ∃ (p : Fin 4096) (n : Fin 4096), j = ix2 p n := ⟨j 0, j 1, eq_ix2 j⟩
  rw [Cert.Spec.hidden_apply, val_main_v18_apply, val_main_v17_apply, val_main_v12_apply, val_main_v16_apply,
    val_main_v15_apply, val_main_v14_apply, val_main_v13_apply, val_main_call1_v0_apply, val_main_call1_cst_apply]
  have el : ∀ k : Fin 4096, lidx_main_v12 (ix2 p n) k = ix2 p k := fun k => funext fun a => by
    match a with | ⟨0, _⟩ => rfl | ⟨1, _⟩ => rfl
  -- plane 0 of the stacked weights, flattened to [4096, 4096], at (k, n) is W_h at (0, k, n)
  have ew : ∀ k : Fin 4096, val_main_v11 (F := Ideal) a4 (ridx_main_v12 (ix2 p n) k) = a4 (ix3 (0 : Fin 4) k n) := fun k => by
    rw [val_main_v11_apply, val_main_v10_apply]
    refine congrArg a4 (funext fun a => ?_)
    match a with
    | ⟨0, _⟩ => rfl
    | ⟨1, _⟩ => exact Fin.ext (by have hk := k.isLt; have hn := n.isLt; show (k.val * 4096 + n.val) / 4096 % 4096 = k.val; omega)
    | ⟨2, _⟩ => exact Fin.ext (by have hk := k.isLt; have hn := n.isLt; show (k.val * 4096 + n.val) % 4096 = n.val; omega)
  -- row 0 of the stacked bias, broadcast along the rows, at (p, n) is b_h at (0, n)
  have eb : idx_main_v13 (idx_main_v14 (idx_main_v15 (idx_main_v16 (ix2 p n)))) = ix2 (0 : Fin 4) n := funext fun a => by
    match a with
    | ⟨0, _⟩ => rfl
    | ⟨1, _⟩ => exact Fin.ext (by have hn := n.isLt; show n.val % 4096 = n.val; omega)
  rw [eb, Ideal.maximumf_def, Ideal.addf_def, Ideal.ofBits_def, Ideal.ofBits_zero_f32]
  unfold Cert.Spec.layerH Cert.Spec.relu
  refine congrArg (fun s => max (s + a5 (ix2 (0 : Fin 4) n)) 0) (Finset.sum_congr rfl fun k _ => ?_)
  rw [el, ew]

/-- The second square layer: the previous layer against plane 1 of W_h, plus row 1 of b_h, rectified. -/
theorem layer2_eq :
    val_main_v27 (F := Ideal) a0 a2 a3 a4 a5
      = Cert.Spec.hidden 1 (val_main_v18 (F := Ideal) a0 a2 a3 a4 a5) a4 a5 := by
  funext j
  obtain ⟨p, n, rfl⟩ : ∃ (p : Fin 4096) (n : Fin 4096), j = ix2 p n := ⟨j 0, j 1, eq_ix2 j⟩
  rw [Cert.Spec.hidden_apply, val_main_v27_apply, val_main_v26_apply, val_main_v21_apply, val_main_v25_apply,
    val_main_v24_apply, val_main_v23_apply, val_main_v22_apply, val_main_call2_v0_apply, val_main_call2_cst_apply]
  have el : ∀ k : Fin 4096, lidx_main_v21 (ix2 p n) k = ix2 p k := fun k => funext fun a => by
    match a with | ⟨0, _⟩ => rfl | ⟨1, _⟩ => rfl
  -- plane 1 of the stacked weights, flattened to [4096, 4096], at (k, n) is W_h at (1, k, n)
  have ew : ∀ k : Fin 4096, val_main_v20 (F := Ideal) a4 (ridx_main_v21 (ix2 p n) k) = a4 (ix3 (1 : Fin 4) k n) := fun k => by
    rw [val_main_v20_apply, val_main_v19_apply]
    refine congrArg a4 (funext fun a => ?_)
    match a with
    | ⟨0, _⟩ => rfl
    | ⟨1, _⟩ => exact Fin.ext (by have hk := k.isLt; have hn := n.isLt; show (k.val * 4096 + n.val) / 4096 % 4096 = k.val; omega)
    | ⟨2, _⟩ => exact Fin.ext (by have hk := k.isLt; have hn := n.isLt; show (k.val * 4096 + n.val) % 4096 = n.val; omega)
  -- row 1 of the stacked bias, broadcast along the rows, at (p, n) is b_h at (1, n)
  have eb : idx_main_v22 (idx_main_v23 (idx_main_v24 (idx_main_v25 (ix2 p n)))) = ix2 (1 : Fin 4) n := funext fun a => by
    match a with
    | ⟨0, _⟩ => rfl
    | ⟨1, _⟩ => exact Fin.ext (by have hn := n.isLt; show n.val % 4096 = n.val; omega)
  rw [eb, Ideal.maximumf_def, Ideal.addf_def, Ideal.ofBits_def, Ideal.ofBits_zero_f32]
  unfold Cert.Spec.layerH Cert.Spec.relu
  refine congrArg (fun s => max (s + a5 (ix2 (1 : Fin 4) n)) 0) (Finset.sum_congr rfl fun k _ => ?_)
  rw [el, ew]

/-- The third square layer: the previous layer against plane 2 of W_h, plus row 2 of b_h, rectified. -/
theorem layer3_eq :
    val_main_v36 (F := Ideal) a0 a2 a3 a4 a5
      = Cert.Spec.hidden 2 (val_main_v27 (F := Ideal) a0 a2 a3 a4 a5) a4 a5 := by
  funext j
  obtain ⟨p, n, rfl⟩ : ∃ (p : Fin 4096) (n : Fin 4096), j = ix2 p n := ⟨j 0, j 1, eq_ix2 j⟩
  rw [Cert.Spec.hidden_apply, val_main_v36_apply, val_main_v35_apply, val_main_v30_apply, val_main_v34_apply,
    val_main_v33_apply, val_main_v32_apply, val_main_v31_apply, val_main_call3_v0_apply, val_main_call3_cst_apply]
  have el : ∀ k : Fin 4096, lidx_main_v30 (ix2 p n) k = ix2 p k := fun k => funext fun a => by
    match a with | ⟨0, _⟩ => rfl | ⟨1, _⟩ => rfl
  -- plane 2 of the stacked weights, flattened to [4096, 4096], at (k, n) is W_h at (2, k, n)
  have ew : ∀ k : Fin 4096, val_main_v29 (F := Ideal) a4 (ridx_main_v30 (ix2 p n) k) = a4 (ix3 (2 : Fin 4) k n) := fun k => by
    rw [val_main_v29_apply, val_main_v28_apply]
    refine congrArg a4 (funext fun a => ?_)
    match a with
    | ⟨0, _⟩ => rfl
    | ⟨1, _⟩ => exact Fin.ext (by have hk := k.isLt; have hn := n.isLt; show (k.val * 4096 + n.val) / 4096 % 4096 = k.val; omega)
    | ⟨2, _⟩ => exact Fin.ext (by have hk := k.isLt; have hn := n.isLt; show (k.val * 4096 + n.val) % 4096 = n.val; omega)
  -- row 2 of the stacked bias, broadcast along the rows, at (p, n) is b_h at (2, n)
  have eb : idx_main_v31 (idx_main_v32 (idx_main_v33 (idx_main_v34 (ix2 p n)))) = ix2 (2 : Fin 4) n := funext fun a => by
    match a with
    | ⟨0, _⟩ => rfl
    | ⟨1, _⟩ => exact Fin.ext (by have hn := n.isLt; show n.val % 4096 = n.val; omega)
  rw [eb, Ideal.maximumf_def, Ideal.addf_def, Ideal.ofBits_def, Ideal.ofBits_zero_f32]
  unfold Cert.Spec.layerH Cert.Spec.relu
  refine congrArg (fun s => max (s + a5 (ix2 (2 : Fin 4) n)) 0) (Finset.sum_congr rfl fun k _ => ?_)
  rw [el, ew]

/-- The fourth square layer: the previous layer against plane 3 of W_h, plus row 3 of b_h, rectified. -/
theorem layer4_eq :
    val_main_v45 (F := Ideal) a0 a2 a3 a4 a5
      = Cert.Spec.hidden 3 (val_main_v36 (F := Ideal) a0 a2 a3 a4 a5) a4 a5 := by
  funext j
  obtain ⟨p, n, rfl⟩ : ∃ (p : Fin 4096) (n : Fin 4096), j = ix2 p n := ⟨j 0, j 1, eq_ix2 j⟩
  rw [Cert.Spec.hidden_apply, val_main_v45_apply, val_main_v44_apply, val_main_v39_apply, val_main_v43_apply,
    val_main_v42_apply, val_main_v41_apply, val_main_v40_apply, val_main_call4_v0_apply, val_main_call4_cst_apply]
  have el : ∀ k : Fin 4096, lidx_main_v39 (ix2 p n) k = ix2 p k := fun k => funext fun a => by
    match a with | ⟨0, _⟩ => rfl | ⟨1, _⟩ => rfl
  -- plane 3 of the stacked weights, flattened to [4096, 4096], at (k, n) is W_h at (3, k, n)
  have ew : ∀ k : Fin 4096, val_main_v38 (F := Ideal) a4 (ridx_main_v39 (ix2 p n) k) = a4 (ix3 (3 : Fin 4) k n) := fun k => by
    rw [val_main_v38_apply, val_main_v37_apply]
    refine congrArg a4 (funext fun a => ?_)
    match a with
    | ⟨0, _⟩ => rfl
    | ⟨1, _⟩ => exact Fin.ext (by have hk := k.isLt; have hn := n.isLt; show (k.val * 4096 + n.val) / 4096 % 4096 = k.val; omega)
    | ⟨2, _⟩ => exact Fin.ext (by have hk := k.isLt; have hn := n.isLt; show (k.val * 4096 + n.val) % 4096 = n.val; omega)
  -- row 3 of the stacked bias, broadcast along the rows, at (p, n) is b_h at (3, n)
  have eb : idx_main_v40 (idx_main_v41 (idx_main_v42 (idx_main_v43 (ix2 p n)))) = ix2 (3 : Fin 4) n := funext fun a => by
    match a with
    | ⟨0, _⟩ => rfl
    | ⟨1, _⟩ => exact Fin.ext (by have hn := n.isLt; show n.val % 4096 = n.val; omega)
  rw [eb, Ideal.maximumf_def, Ideal.addf_def, Ideal.ofBits_def, Ideal.ofBits_zero_f32]
  unfold Cert.Spec.layerH Cert.Spec.relu
  refine congrArg (fun s => max (s + a5 (ix2 (3 : Fin 4) n)) 0) (Finset.sum_congr rfl fun k _ => ?_)
  rw [el, ew]

/-- The five rectified layers together. -/
theorem mlp_eq :
    val_main_v45 (F := Ideal) a0 a2 a3 a4 a5 = Cert.Spec.mlp (val_main_v4 (F := Ideal) a0) a2 a3 a4 a5 := by
  unfold Cert.Spec.mlp
  rw [layer4_eq, layer3_eq, layer2_eq, layer1_eq, layer0_eq]

/-- Plane 0 of the result: x1 plus the last layer (the contraction against W_out, plus b_out). -/
theorem core_eq :
    val_main_v50 (F := Ideal) a0 a2 a3 a4 a5 a6 a7
      = Cert.Spec.core (val_main_v2 (F := Ideal) a0) (val_main_v4 (F := Ideal) a0) a2 a3 a4 a5 a6 a7 := by
  funext j
  obtain ⟨p, q, rfl⟩ : ∃ (p : Fin 4096) (q : Fin 1024), j = ix2 p q := ⟨j 0, j 1, eq_ix2 j⟩
  rw [Cert.Spec.core_apply, val_main_v50_apply, val_main_v49_apply, val_main_v46_apply, val_main_v48_apply,
    val_main_v47_apply, mlp_eq]
  have el : ∀ k : Fin 4096, lidx_main_v46 (ix2 p q) k = ix2 p k := fun k => funext fun a => by
    match a with | ⟨0, _⟩ => rfl | ⟨1, _⟩ => rfl
  have er : ∀ k : Fin 4096, ridx_main_v46 (ix2 p q) k = ix2 k q := fun k => funext fun a => by
    match a with | ⟨0, _⟩ => rfl | ⟨1, _⟩ => rfl
  have eb : idx_main_v47 (idx_main_v48 (ix2 p q)) = ix1 q := funext fun a => by
    match a with | ⟨0, _⟩ => rfl
  rw [eb]
  simp only [Ideal.addf_def]
  unfold Cert.Spec.layerOut
  refine congrArg (fun s => val_main_v2 (F := Ideal) a0 (ix2 p q) + (s + a7 (ix1 q))) (Finset.sum_congr rfl fun k _ => ?_)
  rw [el, er]

end Cert.ReferenceIdeal.RefValue

end
-- ==== Proof.RefSide.lean ====
/-
  What the reference computes, as one term of its argument arrays.

  The reference splits x into its planes x1 and x2 (the layout operations Spec.sel0, Spec.sel1), applies the
  perceptron to x2, adds the outcome to x1 (Spec.core) and interleaves that sum with the untouched x2
  (Spec.tail). Its run therefore ends with the result array at
    Spec.tail (Spec.core (Spec.sel0 x) (Spec.sel1 x) W_in b_in W_h b_h W_out b_out) (Spec.sel1 x)
  and every argument array as it was. The layout operations are never opened: the stages that apply them
  are the specification's own terms, up to the proofs of the shape side conditions.
-/
import proofs.«171407_j40123584479654_2_alg».proof.Defs
import proofs.«171407_j40123584479654_2_alg».proof.Proof.Gen.ReferenceIdeal
import proofs.«171407_j40123584479654_2_alg».proof.Proof.Gen.Pre_finite_inputs
import proofs.«171407_j40123584479654_2_alg».proof.Proof.Gen.ReferenceIdeal.Run
import proofs.«171407_j40123584479654_2_alg».proof.Proof.Gen.ReferenceIdeal.Read
import proofs.«171407_j40123584479654_2_alg».proof.Proof.RefLayers

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

section
variable (a0 : (⟨S4096x2048, .f32⟩ : BufTy).Contents (Elt Ideal)) (a2 : (⟨S1024x4096, .f32⟩ : BufTy).Contents (Elt Ideal))
  (a3 : (⟨S4096, .f32⟩ : BufTy).Contents (Elt Ideal)) (a4 : (⟨S4x4096x4096, .f32⟩ : BufTy).Contents (Elt Ideal))
  (a5 : (⟨S4x4096, .f32⟩ : BufTy).Contents (Elt Ideal)) (a6 : (⟨S4096x1024, .f32⟩ : BufTy).Contents (Elt Ideal))
  (a7 : (⟨S1024, .f32⟩ : BufTy).Contents (Elt Ideal))

/-- The reference's x1 is plane 0 of x: the same three layout operations. -/
theorem sel0_eq : val_main_v2 (F := Ideal) a0 = Cert.Spec.sel0 a0 := by
  unfold val_main_v2 val_main_v1 val_main_v0 Cert.Spec.sel0
  rfl

/-- The reference's x2 is plane 1 of x: the same three layout operations. -/
theorem sel1_eq : val_main_v4 (F := Ideal) a0 = Cert.Spec.sel1 a0 := by
  unfold val_main_v4 val_main_v3 val_main_v0 Cert.Spec.sel1
  rfl

/-- The reference's result: x1 plus the perceptron of x2, interleaved with x2. -/
theorem result_eq :
    val_main_v54 (F := Ideal) a0 a2 a3 a4 a5 a6 a7
      = Cert.Spec.tail (Cert.Spec.core (Cert.Spec.sel0 a0) (Cert.Spec.sel1 a0) a2 a3 a4 a5 a6 a7) (Cert.Spec.sel1 a0) := by
  rw [← sel0_eq, ← sel1_eq, ← core_eq]
  unfold val_main_v54 val_main_v53 val_main_v51 val_main_v52 Cert.Spec.tail
  rfl

end

/-- Every execution of the reference terminates with the result array at the specification's term of the
    argument arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54)
        = Cert.Spec.tail (Cert.Spec.core (Cert.Spec.sel0 (m ((c.tc : Thread nD τ).loc main_arg0)))
            (Cert.Spec.sel1 (m ((c.tc : Thread nD τ).loc main_arg0))) (m ((c.tc : Thread nD τ).loc main_arg2))
            (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7))) (Cert.Spec.sel1 (m ((c.tc : Thread nD τ).loc main_arg0)))
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((Read.val_main_v54_eq m c).trans (result_eq _ _ _ _ _ _ _)), (h c).2⟩)
    (Cert.ReferenceIdeal.Value.run (F := Ideal) m ρ)

end Cert.ReferenceIdeal.RefValue

namespace Cert.Proof.RefClaims

open Idealize.ShloMosaic Idealize.SL.Sem

/-- The reference runs and leaves its arguments as they were: its run with the result dropped. -/
theorem frame_ri : Cert.frame_ReferenceIdeal := fun m ρ _ =>
  (θ_run Cert.ReferenceIdeal.defs _ _).mono (fun _ h c => (h c).2.2)
    (Cert.ReferenceIdeal.Value.run (F := Ideal) m ρ)

end Cert.Proof.RefClaims

end
-- ==== Proof.lean ====
/-
  The certificate. Each program is a six-layer perceptron on one half of the input's interleaved columns, added to the
  other half: six dense layers, each computed by a pallas_call that walks a grid of (row block, column block, K block),
  accumulates the K blocks' products in an f32 accumulator and finishes the block (bias, relu or the residual) at the
  last K block; the reference is the same perceptron as whole-array host operations.
  * frames: the kernel programs' runs are the chain of their seven host stretches and six regions, each region's frame
    from its body's triple per control case and the invariant that carries the accumulator between grid points; no
    item writes an argument. The reference's frame is its run with the results dropped.
  * preserves: the ideal pass rewrote nothing.
  * algebraic: at the ideal instance both programs return the specification's function of the arguments — on the
    kernel side because a sum over the contracted axis is the sum of its four blocks' sums and format changes are the
    identity; addition on the extended reals is associative and commutative, so finiteness of the inputs is not used.
-/
import proofs.«171407_j40123584479654_2_alg».proof.Defs
import proofs.«171407_j40123584479654_2_alg».proof.Proof.Gen.Kernel
import proofs.«171407_j40123584479654_2_alg».proof.Proof.Gen.KernelIdeal
import proofs.«171407_j40123584479654_2_alg».proof.Proof.Gen.ReferenceIdeal
import proofs.«171407_j40123584479654_2_alg».proof.Proof.Gen.Pre_finite_inputs
import proofs.«171407_j40123584479654_2_alg».proof.Proof.K.Chain
import proofs.«171407_j40123584479654_2_alg».proof.Proof.KI.Chain
import proofs.«171407_j40123584479654_2_alg».proof.Proof.KI.Result
import proofs.«171407_j40123584479654_2_alg».proof.Proof.RefSide

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ

/-- Both idealized programs end with the specification's value of arguments that agree. -/
theorem algebraic : Cert.algebraic_KernelIdeal_ReferenceIdeal := by
  intro m ρ m' ρ' _ hagree
  refine ⟨_, _, Cert.KernelIdeal.Fr.value_run m ρ, ?_⟩
  refine (θ_run Cert.ReferenceIdeal.defs _ _).mono (fun _ h c => ⟨?_, ?_, (h c).2.2⟩) (Cert.ReferenceIdeal.RefValue.run m' ρ')
  · rw [(h c).1, (hagree c).1, (hagree c).2.2.1, (hagree c).2.2.2.1, (hagree c).2.2.2.2.1, (hagree c).2.2.2.2.2.1, (hagree c).2.2.2.2.2.2.1, (hagree c).2.2.2.2.2.2.2]
  · rw [(h c).2.1, (hagree c).2.1]

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
